-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128x128 : Shape := ⟨3, ![1, 128, 128]⟩
abbrev S5x128x128 : Shape := ⟨3, ![5, 128, 128]⟩
abbrev S1x128 : Shape := ⟨2, ![1, 128]⟩
abbrev S5x128 : Shape := ⟨2, ![5, 128]⟩
abbrev S5x1x128 : Shape := ⟨3, ![5, 1, 128]⟩
abbrev S2000x128 : Shape := ⟨2, ![2000, 128]⟩
abbrev S400x10000 : Shape := ⟨2, ![400, 10000]⟩
abbrev S400x128 : Shape := ⟨2, ![400, 128]⟩
abbrev S1x1x128 : Shape := ⟨3, ![1, 1, 128]⟩

abbrev nBuf : Space → Nat
  | .hbm => 31
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128x128, .f32⟩
  | .hbm, ⟨13, _⟩ => ⟨S1x128x128, .f32⟩
  | .hbm, ⟨14, _⟩ => ⟨S1x128x128, .f32⟩
  | .hbm, ⟨15, _⟩ => ⟨S1x128x128, .f32⟩
  | .hbm, ⟨16, _⟩ => ⟨S1x128x128, .f32⟩
  | .hbm, ⟨17, _⟩ => ⟨S5x128x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S5x128, .f32⟩
  | .hbm, ⟨24, _⟩ => ⟨S5x1x128, .f32⟩
  | .hbm, ⟨25, _⟩ => ⟨S10000x128, .bf16⟩
  | .hbm, ⟨26, _⟩ => ⟨S1x128, .f32⟩
  | .hbm, ⟨27, _⟩ => ⟨S10000x128, .f32⟩
  | .hbm, ⟨28, _⟩ => ⟨S10000x10000, .bf16⟩
  | .hbm, ⟨29, _⟩ => ⟨S10000x128, .bf16⟩
  | .hbm, ⟨30, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S400x10000, .f32⟩
  | .local _ .vmem, ⟨6, _⟩ => ⟨S400x10000, .f32⟩
  | .local _ .vmem, ⟨7, _⟩ => ⟨S10000x128, .bf16⟩
  | .local _ .vmem, ⟨8, _⟩ => ⟨S1x128, .f32⟩
  | .local _ .vmem, ⟨9, _⟩ => ⟨S128x128, .f32⟩
  | .local _ .vmem, ⟨10, _⟩ => ⟨S400x128, .f32⟩
  | .local _ .vmem, ⟨11, _⟩ => ⟨S400x128, .f32⟩
  | .local _ .vmem, ⟨12, _⟩ => ⟨S400x10000, .bf16⟩
  | .local _ .vmem, ⟨13, _⟩ => ⟨S400x10000, .bf16⟩
  | .local _ .vmem, ⟨14, _⟩ => ⟨S400x128, .bf16⟩
  | .local _ .vmem, ⟨15, _⟩ => ⟨S400x128, .bf16⟩
  | .local _ .vmem, ⟨16, _⟩ => ⟨S400x10000, .bf16⟩
  | .local _ .vmem, ⟨17, _⟩ => ⟨S400x10000, .bf16⟩
  | .local _ .vmem, ⟨18, _⟩ => ⟨S10000x128, .bf16⟩
  | .local _ .vmem, ⟨19, _⟩ => ⟨S400x128, .f32⟩
  | .local _ .vmem, ⟨20, _⟩ => ⟨S400x128, .f32⟩
  | .local _ .vmem, ⟨21, _⟩ => ⟨S1x128x128, .f32⟩
  | .local _ .vmem, ⟨22, _⟩ => ⟨S1x128x128, .f32⟩
  | .local _ .vmem, ⟨23, _⟩ => ⟨S1x1x128, .f32⟩
  | .local _ .vmem, ⟨24, _⟩ => ⟨S1x1x128, .f32⟩
  | .local _ .vmem, ⟨25, _⟩ => ⟨S400x128, .f32⟩
  | .local _ .vmem, ⟨26, _⟩ => ⟨S400x128, .f32⟩
  | .local _ .vmem, ⟨27, _⟩ => ⟨S10000x128, .bf16⟩
  | .local _ .vmem, ⟨28, _⟩ => ⟨S10000x128, .bf16⟩
  | .local _ .vmem, ⟨29, _⟩ => ⟨S10000x128, .f32⟩
  | .local _ .vmem, ⟨30, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc2_scratch1 : Ref sig .tc := ⟨.vmem, 28, rfl⟩
abbrev cc2_scratch2 : Ref sig .tc := ⟨.vmem, 29, rfl⟩
abbrev cc2_scratch3 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 25], ![false, false]⟩

def k2_cond1 (i : grid2.Coords) : BitVec 1 :=
  let arg0 : BitVec 32 := BitVec.ofNat 32 (i 0).val
  let c0_i32_4 : BitVec 32 := 0#32
  let v14 : BitVec 1 := Scalar.cmpi .eq arg0 c0_i32_4
  let v15 : BitVec 32 := Scalar.extui v14
  let c0_i32_5 : BitVec 32 := 0#32
  let v16 : BitVec 1 := Scalar.cmpi .ne v15 c0_i32_5
  v16

def k2_off1 (i : grid2.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c24_i32 : BitVec 32 := 24#32
  let v11 : BitVec 32 := Scalar.subi c24_i32 arg1
  let v12 : BitVec 32 := Scalar.select v10 arg1 v11
  let c400_i32 : BitVec 32 := 400#32
  let v13 : BitVec 32 := Scalar.muli v12 c400_i32
  let v43 : Index := Scalar.indexCast v13
  let c0_20 : Index := 0#32
  ![v43.toNat, 0]
def k2_cond2 (i : grid2.Coords) : BitVec 1 :=
  let arg0 : BitVec 32 := BitVec.ofNat 32 (i 0).val
  let c1_i32_6 : BitVec 32 := 1#32
  let v17 : BitVec 1 := Scalar.cmpi .eq arg0 c1_i32_6
  let v18 : BitVec 32 := Scalar.extui v17
  let c0_i32_7 : BitVec 32 := 0#32
  let v19 : BitVec 1 := Scalar.cmpi .ne v18 c0_i32_7
  v19

def k2_off2 (i : grid2.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c24_i32 : BitVec 32 := 24#32
  let v11 : BitVec 32 := Scalar.subi c24_i32 arg1
  let v12 : BitVec 32 := Scalar.select v10 arg1 v11
  let c400_i32 : BitVec 32 := 400#32
  let v13 : BitVec 32 := Scalar.muli v12 c400_i32
  let v35 : Index := Scalar.indexCast v13
  let c0_17 : Index := 0#32
  ![v35.toNat, 0]
def k2_cond3 (i : grid2.Coords) : BitVec 1 :=
  let arg0 : BitVec 32 := BitVec.ofNat 32 (i 0).val
  let c2_i32_8 : BitVec 32 := 2#32
  let v20 : BitVec 1 := Scalar.cmpi .eq arg0 c2_i32_8
  let v21 : BitVec 32 := Scalar.extui v20
  let c0_i32_9 : BitVec 32 := 0#32
  let v22 : BitVec 1 := Scalar.cmpi .ne v21 c0_i32_9
  v22

def k2_off3 (i : grid2.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c24_i32 : BitVec 32 := 24#32
  let v11 : BitVec 32 := Scalar.subi c24_i32 arg1
  let v12 : BitVec 32 := Scalar.select v10 arg1 v11
  let c400_i32 : BitVec 32 := 400#32
  let v13 : BitVec 32 := Scalar.muli v12 c400_i32
  let v39 : Index := Scalar.indexCast v13
  let c0_20 : Index := 0#32
  ![v39.toNat, 0]
def k2_cond4 (i : grid2.Coords) : BitVec 1 :=
  let arg0 : BitVec 32 := BitVec.ofNat 32 (i 0).val
  let c3_i32 : BitVec 32 := 3#32
  let v23 : BitVec 1 := Scalar.cmpi .eq arg0 c3_i32
  let v24 : BitVec 32 := Scalar.extui v23
  let c0_i32_10 : BitVec 32 := 0#32
  let v25 : BitVec 1 := Scalar.cmpi .ne v24 c0_i32_10
  v25

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c24_i32 : BitVec 32 := 24#32
  let v11 : BitVec 32 := Scalar.subi c24_i32 arg1
  let v12 : BitVec 32 := Scalar.select v10 arg1 v11
  let c0_i32_4 : BitVec 32 := 0#32
  let c0_i32_5 : BitVec 32 := 0#32
  ![v12.toNat, c0_i32_4.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c24_i32 : BitVec 32 := 24#32
  let v11 : BitVec 32 := Scalar.subi c24_i32 arg1
  let v12 : BitVec 32 := Scalar.select v10 arg1 v11
  let c0_i32_4 : BitVec 32 := 0#32
  let c0_i32_5 : BitVec 32 := 0#32
  ![v12.toNat, c0_i32_4.toNat]

def cc2_transform_3 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c4_i32 : BitVec 32 := 4#32
  let v1 : BitVec 32 := Scalar.minsi v0 c4_i32
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c24_i32 : BitVec 32 := 24#32
  let v1 : BitVec 32 := Scalar.subi c24_i32 arg1
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bcast_S128x128_S1x128x128_1_2 : S128x128.BroadcastsInDim S1x128x128 (![1, 2] : Fin 2 → Fin S1x128x128.rank)
  concatenates_S1x128x128_S1x128x128_S1x128x128_S1x128x128_S1x128x128_S5x128x128_d0 : Shape.Concatenates [S1x128x128, S1x128x128, S1x128x128, S1x128x128, S1x128x128] S5x128x128 0
  bcast_S128_S1x128_1 : S128.BroadcastsInDim S1x128 (![1] : Fin 1 → Fin S1x128.rank)
  concatenates_S1x128_S1x128_S1x128_S1x128_S1x128_S5x128_d0 : Shape.Concatenates [S1x128, S1x128, S1x128, S1x128, S1x128] S5x128 0
  shapeCasts_S5x128_S5x1x128 : S5x128.ShapeCasts S5x1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S400x128_S400x128 : S400x128.ShapeCasts S400x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .bf16 = 32 ∨ (Rect.block (s := S10000x128) S400x128.size (cc1_transform_6 i) (hinb1_6 i)).WholeWords (EltTy.packing .bf16)
  hrank2 : 0 < grid2.rank
  k2_off1_inb : ∀ i : grid2.Coords, ∀ (k2_h1 : k2_cond1 i = 1#1), ∀ a, (k2_off1 i) a + S400x128.size a ≤ S10000x128.size a
  k2_off1_packedbf16 : ∀ i : grid2.Coords, ∀ (k2_h1 : k2_cond1 i = 1#1), (Rect.unit (s := S10000x128) (k2_off1 i) S400x128.size (k2_off1_inb i k2_h1)).PackedRows (EltTy.packing .bf16)
  k2_off2_inb : ∀ i : grid2.Coords, ∀ (k2_h2 : k2_cond2 i = 1#1), ∀ a, (k2_off2 i) a + S400x128.size a ≤ S10000x128.size a
  k2_off2_packedbf16 : ∀ i : grid2.Coords, ∀ (k2_h2 : k2_cond2 i = 1#1), (Rect.unit (s := S10000x128) (k2_off2 i) S400x128.size (k2_off2_inb i k2_h2)).PackedRows (EltTy.packing .bf16)
  k2_off3_inb : ∀ i : grid2.Coords, ∀ (k2_h3 : k2_cond3 i = 1#1), ∀ a, (k2_off3 i) a + S400x128.size a ≤ S10000x128.size a
  k2_off3_packedbf16 : ∀ i : grid2.Coords, ∀ (k2_h3 : k2_cond3 i = 1#1), (Rect.unit (s := S10000x128) (k2_off3 i) S400x128.size (k2_off3_inb i k2_h3)).PackedRows (EltTy.packing .bf16)
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x128.size a ≤ S5x128x128.size a
  hwx2_3 : ∀ i : grid2.Coords, EltTy.bits .f32 = 32 ∨ (Rect.block (s := S5x128x128) S1x128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S5x1x128.size a
  hwx2_4 : ∀ i : grid2.Coords, EltTy.bits .f32 = 32 ∨ (Rect.block (s := S5x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S400x10000.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_2) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x128x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x1x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v16) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond4 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .i1⟩
  | .hbm, ⟨34, _⟩ => ⟨S_, .f32⟩
  | .hbm, ⟨35, _⟩ => ⟨S10000x128, .f32⟩
  | .hbm, ⟨36, _⟩ => ⟨S10000x128, .i1⟩
  | .hbm, ⟨37, _⟩ => ⟨S_, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S_, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S1x128, .f32⟩
  | .hbm, ⟨70, _⟩ => ⟨S10000x128, .f32⟩
  | .hbm, ⟨71, _⟩ => ⟨S10000x128, .f32⟩
  | .hbm, ⟨72, _⟩ => ⟨S_, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .f32⟩
  | .hbm, ⟨80, _⟩ => ⟨S10000x128, .f32⟩
  | .hbm, ⟨81, _⟩ => ⟨S10000x128, .f32⟩
  | .hbm, ⟨82, _⟩ => ⟨S1x128, .f32⟩
  | .hbm, ⟨83, _⟩ => ⟨S10000x128, .f32⟩
  | .hbm, ⟨84, _⟩ => ⟨S10000x128, .f32⟩
  | .hbm, ⟨85, _⟩ => ⟨S_, .f32⟩
  | .hbm, ⟨86, _⟩ => ⟨S10000x128, .f32⟩
  | .hbm, ⟨87, _⟩ => ⟨S10000x128, .i1⟩
  | .hbm, ⟨88, _⟩ => ⟨S_, .f32⟩
  | .hbm, ⟨89, _⟩ => ⟨S10000x128, .f32⟩
  | .hbm, ⟨90, _⟩ => ⟨S10000x128, .i1⟩
  | .hbm, ⟨91, _⟩ => ⟨S_, .f32⟩
  | .hbm, ⟨92, _⟩ => ⟨S_, .f32⟩
  | .hbm, ⟨93, _⟩ => ⟨S10000x128, .f32⟩
  | .hbm, ⟨94, _⟩ => ⟨S10000x128, .f32⟩
  | .hbm, ⟨95, _⟩ => ⟨S10000x128, .f32⟩
  | .hbm, ⟨96, _⟩ => ⟨S_, .f32⟩
  | .hbm, ⟨97, _⟩ => ⟨S10000x128, .f32⟩
  | .hbm, ⟨98, _⟩ => ⟨S10000x128, .f32⟩
  | .hbm, ⟨99, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_cst : Ref sig .tc := ⟨.hbm, 20, rfl⟩
abbrev main_call1_v0 : Ref sig .tc := ⟨.hbm, 21, rfl⟩
abbrev main_v6 : Ref sig .tc := ⟨.hbm, 22, rfl⟩
abbrev main_call2_cst : Ref sig .tc := ⟨.hbm, 23, rfl⟩
abbrev main_call2_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call3_cst : Ref sig .tc := ⟨.hbm, 31, rfl⟩
abbrev main_call3_v0 : Ref sig .tc := ⟨.hbm, 32, rfl⟩
abbrev main_call3_v1 : Ref sig .tc := ⟨.hbm, 33, rfl⟩
abbrev main_call3_cst_0 : Ref sig .tc := ⟨.hbm, 34, rfl⟩
abbrev main_call3_v2 : Ref sig .tc := ⟨.hbm, 35, rfl⟩
abbrev main_call3_v3 : Ref sig .tc := ⟨.hbm, 36, rfl⟩
abbrev main_call3_cst_1 : Ref sig .tc := ⟨.hbm, 37, rfl⟩
abbrev main_call3_call0_v0 : Ref sig .tc := ⟨.hbm, 38, rfl⟩
abbrev main_call3_call0_v1 : Ref sig .tc := ⟨.hbm, 39, rfl⟩
abbrev main_call3_v4 : Ref sig .tc := ⟨.hbm, 40, rfl⟩
abbrev main_call3_v5 : Ref sig .tc := ⟨.hbm, 41, rfl⟩
abbrev main_call3_cst_2 : Ref sig .tc := ⟨.hbm, 42, rfl⟩
abbrev main_call3_v6 : Ref sig .tc := ⟨.hbm, 43, rfl⟩
abbrev main_call3_v7 : Ref sig .tc := ⟨.hbm, 44, rfl⟩
abbrev main_v13 : Ref sig .tc := ⟨.hbm, 45, rfl⟩
abbrev main_v14 : Ref sig .tc := ⟨.hbm, 46, rfl⟩
abbrev main_call4_cst : Ref sig .tc := ⟨.hbm, 47, rfl⟩
abbrev main_call4_v0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst : Ref sig .tc := ⟨.hbm, 57, rfl⟩
abbrev main_v23 : Ref sig .tc := ⟨.hbm, 58, rfl⟩
abbrev main_v24 : Ref sig .tc := ⟨.hbm, 59, rfl⟩
abbrev main_cst_0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_call5_cst : Ref sig .tc := ⟨.hbm, 64, rfl⟩
abbrev main_call5_v0 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_call6_cst : Ref sig .tc := ⟨.hbm, 72, rfl⟩
abbrev main_call6_v0 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call7_cst : Ref sig .tc := ⟨.hbm, 77, rfl⟩
abbrev main_call7_v0 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call8_cst : Ref sig .tc := ⟨.hbm, 85, rfl⟩
abbrev main_call8_v0 : Ref sig .tc := ⟨.hbm, 86, rfl⟩
abbrev main_call8_v1 : Ref sig .tc := ⟨.hbm, 87, rfl⟩
abbrev main_call8_cst_0 : Ref sig .tc := ⟨.hbm, 88, rfl⟩
abbrev main_call8_v2 : Ref sig .tc := ⟨.hbm, 89, rfl⟩
abbrev main_call8_v3 : Ref sig .tc := ⟨.hbm, 90, rfl⟩
abbrev main_call8_cst_1 : Ref sig .tc := ⟨.hbm, 91, rfl⟩
abbrev main_call8_call0_v0 : Ref sig .tc := ⟨.hbm, 92, rfl⟩
abbrev main_call8_call0_v1 : Ref sig .tc := ⟨.hbm, 93, rfl⟩
abbrev main_call8_v4 : Ref sig .tc := ⟨.hbm, 94, rfl⟩
abbrev main_call8_v5 : Ref sig .tc := ⟨.hbm, 95, rfl⟩
abbrev main_call8_cst_2 : Ref sig .tc := ⟨.hbm, 96, rfl⟩
abbrev main_call8_v6 : Ref sig .tc := ⟨.hbm, 97, rfl⟩
abbrev main_call8_v7 : Ref sig .tc := ⟨.hbm, 98, rfl⟩
abbrev main_v43 : Ref sig .tc := ⟨.hbm, 99, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Region0.lean ====
/- REGION 0 of @main: the first layer's product kernel (pipeline 0), at the region-entry contents `V`: each window's
   block at a point, what the body leaves in the output window's staging buffer, the body's triple, the proof data
   and the body obligation, at any float instance `F`. -/
import proofs.«128402_g50225347559984_cont_8to1_c_967_17_alg».proof.Proof.Gen.Kernel.Launch
import proofs.«128402_g50225347559984_cont_8to1_c_967_17_alg».proof.Proof.Gen.Kernel.Skeleton
import proofs.«128402_g50225347559984_cont_8to1_c_967_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output window's buffer -/

/-- Window 2's staging buffer after the body, from the input windows' blocks: its one store as a piece. -/
def out0_2 (x0 : Vec F S2000x128 .f32) (x1 : Vec F S128x128 .f32) : Vec F S2000x128 .bf16 :=
  View.canon [⟨r0_0, k0_pay1 (View.ld x0 r0_0) (View.ld x1 r0_1)⟩]

/-- Its store tiles the buffer, so it covers it. -/
theorem cover0_2 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__y0_kernel i arg1 harg1 arg2 harg2 arg3 harg3) K := by
  simp only [cc0__y0_kernel_eq_skeleton]; unfold cc0__y0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- REGION 1 of @main: the first aggregation layer's kernel (pipeline 1), at the region-entry contents `V`: each window's
   block at a point, what the body leaves in each output window's staging buffer, the body's triple, the proof data
   and the body obligation, at any float instance `F`. -/
import proofs.«128402_g50225347559984_cont_8to1_c_967_17_alg».proof.Proof.Gen.Kernel.Launch
import proofs.«128402_g50225347559984_cont_8to1_c_967_17_alg».proof.Proof.Gen.Kernel.Skeleton
import proofs.«128402_g50225347559984_cont_8to1_c_967_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S400x128 := Rect.unit (s := S400x128) ![0, 0] S400x128.size inb_S400x128_S400x128_0_0

/-! ## What the body leaves in each output window's buffer -/

/-- Window 4's staging buffer after the body, from the input windows' blocks: its one store as a piece. -/
def out1_4 (x0 : Vec F S400x10000 .f32) (x1 : Vec F S10000x128 .bf16) (x2 : Vec F S1x128 .f32) : Vec F S400x128 .f32 :=
  View.canon [⟨r1_4, k1_pay2 (View.ld x0 r1_0) (View.ld x1 r1_1) (View.ld x2 r1_2)⟩]

/-- Window 5's staging buffer after the body: its one store as a piece. -/
def out1_5 (x0 : Vec F S400x10000 .f32) : Vec F S400x10000 .bf16 :=
  View.canon [⟨r1_0, k1_pay1 (View.ld x0 r1_0)⟩]

/-- Window 6's staging buffer after the body: its one store as a piece. -/
def out1_6 (x0 : Vec F S400x10000 .f32) (x1 : Vec F S10000x128 .bf16) (x2 : Vec F S1x128 .f32) (x3 : Vec F S128x128 .f32) : Vec F S400x128 .bf16 :=
  View.canon [⟨r1_4, k1_pay3 (View.ld x0 r1_0) (View.ld x1 r1_1) (View.ld x2 r1_2) (View.ld x3 r1_3)⟩]

/-- Each output's store tiles its buffer, so it covers it. -/
theorem cover1_4 (p0 : Vec F S400x128 .f32) (y : S400x128.Idx) :
    ∃ pc ∈ ([⟨r1_4, p0⟩] : List (View.Piece (Elt F) S400x128 .f32)), y ∈ pc.1.set :=
  View.cover_of_tiled [⟨r1_4, p0⟩] S400x128.size (by rfl) y
theorem cover1_5 (p0 : Vec F S400x10000 .bf16) (y : S400x10000.Idx) :
    ∃ pc ∈ ([⟨r1_0, p0⟩] : List (View.Piece (Elt F) S400x10000 .bf16)), y ∈ pc.1.set :=
  View.cover_of_tiled [⟨r1_0, p0⟩] S400x10000.size (by rfl) y
theorem cover1_6 (p0 : Vec F S400x128 .bf16) (y : S400x128.Idx) :
    ∃ pc ∈ ([⟨r1_4, p0⟩] : List (View.Piece (Elt F) S400x128 .bf16)), y ∈ pc.1.set :=
  View.cover_of_tiled [⟨r1_4, p0⟩] S400x128.size (by rfl) y

/-! ## The body's triple -/

set_option maxHeartbeats 4000000 in
/-- The kernel body on whole staging memrefs, the inputs' at read contents `x0 … x3` and the outputs' at anything,
    runs to the continuation holding the inputs' as they were and each output's at `out1_W` of the inputs' (the body
    reads each output buffer before it overwrites it whole: what it read there is not used). -/
theorem sound_kernel1 (c : Dev nD) (E : Set ℕ) (i : grid1.Coords) (arg1 : Memref sig .tc .vmem S400x10000 .f32) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S400x10000 .bf16) (harg6 : arg6.IsWhole) (arg7 : Memref sig .tc .vmem S400x128 .bf16) (harg7 : arg7.IsWhole)
    (x0 : Vec F S400x10000 .f32) (x1 : Vec F S10000x128 .bf16) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2) ∗ owns (c : Thread nD τ) arg6 fullShare (out1_5 x0) ∗ owns (c : Thread nD τ) arg7 fullShare (out1_6 x0 x1 x2 x3)) -∗ K ⟨⟩))
      ⊢ wp frame (wpE (defs₀ (F := F)) Variants.none c none) E (cc1__layer0_kernel i arg1 harg1 arg2 harg2 arg3 harg3 arg4 harg4 arg5 harg5 arg6 harg6 arg7 harg7) K := by
  simp only [cc1__layer0_kernel_eq_skeleton]; unfold cc1__layer0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t)
    | ⟨6, _⟩ => out1_6 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2Runs.lean ====
import proofs.«128402_g50225347559984_cont_8to1_c_967_17_alg».proof.Proof.Gen.Kernel.Launch
import proofs.«128402_g50225347559984_cont_8to1_c_967_17_alg».proof.Proof.Gen.Kernel.Skeleton
import proofs.«128402_g50225347559984_cont_8to1_c_967_17_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The third kernel's body, case by case. Its grid is 4 × 25: the first coordinate g is the layer (one of the four
  guarded blocks runs, the one whose guard g = 0, 1, 2, 3 holds), the second sweeps the 25 blocks of 400 rows. Four
  buffers of 10000 × 128 are kept across grid points; a point of layers 0–2 overwrites one block of 400 rows in two
  (or one) of them and leaves the output window alone; a point of layer 3 fills the output window and leaves the four
  alone. Each theorem runs the body under one assignment of the guards and says what every buffer holds afterwards:
  an overwritten buffer as the rows written over its previous contents, everything else as it was.
-/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## The body's accesses -/

abbrev rAdj : Rect S400x10000 := Rect.unit (s := S400x10000) ![0, 0] S400x10000.size inb_S400x10000_S400x10000_0_0
abbrev rY : Rect S10000x128 := Rect.unit (s := S10000x128) ![0, 0] S10000x128.size inb_S10000x128_S10000x128_0_0
abbrev rO : Rect S400x128 := Rect.unit (s := S400x128) ![0, 0] S400x128.size inb_S400x128_S400x128_0_0
abbrev rW : Rect S1x128x128 := Rect.unit (s := S1x128x128) ![0, 0, 0] S1x128x128.size inb_S1x128x128_S1x128x128_0_0_0
abbrev rB : Rect S1x1x128 := Rect.unit (s := S1x1x128) ![0, 0, 0] S1x1x128.size inb_S1x1x128_S1x1x128_0_0_0
/-- The 400 rows a point of layer 0, 1, 2 overwrites in the kept buffers. -/
abbrev rS1 (i : grid2.Coords) (h : k2_cond1 i = 1#1) : Rect S10000x128 := Rect.unit (s := S10000x128) (k2_off1 i) S400x128.size (k2_off1_inb i h)
abbrev rS2 (i : grid2.Coords) (h : k2_cond2 i = 1#1) : Rect S10000x128 := Rect.unit (s := S10000x128) (k2_off2 i) S400x128.size (k2_off2_inb i h)
abbrev rS3 (i : grid2.Coords) (h : k2_cond3 i = 1#1) : Rect S10000x128 := Rect.unit (s := S10000x128) (k2_off3 i) S400x128.size (k2_off3_inb i h)

/-- A whole memref's contents after the stores `L` (last first) over contents `f`. -/
def upd {S : Shape} {φ : EltTy} (M : Memref sig .tc .vmem S φ) (hM : M.IsWhole) (f : Vec F S φ) (L : List (View.Piece (Elt F) S φ)) : Vec F S φ :=
  M.view.read (Elt F) (M.view.writes (Elt F) (hM.unread f) L)

/-- The output window after a point of layer 3: its one store, which covers it. -/
def out2_5 (x0 : Vec F S400x10000 .bf16) (f0 : Vec F S10000x128 .bf16) (x4 : Vec F S1x1x128 .f32) : Vec F S400x128 .f32 :=
  View.canon [⟨rO, k2_pay8 (View.ld x0 rAdj) (View.ld f0 rY) (View.ld x4 rB)⟩]

theorem cover2_5 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

section Runs

variable (c : Dev nD) (i : grid2.Coords) (arg2 : Memref sig .tc .vmem S400x10000 .bf16) (harg2 : arg2.IsWhole) (arg3 : Memref sig .tc .vmem S10000x128 .bf16) (harg3 : arg3.IsWhole) (arg4 : Memref sig .tc .vmem S400x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S10000x128 .f32) (harg11 : arg11.IsWhole)
  (x0 : Vec F S400x10000 .bf16) (x1 : Vec F S10000x128 .bf16) (x2 : Vec F S400x128 .f32) (x3 : Vec F S1x128x128 .f32) (x4 : Vec F S1x1x128 .f32)
  (y5 : Vec F S400x128 .f32)
  (f0 : Vec F S10000x128 .bf16) (f1 : Vec F S10000x128 .bf16) (f2 : Vec F S10000x128 .f32) (f3 : Vec F S10000x128 .f32)

/-- What the body is handed: the five input windows at their blocks, the output window at what it holds, the four kept
    buffers at what the points before left. -/
def held (y5' : Vec F S400x128 .f32) (f0' : Vec F S10000x128 .bf16) (f1' : Vec F S10000x128 .bf16) (f2' : Vec F S10000x128 .f32) (f3' : Vec F S10000x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y5'
    ∗ owns (c : Thread nD τ) arg8 fullShare f0' ∗ owns (c : Thread nD τ) arg9 fullShare f1' ∗ owns (c : Thread nD τ) arg10 fullShare f2' ∗ owns (c : Thread nD τ) arg11 fullShare f3')

set_option maxHeartbeats 2000000 in
/-- Layer 0 (only the first guard holds): 400 rows of the first and of the third kept buffer are overwritten. -/
theorem runA (hc1 : k2_cond1 i = 1#1) (hc2 : ¬ k2_cond2 i = 1#1) (hc3 : ¬ k2_cond3 i = 1#1) (hc4 : ¬ k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 y5
            (upd arg8 harg8 f0 [⟨rS1 i hc1, k2_pay3 (View.ld x0 rAdj) (View.ld x1 rY) (View.ld x4 rB) (View.ld x2 rO) (View.ld x3 rW)⟩])
            f1
            (upd arg10 harg10 f2 [⟨rS1 i hc1, k2_pay2 (View.ld x0 rAdj) (View.ld x1 rY) (View.ld x4 rB)⟩])
            f3 -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns upd
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact hg5
                  iexact H5
  isplitl [HS0]
  · iexists _; isplitr
    swap; · iexact HS0
    ipureintro
    simp only [View.readAt_eq_ld, harg2.read_unread, harg3.read_unread, harg4.read_unread, harg5.read_unread, harg6.read_unread, harg8.read_unread, harg9.read_unread, harg10.read_unread, harg11.read_unread]
  isplitl [HS1]; · iexists _; isplitr; · ipureintro; exact harg9.read_unread _
                   iexact HS1
  isplitl [HS2]
  · iexists _; isplitr
    swap; · iexact HS2
    ipureintro
    simp only [View.readAt_eq_ld, harg2.read_unread, harg3.read_unread, harg4.read_unread, harg5.read_unread, harg6.read_unread, harg8.read_unread, harg9.read_unread, harg10.read_unread, harg11.read_unread]
  · iexists _; isplitr; · ipureintro; exact harg11.read_unread _
    iexact HS3

set_option maxHeartbeats 2000000 in
/-- Layer 1 (only the second guard holds): the product is taken with the first kept buffer whole; 400 rows of the second and of the fourth kept buffer are overwritten, the second's from the same rows of the third. -/
theorem runB (hc1 : ¬ k2_cond1 i = 1#1) (hc2 : k2_cond2 i = 1#1) (hc3 : ¬ k2_cond3 i = 1#1) (hc4 : ¬ k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 y5
            f0
            (upd arg9 harg9 f1 [⟨rS2 i hc2, k2_pay6 (View.ld x0 rAdj) (View.ld f0 rY) (View.ld x4 rB) (View.ld f2 (rS2 i hc2)) (View.ld x3 rW)⟩])
            f2
            (upd arg11 harg11 f3 [⟨rS2 i hc2, k2_pay5 (View.ld x0 rAdj) (View.ld f0 rY) (View.ld x4 rB)⟩]) -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns upd
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact hg5
                  iexact H5
  isplitl [HS0]; · iexists _; isplitr; · ipureintro; exact harg8.read_unread _
                   iexact HS0
  isplitl [HS1]
  · iexists _; isplitr
    swap; · iexact HS1
    ipureintro
    simp only [View.readAt_eq_ld, harg2.read_unread, harg3.read_unread, harg4.read_unread, harg5.read_unread, harg6.read_unread, harg8.read_unread, harg9.read_unread, harg10.read_unread, harg11.read_unread]
  isplitl [HS2]; · iexists _; isplitr; · ipureintro; exact harg10.read_unread _
                   iexact HS2
  · iexists _; isplitr
    swap; · iexact HS3
    ipureintro
    simp only [View.readAt_eq_ld, harg2.read_unread, harg3.read_unread, harg4.read_unread, harg5.read_unread, harg6.read_unread, harg8.read_unread, harg9.read_unread, harg10.read_unread, harg11.read_unread]

set_option maxHeartbeats 2000000 in
/-- Layer 2 (only the third guard holds): the product is taken with the second kept buffer whole; 400 rows of the first kept buffer are overwritten, from the same rows of the fourth. -/
theorem runC (hc1 : ¬ k2_cond1 i = 1#1) (hc2 : ¬ k2_cond2 i = 1#1) (hc3 : k2_cond3 i = 1#1) (hc4 : ¬ k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 y5
            (upd arg8 harg8 f0 [⟨rS3 i hc3, k2_pay7 (View.ld x0 rAdj) (View.ld f1 rY) (View.ld x4 rB) (View.ld x2 rO) (View.ld f3 (rS3 i hc3)) (View.ld x3 rW)⟩])
            f1
            f2
            f3 -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns upd
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact hg5
                  iexact H5
  isplitl [HS0]
  · iexists _; isplitr
    swap; · iexact HS0
    ipureintro
    simp only [View.readAt_eq_ld, harg2.read_unread, harg3.read_unread, harg4.read_unread, harg5.read_unread, harg6.read_unread, harg8.read_unread, harg9.read_unread, harg10.read_unread, harg11.read_unread]
  isplitl [HS1]; · iexists _; isplitr; · ipureintro; exact harg9.read_unread _
                   iexact HS1
  isplitl [HS2]; · iexists _; isplitr; · ipureintro; exact harg10.read_unread _
                   iexact HS2
  · iexists _; isplitr; · ipureintro; exact harg11.read_unread _
    iexact HS3

set_option maxHeartbeats 2000000 in
/-- Layer 3 (only the fourth guard holds): the product is taken with the first kept buffer whole and the output window is filled; the kept buffers stay. -/
theorem runD (hc1 : ¬ k2_cond1 i = 1#1) (hc2 : ¬ k2_cond2 i = 1#1) (hc3 : ¬ k2_cond3 i = 1#1) (hc4 : k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 (out2_5 x0 f0 x4)
            f0
            f1
            f2
            f3 -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns out2_5
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    simp only [View.readAt_eq_ld, harg2.read_unread, harg6.read_unread, harg8.read_unread]
    exact View.read_writes_eq_canon _ _ _ (cover2_5 _)
  isplitl [HS0]; · iexists _; isplitr; · ipureintro; exact harg8.read_unread _
                   iexact HS0
  isplitl [HS1]; · iexists _; isplitr; · ipureintro; exact harg9.read_unread _
                   iexact HS1
  isplitl [HS2]; · iexists _; isplitr; · ipureintro; exact harg10.read_unread _
                   iexact HS2
  · iexists _; isplitr; · ipureintro; exact harg11.read_unread _
    iexact HS3

end Runs

end Cert.Kernel.Hand

end
-- ==== Proof.K.Region2.lean ====
import proofs.«128402_g50225347559984_cont_8to1_c_967_17_alg».proof.Proof.K.Region2Runs

set_option maxRecDepth 16384

noncomputable section

/-!
  The third kernel as a pipeline region: its proof data and body obligation, at any float instance.

  Point t of the 100 has layer g = t / 25. What the four kept buffers hold before point t is a recursion over the
  points from whatever they held at entry (`stAt`): a point of layer 0, 1, 2 overwrites 400 rows as the body's case
  says, a point of layer 3 nothing. The five input windows are handed back as found; the output window is handed back
  as found at layers 0–2 (the body does not touch it) and at layer 3 holds the body's one store, computed from the
  first kept buffer as it then stands. The output's block index moves when layer 3 begins, so the pipeline writes the
  untouched window back once, to a block that a later point of layer 3 writes again: hence the proof data constrains
  what the window holds instead of naming it at every point.
-/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The guards over the grid -/

theorem hcond1 : ∀ t : Fin cfg2.N, k2_cond1 (grid2.coords t) = 1#1 ↔ t.val / 25 = 0 :=
  (by decide +kernel : ∀ t : Fin grid2.N, k2_cond1 (grid2.coords t) = 1#1 ↔ t.val / 25 = 0)
theorem hcond2 : ∀ t : Fin cfg2.N, k2_cond2 (grid2.coords t) = 1#1 ↔ t.val / 25 = 1 :=
  (by decide +kernel : ∀ t : Fin grid2.N, k2_cond2 (grid2.coords t) = 1#1 ↔ t.val / 25 = 1)
theorem hcond3 : ∀ t : Fin cfg2.N, k2_cond3 (grid2.coords t) = 1#1 ↔ t.val / 25 = 2 :=
  (by decide +kernel : ∀ t : Fin grid2.N, k2_cond3 (grid2.coords t) = 1#1 ↔ t.val / 25 = 2)
theorem hcond4 : ∀ t : Fin cfg2.N, k2_cond4 (grid2.coords t) = 1#1 ↔ t.val / 25 = 3 :=
  (by decide +kernel : ∀ t : Fin grid2.N, k2_cond4 (grid2.coords t) = 1#1 ↔ t.val / 25 = 3)

/-! ## The kept buffers -/

abbrev sc0 : Memref sig .tc .vmem S10000x128 .bf16 := Memref.whole cc2_scratch0
abbrev sc1 : Memref sig .tc .vmem S10000x128 .bf16 := Memref.whole cc2_scratch1
abbrev sc2 : Memref sig .tc .vmem S10000x128 .f32 := Memref.whole cc2_scratch2
abbrev sc3 : Memref sig .tc .vmem S10000x128 .f32 := Memref.whole cc2_scratch3

variable (F) in
/-- The four kept buffers' contents. -/
abbrev St : Type := Vec F S10000x128 .bf16 × Vec F S10000x128 .bf16 × Vec F S10000x128 .f32 × Vec F S10000x128 .f32

/-- One point: the case its layer selects, applied to the kept buffers. -/
def step (c : Dev nD) (t : Fin cfg2.N) (s : St F) : St F :=
  if h1 : k2_cond1 (grid2.coords t) = 1#1 then
    (upd sc0 (Memref.isWhole_whole _) s.1 [⟨rS1 (grid2.coords t) h1, k2_pay3 (View.ld (iblk2 V c 0 t) rAdj) (View.ld (iblk2 V c 1 t) rY) (View.ld (iblk2 V c 4 t) rB) (View.ld (iblk2 V c 2 t) rO) (View.ld (iblk2 V c 3 t) rW)⟩],
     s.2.1,
     upd sc2 (Memref.isWhole_whole _) s.2.2.1 [⟨rS1 (grid2.coords t) h1, k2_pay2 (View.ld (iblk2 V c 0 t) rAdj) (View.ld (iblk2 V c 1 t) rY) (View.ld (iblk2 V c 4 t) rB)⟩],
     s.2.2.2)
  else if h2 : k2_cond2 (grid2.coords t) = 1#1 then
    (s.1,
     upd sc1 (Memref.isWhole_whole _) s.2.1 [⟨rS2 (grid2.coords t) h2, k2_pay6 (View.ld (iblk2 V c 0 t) rAdj) (View.ld s.1 rY) (View.ld (iblk2 V c 4 t) rB) (View.ld s.2.2.1 (rS2 (grid2.coords t) h2)) (View.ld (iblk2 V c 3 t) rW)⟩],
     s.2.2.1,
     upd sc3 (Memref.isWhole_whole _) s.2.2.2 [⟨rS2 (grid2.coords t) h2, k2_pay5 (View.ld (iblk2 V c 0 t) rAdj) (View.ld s.1 rY) (View.ld (iblk2 V c 4 t) rB)⟩])
  else if h3 : k2_cond3 (grid2.coords t) = 1#1 then
    (upd sc0 (Memref.isWhole_whole _) s.1 [⟨rS3 (grid2.coords t) h3, k2_pay7 (View.ld (iblk2 V c 0 t) rAdj) (View.ld s.2.1 rY) (View.ld (iblk2 V c 4 t) rB) (View.ld (iblk2 V c 2 t) rO) (View.ld s.2.2.2 (rS3 (grid2.coords t) h3)) (View.ld (iblk2 V c 3 t) rW)⟩],
     s.2.1, s.2.2.1, s.2.2.2)
  else s

/-- What the kept buffers hold before point `n`, from `d` at entry. -/
def stAt (c : Dev nD) (d : St F) : (n : ℕ) → n ≤ cfg2.N → St F
  | 0, _ => d
  | n + 1, hn => step V c ⟨n, hn⟩ (stAt c d n (Nat.le_of_lt hn))

theorem stAt_succ (c : Dev nD) (d : St F) (t : Fin cfg2.N) :
    stAt V c d (t.val + 1) t.isLt = step V c t (stAt V c d t.val (Nat.le_of_lt t.isLt)) := rfl

/-- The kept buffers, owned at `s`. -/
def scr (c : Dev nD) (s : St F) : sProp 𝕄 :=
  iprop(owns (c : Thread nD τ) sc0 fullShare s.1 ∗ owns (c : Thread nD τ) sc1 fullShare s.2.1
    ∗ owns (c : Thread nD τ) sc2 fullShare s.2.2.1 ∗ owns (c : Thread nD τ) sc3 fullShare s.2.2.2)

/-- The scoped buffers the region never touches (the other kernels' staging buffers), at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before point `n`: the kept buffers at `stAt` from some entry contents, the untouched scoped
    buffers, the generator register at some state. -/
def Phi (c : Dev nD) (n : ℕ) (hn : n ≤ cfg2.N) : sProp 𝕄 :=
  iprop((∃ d : St F, scr c (stAt V c d n hn)) ∗ others (F := F) c ∗ ∃ r, prngReg c r)

/-! ## The proof data -/

/-- What the output window may hold after point `t`, given what it held: at layer 3 the body's store computed from the
    first kept buffer (at its contents then, from some entry contents), otherwise what it held. -/
def rel5 (c : Dev nD) (t : Fin cfg2.N) (Y X : Vec F S400x128 .f32) : Prop :=
  if k2_cond4 (grid2.coords t) = 1#1 then
    ∃ d : St F, X = out2_5 (iblk2 V c 0 t) (stAt V c d t.val (Nat.le_of_lt t.isLt)).1 (iblk2 V c 4 t)
  else X = Y

def rdat2 (c : Dev nD) : RDat τ (Elt F) Unit ℕ (UR sig nD τ) ℕ cfg2 c where
  A w := V c (Pipeline.arrRef spec2 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => rel5 V c t Y X
  Φ t := Phi V c t.val (Nat.le_of_lt_succ t.isLt)
  q _ := fullShare
  owed _ := 0

theorem A_eq2 (c : Dev nD) (w : Fin cfg2.W) : (rdat2 V c).A w = V c (Pipeline.arrRef spec2 w) := by
  dsimp only [rdat2]

/-- An input window's buffer holds its block whenever the body is handed it, fetched there or not. -/
theorem finds2_0 (c : Dev nD) (t : Fin cfg2.N) (Y) (h : (rdat2 V c).Finds 0 t Y) : Y = iblk2 V c 0 t := by
  obtain ⟨d, hd⟩ := RDat.finds_in_eq_fetched (rdat2 V c) 0 rfl (fun _ _ _ => rfl) (fun _ _ _ h => h) t Y h
  rw [hd]; unfold RDat.fetched RDat.blockOf iblk2; rw [A_eq2]; try rfl
theorem finds2_1 (c : Dev nD) (t : Fin cfg2.N) (Y) (h : (rdat2 V c).Finds 1 t Y) : Y = iblk2 V c 1 t := by
  obtain ⟨d, hd⟩ := RDat.finds_in_eq_fetched (rdat2 V c) 1 rfl (fun _ _ _ => rfl) (fun _ _ _ h => h) t Y h
  rw [hd]; unfold RDat.fetched RDat.blockOf iblk2; rw [A_eq2]; try rfl
theorem finds2_2 (c : Dev nD) (t : Fin cfg2.N) (Y) (h : (rdat2 V c).Finds 2 t Y) : Y = iblk2 V c 2 t := by
  obtain ⟨d, hd⟩ := RDat.finds_in_eq_fetched (rdat2 V c) 2 rfl (fun _ _ _ => rfl) (fun _ _ _ h => h) t Y h
  rw [hd]; unfold RDat.fetched RDat.blockOf iblk2; rw [A_eq2]; try rfl
theorem finds2_3 (c : Dev nD) (t : Fin cfg2.N) (Y) (h : (rdat2 V c).Finds 3 t Y) : Y = iblk2 V c 3 t := by
  obtain ⟨d, hd⟩ := RDat.finds_in_eq_fetched (rdat2 V c) 3 rfl (fun _ _ _ => rfl) (fun _ _ _ h => h) t Y h
  rw [hd]; unfold RDat.fetched RDat.blockOf iblk2; rw [A_eq2]; try rfl
theorem finds2_4 (c : Dev nD) (t : Fin cfg2.N) (Y) (h : (rdat2 V c).Finds 4 t Y) : Y = iblk2 V c 4 t := by
  obtain ⟨d, hd⟩ := RDat.finds_in_eq_fetched (rdat2 V c) 4 rfl (fun _ _ _ => rfl) (fun _ _ _ h => h) t Y h
  rw [hd]; unfold RDat.fetched RDat.blockOf iblk2; rw [A_eq2]; try rfl

/-! ## The body obligation -/

/-- What the body is called with at point `t`: the invariant, what the core owes, the input windows at their blocks,
    the output window at whatever it holds. -/
def bodyPre2 (c : Dev nD) (t : Fin cfg2.N) (y5 : (cfg2.win 5).block.Idx → Elt F (cfg2.win 5).elt) : sProp 𝕄 :=
  iprop(Phi V c t.val (Nat.le_of_lt t.isLt) ∗ (rdat2 V c).owesAt () t.castSucc
    ∗ owns (c : Thread nD τ) (st2_0 t) fullShare (iblk2 V c 0 t) ∗ owns (c : Thread nD τ) (st2_1 t) fullShare (iblk2 V c 1 t) ∗ owns (c : Thread nD τ) (st2_2 t) fullShare (iblk2 V c 2 t) ∗ owns (c : Thread nD τ) (st2_3 t) fullShare (iblk2 V c 3 t) ∗ owns (c : Thread nD τ) (st2_4 t) fullShare (iblk2 V c 4 t)
    ∗ owns (c : Thread nD τ) (st2_5 t) fullShare y5)

/-- and what it returns. -/
def bodyPost2 (c : Dev nD) (t : Fin cfg2.N) (y5 : (cfg2.win 5).block.Idx → Elt F (cfg2.win 5).elt) : sProp 𝕄 :=
  iprop(Phi V c (t.val + 1) t.isLt ∗ (rdat2 V c).owesAt () t.castSucc
    ∗ (∃ X, ⌜X = iblk2 V c 0 t⌝ ∗ owns (c : Thread nD τ) (st2_0 t) fullShare X)
    ∗ (∃ X, ⌜X = iblk2 V c 1 t⌝ ∗ owns (c : Thread nD τ) (st2_1 t) fullShare X)
    ∗ (∃ X, ⌜X = iblk2 V c 2 t⌝ ∗ owns (c : Thread nD τ) (st2_2 t) fullShare X)
    ∗ (∃ X, ⌜X = iblk2 V c 3 t⌝ ∗ owns (c : Thread nD τ) (st2_3 t) fullShare X)
    ∗ (∃ X, ⌜X = iblk2 V c 4 t⌝ ∗ owns (c : Thread nD τ) (st2_4 t) fullShare X)
    ∗ (∃ X, ⌜rel5 V c t y5 X⌝ ∗ owns (c : Thread nD τ) (st2_5 t) fullShare X))

set_option maxHeartbeats 1000000 in
/-- The body at any point: the layer decides the guards, the case's run applies, and the kept buffers move one step of
    the recursion from the same entry contents. -/
theorem sound_body2 (c : Dev nD) (t : Fin cfg2.N) (y5 : (cfg2.win 5).block.Idx → Elt F (cfg2.win 5).elt) :
    bodyPre2 V c t y5 ⊢ wp frame (wpE (defs₀ (F := F)) Variants.none c none) Set.univ (bodyAt2 t) (fun _ => bodyPost2 V c t y5) := by
  unfold bodyPre2 bodyPost2 bodyAt2 Phi
  have hN : t.val < 100 := lt_of_lt_of_eq t.isLt (show cfg2.N = 100 from N_2)
  by_cases h0 : t.val / 25 = 0
  ·
    have hc1 : k2_cond1 (grid2.coords t) = 1#1 := (hcond1 t).mpr (by omega)
    have hc2 : ¬ k2_cond2 (grid2.coords t) = 1#1 := fun h => by have := (hcond2 t).mp h; omega
    have hc3 : ¬ k2_cond3 (grid2.coords t) = 1#1 := fun h => by have := (hcond3 t).mp h; omega
    have hc4 : ¬ k2_cond4 (grid2.coords t) = 1#1 := fun h => by have := (hcond4 t).mp h; omega
    iintro ⟨⟨⟨%d, HS⟩, HR, Hg⟩, Ho, H0, H1, H2, H3, H4, H5⟩
    unfold scr
    icases HS with ⟨S0, S1, S2, S3⟩
    iapply (runA c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_pos hc1]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_neg hc4]
    iexact H5
  by_cases h1 : t.val / 25 = 1
  ·
    have hc1 : ¬ k2_cond1 (grid2.coords t) = 1#1 := fun h => by have := (hcond1 t).mp h; omega
    have hc2 : k2_cond2 (grid2.coords t) = 1#1 := (hcond2 t).mpr (by omega)
    have hc3 : ¬ k2_cond3 (grid2.coords t) = 1#1 := fun h => by have := (hcond3 t).mp h; omega
    have hc4 : ¬ k2_cond4 (grid2.coords t) = 1#1 := fun h => by have := (hcond4 t).mp h; omega
    iintro ⟨⟨⟨%d, HS⟩, HR, Hg⟩, Ho, H0, H1, H2, H3, H4, H5⟩
    unfold scr
    icases HS with ⟨S0, S1, S2, S3⟩
    iapply (runB c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_neg hc1, dif_pos hc2]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_neg hc4]
    iexact H5
  by_cases h2 : t.val / 25 = 2
  ·
    have hc1 : ¬ k2_cond1 (grid2.coords t) = 1#1 := fun h => by have := (hcond1 t).mp h; omega
    have hc2 : ¬ k2_cond2 (grid2.coords t) = 1#1 := fun h => by have := (hcond2 t).mp h; omega
    have hc3 : k2_cond3 (grid2.coords t) = 1#1 := (hcond3 t).mpr (by omega)
    have hc4 : ¬ k2_cond4 (grid2.coords t) = 1#1 := fun h => by have := (hcond4 t).mp h; omega
    iintro ⟨⟨⟨%d, HS⟩, HR, Hg⟩, Ho, H0, H1, H2, H3, H4, H5⟩
    unfold scr
    icases HS with ⟨S0, S1, S2, S3⟩
    iapply (runC c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_neg hc1, dif_neg hc2, dif_pos hc3]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_neg hc4]
    iexact H5
  ·
    have hc1 : ¬ k2_cond1 (grid2.coords t) = 1#1 := fun h => by have := (hcond1 t).mp h; omega
    have hc2 : ¬ k2_cond2 (grid2.coords t) = 1#1 := fun h => by have := (hcond2 t).mp h; omega
    have hc3 : ¬ k2_cond3 (grid2.coords t) = 1#1 := fun h => by have := (hcond3 t).mp h; omega
    have hc4 : k2_cond4 (grid2.coords t) = 1#1 := (hcond4 t).mpr (by omega)
    iintro ⟨⟨⟨%d, HS⟩, HR, Hg⟩, Ho, H0, H1, H2, H3, H4, H5⟩
    unfold scr
    icases HS with ⟨S0, S1, S2, S3⟩
    iapply (runD c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_neg hc1, dif_neg hc2, dif_neg hc3]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_pos hc4]; exact ⟨d, rfl⟩
    iexact H5

/-- The library's body obligation over the relational data, at every point: the input windows' buffers hold their blocks
    (`finds2_W`), the output window's whatever it holds. -/
theorem body_obligation2 (c : Dev nD) : (rdat2 (F := F) V c).BodyObligation (defs₀ (F := F)) Variants.none () Set.univ := fun t Y hY => by
  rw [bigSep_W2, bigSep_W2]
  have e0 := finds2_0 V c t (Y 0) (hY 0)
  have e1 := finds2_1 V c t (Y 1) (hY 1)
  have e2 := finds2_2 V c t (Y 2) (hY 2)
  have e3 := finds2_3 V c t (Y 3) (hY 3)
  have e4 := finds2_4 V c t (Y 4) (hY 4)
  rw [e0, e1, e2, e3, e4]
  exact sound_body2 V c t (Y 5)

end Cert.Kernel.Hand

end
-- ==== Proof.K.Run.lean ====
import proofs.«128402_g50225347559984_cont_8to1_c_967_17_alg».proof.Proof.K.Region0
import proofs.«128402_g50225347559984_cont_8to1_c_967_17_alg».proof.Proof.K.Region1
import proofs.«128402_g50225347559984_cont_8to1_c_967_17_alg».proof.Proof.K.Region2
import proofs.«128402_g50225347559984_cont_8to1_c_967_17_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

/-!
  The program's run: @main as host stretch, region 0, host stretch, region 1, region 2.

  The buffer contents at each boundary are a fold from the launch memory: a host stretch applies its operations; a
  region leaves its arrays at what its write-backs make of them and every other buffer as entered. Regions 0 and 1
  name their arrays' final contents; region 2's output array is whatever the write-backs, in point order, may leave
  (one of them writes back a window the body has not stored into, and a later one overwrites that block), so the last
  boundary's contents are stated for any such array `F5`. Every argument array reads back through the fold to its
  launch contents.
-/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

section Exit2

variable (V : (c : Dev nD) → (b : Ref sig .tc) → Buf (Elt F) ((c : Thread nD τ).loc b))

set_option maxHeartbeats 1000000 in
/-- Region 2's arrays after every write-back: the five inputs as entered, the output at some contents it may hold. -/
theorem arraysAt2_split (c : Dev nD) :
    (rdat2 V c).arraysAt cfg2.N
      ⊢ (iprop(∃ F5, ⌜(rdat2 V c).ArrAt 5 cfg2.N F5⌝ ∗ (rdat2 V c).arrays (Function.update (rdat2 V c).A 5 F5)) : sProp 𝕄) := by
  unfold RDat.arraysAt RDat.arrays
  simp only [bigSep_W2]
  iintro ⟨⟨%F0, %h0, A0⟩, ⟨%F1, %h1, A1⟩, ⟨%F2, %h2, A2⟩, ⟨%F3, %h3, A3⟩, ⟨%F4, %h4, A4⟩, ⟨%F5, %h5, A5⟩⟩
  rw [(rdat2 V c).ArrAt_in 0 rfl cfg2.N] at h0; rw [(rdat2 V c).ArrAt_in 1 rfl cfg2.N] at h1
  rw [(rdat2 V c).ArrAt_in 2 rfl cfg2.N] at h2; rw [(rdat2 V c).ArrAt_in 3 rfl cfg2.N] at h3
  rw [(rdat2 V c).ArrAt_in 4 rfl cfg2.N] at h4
  subst h0 h1 h2 h3 h4
  iexists F5; isplitr; · ipureintro; exact h5
  rw [Function.update_of_ne (by decide : (0 : Fin 6) ≠ 5), Function.update_of_ne (by decide : (1 : Fin 6) ≠ 5),
    Function.update_of_ne (by decide : (2 : Fin 6) ≠ 5), Function.update_of_ne (by decide : (3 : Fin 6) ≠ 5),
    Function.update_of_ne (by decide : (4 : Fin 6) ≠ 5), Function.update_self]
  isplitl [A0]; · iexact A0
  isplitl [A1]; · iexact A1
  isplitl [A2]; · iexact A2
  isplitl [A3]; · iexact A3
  isplitl [A4]; · iexact A4
  iexact A5

end Exit2

section InOut2

variable (V : (c : Dev nD) → (b : Ref sig .tc) → Buf (Elt F) ((c : Thread nD τ).loc b))

/-- What the region is handed makes its invariant before the first point: the four kept buffers, at anything, are the
    recursion's start. -/
theorem hin2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ Phi V c 0 (Nat.zero_le _) := by
  rw [scopedRest2_eq]
  unfold Phi others scr
  simp only [stAt, sc0, sc1, sc2, sc3, owns_whole]
  iintro ⟨Hp, -, ⟨R0, R1, R2, R3, R4, R5, R6, R7, R8, R9, R10, R11, R12, R13, R14, R15, ⟨%d0, S0⟩, ⟨%d1, S1⟩, ⟨%d2, S2⟩, ⟨%d3, S3⟩⟩⟩
  isplitl [S0 S1 S2 S3]
  · iexists (d0, d1, d2, d3)
    isplitl [S0]; · iexact S0
    isplitl [S1]; · iexact S1
    isplitl [S2]; · iexact S2
    iexact S3
  isplitr [Hp]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact Hp

/-- After the last point the invariant gives the scoped buffers back, the kept ones at whatever they hold. -/
theorem hout2 (c : Dev nD) :
    Phi V c cfg2.N (Nat.le_refl _)
      ⊢ iprop((∃ r, prngReg c r) ∗ (BI.emp : sProp 𝕄) ∗ Pipeline.scopedRest (Ix := Unit) (Name := ℕ) (U := UR sig nD τ) (Lvl := ℕ) (Val := Elt F) spec2 c) := by
  rw [scopedRest2_eq]
  unfold Phi others scr
  simp only [sc0, sc1, sc2, sc3, owns_whole]
  iintro ⟨⟨%d, S0, S1, S2, S3⟩, ⟨R0, R1, R2, R3, R4, R5, R6, R7, R8, R9, R10, R11, R12, R13, R14, R15⟩, Hr⟩
  isplitl [Hr]; · iexact Hr
  isplitr; · iempintro
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [S0]; · iexists _; iexact S0
  isplitl [S1]; · iexists _; iexact S1
  isplitl [S2]; · iexists _; iexact S2
  iexists _; iexact S3

end InOut2

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev Bd1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Bd1 m ρ) c).arrAt w cfg0.N
theorem W2_arr (c : Dev nD) (w : Fin cfg0.W) :
    W2 m ρ c (Proc.devRef .tc (Pipeline.arrRef spec0 w)) = (dat0 (Bd1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Bd2 : (c : Dev nD) → (b : Ref sig .tc) → Buf (Elt F) ((c : Thread nD τ).loc b) := fun c b => W2 m ρ c b
theorem hF0 (c : Dev nD) (w : Fin cfg0.W) : (dat0 (Bd1 m ρ) c).arrAt w cfg0.N = Bd2 m ρ c (Pipeline.arrRef spec0 w) :=
  (W2_arr m ρ c w).symm
theorem hrest0 (c : Dev nD) : ∀ b, b ∉ Finset.univ.image (Pipeline.arrRef spec0) → Bd2 m ρ c b = Bd1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev Bd3 : (c : Dev nD) → (b : Ref sig .tc) → Buf (Elt F) ((c : Thread nD τ).loc b) := fun c b => W3 m ρ c b
/-- At region 1's exit (region 2's entry). -/
def W4 (c : Dev nD) : Valuation τ sig (Elt F) :=
  Pipeline.withArrays spec1 c (W3 m ρ c) fun w => (dat1 (Bd3 m ρ) c).arrAt w cfg1.N
theorem W4_arr (c : Dev nD) (w : Fin cfg1.W) :
    W4 m ρ c (Proc.devRef .tc (Pipeline.arrRef spec1 w)) = (dat1 (Bd3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Bd4 : (c : Dev nD) → (b : Ref sig .tc) → Buf (Elt F) ((c : Thread nD τ).loc b) := fun c b => W4 m ρ c b
theorem hF1 (c : Dev nD) (w : Fin cfg1.W) : (dat1 (Bd3 m ρ) c).arrAt w cfg1.N = Bd4 m ρ c (Pipeline.arrRef spec1 w) :=
  (W4_arr m ρ c w).symm
theorem hrest1 (c : Dev nD) : ∀ b, b ∉ Finset.univ.image (Pipeline.arrRef spec1) → Bd4 m ρ c b = Bd3 m ρ c b :=
  fun b hb => W4_of_ne m ρ c b fun w e => hb (Finset.mem_image.mpr ⟨w, Finset.mem_univ _, e⟩)

/-- Region 2's arrays at its exit, the output array at `F5`: the inputs as entered. -/
def arrs2 (c : Dev nD) (F5 : Buf (Elt F) ((cfg2.win 5).arr.view.loc (c.tc : Thread nD τ))) :
    (w : Fin cfg2.W) → Buf (Elt F) ((cfg2.win w).arr.view.loc (c.tc : Thread nD τ)) :=
  Function.update (rdat2 (Bd4 m ρ) c).A 5 F5
/-- At region 2's exit, the output array at `F5`. -/
def W5 (c : Dev nD) (F5 : Buf (Elt F) ((cfg2.win 5).arr.view.loc (c.tc : Thread nD τ))) : Valuation τ sig (Elt F) :=
  Pipeline.withArrays spec2 c (W4 m ρ c) (arrs2 m ρ c F5)
theorem W5_arr (c : Dev nD) (F5) (w : Fin cfg2.W) :
    W5 m ρ c F5 (Proc.devRef .tc (Pipeline.arrRef spec2 w)) = arrs2 m ρ c F5 w := by
  unfold W5; exact Pipeline.withArrays_arr spec2 launch2.win.arr_inj c _ _ w
theorem W5_of_ne (c : Dev nD) (F5) (b : Ref sig .tc) (hb : ∀ w, Pipeline.arrRef spec2 w ≠ b) :
    W5 m ρ c F5 (Proc.devRef .tc b) = W4 m ρ c (Proc.devRef .tc b) := by
  unfold W5; exact Pipeline.withArrays_of_ne spec2 c _ _ b hb
abbrev Bd5 (F5 : (c : Dev nD) → Buf (Elt F) ((cfg2.win 5).arr.view.loc (c.tc : Thread nD τ))) :
    (c : Dev nD) → (b : Ref sig .tc) → Buf (Elt F) ((c : Thread nD τ).loc b) := fun c b => W5 m ρ c (F5 c) b

/-! ## The proof data family -/

/-- Every pipeline's proof data at its region's entry contents: regions 0 and 1 name what their bodies leave, region 2
    constrains it. -/
def rdats : (p : Fin 3) → (c : Dev nD) → RDat τ (Elt F) Unit ℕ (UR sig nD τ) ℕ (Pipeline.pin (pcfgs (F := F)) adm p) c
  | ⟨0, _⟩ => fun c => (dat0 (Bd1 m ρ) c).toR
  | ⟨1, _⟩ => fun c => (dat1 (Bd3 m ρ) c).toR
  | ⟨2, _⟩ => fun c => rdat2 (Bd4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

/-- A region's arrays at contents `Fs` and the unscoped rest at `V` are the core's unscoped buffers at any valuation that
    has the arrays at `Fs` and agrees with `V` off them. -/
theorem join_arrays (p : Fin 3) (c : Dev nD) (hw : Pipeline.WinFacts (Pipeline.pin (pcfgs (F := F)) adm p).spec)
    (harr : ∀ w, ((Pipeline.pin (pcfgs (F := F)) adm p).spec w).arr.IsWhole) (hshare : ∀ w, (rdats m ρ p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m ρ p c).arrays Fs ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m ρ) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

set_option backward.isDefEq.respectTransparency.types false in
/-- Region 0: entered from every unscoped buffer at the boundary's contents, left at the next boundary's. Its arrays are
    split out of the unscoped buffers and put back at the exit contents; the generator register goes into the class's
    invariant and out; nothing is owed; the kernel has no semaphore of its own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bd1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bd1 m ρ c)
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (Bd1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (Bd1 m ρ) c).arrays ((dat0 (Bd1 m ρ) c).arrAt · cfg0.N)
          ∗ Pipeline.unscopedRest (Ix := Unit) (Name := ℕ) (U := UR sig nD τ) (Lvl := ℕ) spec0 c (Bd1 m ρ c))
        ⊢ (unscopedBufs c (Bd2 m ρ c) : sProp 𝕄) :=
      join_arrays m ρ 0 c launch0.win launch0.arr_whole ((rdats m ρ 0 c).share_full fun _ => rfl)
        (Bd1 m ρ c) (Bd2 m ρ c) ((dat0 (Bd1 m ρ) c).arrAt · cfg0.N) (hF0 m ρ c) (hrest0 m ρ c)
    rw [Pipeline.unscopedBufs_held] at hjoin
    rw [show (rdats m ρ 0 c).arraysAt (Pipeline.pinD (pcfgs (F := F)) (fun _ => adm) c 0).N = (dat0 (Bd1 m ρ) c).toR.arraysAt cfg0.N from rfl, Pipeline.Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1: entered from every unscoped buffer at the boundary's contents, left at the next boundary's. Its arrays are
    split out of the unscoped buffers and put back at the exit contents; the generator register goes into the class's
    invariant and out; nothing is owed; the kernel has no semaphore of its own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bd3 m ρ) c).toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Bd3 m ρ c)
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (Bd3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (Bd3 m ρ) c).arrays ((dat1 (Bd3 m ρ) c).arrAt · cfg1.N)
          ∗ Pipeline.unscopedRest (Ix := Unit) (Name := ℕ) (U := UR sig nD τ) (Lvl := ℕ) spec1 c (Bd3 m ρ c))
        ⊢ (unscopedBufs c (Bd4 m ρ c) : sProp 𝕄) :=
      join_arrays m ρ 1 c launch1.win launch1.arr_whole ((rdats m ρ 1 c).share_full fun _ => rfl)
        (Bd3 m ρ c) (Bd4 m ρ c) ((dat1 (Bd3 m ρ) c).arrAt · cfg1.N) (hF1 m ρ c) (hrest1 m ρ c)
    rw [Pipeline.unscopedBufs_held] at hjoin
    rw [show (rdats m ρ 1 c).arraysAt (Pipeline.pinD (pcfgs (F := F)) (fun _ => adm) c 1).N = (dat1 (Bd3 m ρ) c).toR.arraysAt cfg1.N from rfl, Pipeline.Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The last thread state without the `owes`: for some contents `F5` the output array may hold after every write-back,
    every unscoped buffer at the last boundary's contents, the generator register at some state. -/
def Tn (c : Dev nD) : sProp 𝕄 :=
  iprop(∃ F5, ⌜(rdat2 (Bd4 m ρ) c).ArrAt 5 cfg2.N F5⌝ ∗ StableHlo.held (c : Thread nD τ) (Pipeline.ucRefs τ sig) (W5 m ρ c F5) ∗ ∃ r, prngReg c r)

set_option backward.isDefEq.respectTransparency.types false in
/-- Region 2: as the others at its entry; the four kept buffers go from the scoped rest (at anything) into the invariant
    and back; at the exit its output array is at some contents the write-backs may leave. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (Bd4 m ρ) c
  hwaits := Pipeline.RDat.hwaits_of_owed_zero _ _ _ _ L lv 2 fun _ _ => rfl
  pre c := iprop(StableHlo.held (c : Thread nD τ) (Pipeline.ucRefs τ sig) (W4 m ρ c) ∗ R c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Bd4 m ρ c)
  hentry c := by
    rw [Pipeline.ownSems0_none]
    have hsplit := Pipeline.RDat.arrays_of_unscopedBufs (p := 2) (pcfgs (F := F)) adm (rdats m ρ) launch2.win launch2.arr_whole c
      ((rdats m ρ 2 c).share_full fun _ => rfl) (Bd4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := hin2 (Bd4 m ρ) c _
  hout c := by
    rw [Pipeline.ownSems0_none]
    exact hout2 (Bd4 m ρ) c
  hexit c := by
    rw [show (rdats m ρ 2 c).arraysAt (Pipeline.pinD (pcfgs (F := F)) (fun _ => adm) c 2).N = (rdat2 (Bd4 m ρ) c).arraysAt cfg2.N from rfl]
    iintro ⟨Ha, HO, HY, Hrest⟩
    ihave Ha' := (arraysAt2_split (Bd4 m ρ) c) $$ Ha
    icases Ha' with ⟨%F5, %h5, Ha⟩
    have hjoin : iprop((rdat2 (Bd4 m ρ) c).arrays (Function.update (rdat2 (Bd4 m ρ) c).A 5 F5)
          ∗ Pipeline.unscopedRest (Ix := Unit) (Name := ℕ) (U := UR sig nD τ) (Lvl := ℕ) spec2 c (Bd4 m ρ c))
        ⊢ (unscopedBufs c (fun b => W5 m ρ c F5 b) : sProp 𝕄) :=
      join_arrays m ρ 2 c launch2.win launch2.arr_whole ((rdats m ρ 2 c).share_full fun _ => rfl)
        (Bd4 m ρ c) (fun b => W5 m ρ c F5 b) (arrs2 m ρ c F5) (fun w => (W5_arr m ρ c F5 w).symm)
        (fun b hb => W5_of_ne m ρ c F5 b fun w e => hb (Finset.mem_image.mpr ⟨w, Finset.mem_univ _, e⟩))
    rw [Pipeline.unscopedBufs_held] at hjoin
    imodintro
    isplitl [Ha Hrest HY]
    · unfold Tn
      iexists F5; isplitr; · ipureintro; exact h5
      isplitl [Ha Hrest]
      · iapply hjoin; isplitl [Ha] <;> iassumption
      iexact HY
    unfold Pipeline.RDat.owesAt Pipeline.owesWithin
    icases HO with ⟨%W, -, HO⟩; iexists W; iexact HO

/-! ## What the host stretches leave alone -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched

No host operation writes an argument, and a region either reads it through an input window (whose array ends as entered)
or does not touch it: the fold at an argument's buffer walks back to the launch memory. -/

theorem W5_main_arg0 (c : Dev nD) (F5) : W5 m ρ c F5 (Proc.devRef .tc main_arg0) = m ((c : Thread nD τ).loc main_arg0) :=
  calc W5 m ρ c F5 (Proc.devRef .tc main_arg0)
    _ = W4 m ρ c (Proc.devRef .tc main_arg0) := W5_of_ne m ρ c F5 main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (Bd1 m ρ) c).arrAt_in 0 rfl _).trans (A_eq0 (Bd1 m ρ) c 0))
    _ = W0 m ρ c (Proc.devRef .tc main_arg0) := W1_keep m ρ c main_arg0 (by decide)
    _ = m ((c : Thread nD τ).loc main_arg0) := rfl

theorem W5_main_arg1 (c : Dev nD) (F5) : W5 m ρ c F5 (Proc.devRef .tc main_arg1) = m ((c : Thread nD τ).loc main_arg1) :=
  calc W5 m ρ c F5 (Proc.devRef .tc main_arg1)
    _ = W4 m ρ c (Proc.devRef .tc main_arg1) := W5_of_ne m ρ c F5 main_arg1 (by decide)
    _ = W3 m ρ c (Proc.devRef .tc main_arg1) := (W4_arr m ρ c 0).trans (((dat1 (Bd3 m ρ) c).arrAt_in 0 rfl _).trans (A_eq1 (Bd3 m ρ) c 0))
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W5_main_arg2 (c : Dev nD) (F5) : W5 m ρ c F5 (Proc.devRef .tc main_arg2) = m ((c : Thread nD τ).loc main_arg2) :=
  calc W5 m ρ c F5 (Proc.devRef .tc main_arg2)
    _ = W4 m ρ c (Proc.devRef .tc main_arg2) := W5_of_ne m ρ c F5 main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := (W2_arr m ρ c 1).trans (((dat0 (Bd1 m ρ) c).arrAt_in 1 rfl _).trans (A_eq0 (Bd1 m ρ) c 1))
    _ = W0 m ρ c (Proc.devRef .tc main_arg2) := W1_keep m ρ c main_arg2 (by decide)
    _ = m ((c : Thread nD τ).loc main_arg2) := rfl

theorem W5_main_arg3 (c : Dev nD) (F5) : W5 m ρ c F5 (Proc.devRef .tc main_arg3) = m ((c : Thread nD τ).loc main_arg3) :=
  calc W5 m ρ c F5 (Proc.devRef .tc main_arg3)
    _ = W4 m ρ c (Proc.devRef .tc main_arg3) := W5_of_ne m ρ c F5 main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W5_main_arg4 (c : Dev nD) (F5) : W5 m ρ c F5 (Proc.devRef .tc main_arg4) = m ((c : Thread nD τ).loc main_arg4) :=
  calc W5 m ρ c F5 (Proc.devRef .tc main_arg4)
    _ = W4 m ρ c (Proc.devRef .tc main_arg4) := W5_of_ne m ρ c F5 main_arg4 (by decide)
    _ = W3 m ρ c (Proc.devRef .tc main_arg4) := (W4_arr m ρ c 3).trans (((dat1 (Bd3 m ρ) c).arrAt_in 3 rfl _).trans (A_eq1 (Bd3 m ρ) c 3))
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W5_main_arg5 (c : Dev nD) (F5) : W5 m ρ c F5 (Proc.devRef .tc main_arg5) = m ((c : Thread nD τ).loc main_arg5) :=
  calc W5 m ρ c F5 (Proc.devRef .tc main_arg5)
    _ = W4 m ρ c (Proc.devRef .tc main_arg5) := W5_of_ne m ρ c F5 main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W5_main_arg6 (c : Dev nD) (F5) : W5 m ρ c F5 (Proc.devRef .tc main_arg6) = m ((c : Thread nD τ).loc main_arg6) :=
  calc W5 m ρ c F5 (Proc.devRef .tc main_arg6)
    _ = W4 m ρ c (Proc.devRef .tc main_arg6) := W5_of_ne m ρ c F5 main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W5_main_arg7 (c : Dev nD) (F5) : W5 m ρ c F5 (Proc.devRef .tc main_arg7) = m ((c : Thread nD τ).loc main_arg7) :=
  calc W5 m ρ c F5 (Proc.devRef .tc main_arg7)
    _ = W4 m ρ c (Proc.devRef .tc main_arg7) := W5_of_ne m ρ c F5 main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W5_main_arg8 (c : Dev nD) (F5) : W5 m ρ c F5 (Proc.devRef .tc main_arg8) = m ((c : Thread nD τ).loc main_arg8) :=
  calc W5 m ρ c F5 (Proc.devRef .tc main_arg8)
    _ = W4 m ρ c (Proc.devRef .tc main_arg8) := W5_of_ne m ρ c F5 main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W5_main_arg9 (c : Dev nD) (F5) : W5 m ρ c F5 (Proc.devRef .tc main_arg9) = m ((c : Thread nD τ).loc main_arg9) :=
  calc W5 m ρ c F5 (Proc.devRef .tc main_arg9)
    _ = W4 m ρ c (Proc.devRef .tc main_arg9) := W5_of_ne m ρ c F5 main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W5_main_arg10 (c : Dev nD) (F5) : W5 m ρ c F5 (Proc.devRef .tc main_arg10) = m ((c : Thread nD τ).loc main_arg10) :=
  calc W5 m ρ c F5 (Proc.devRef .tc main_arg10)
    _ = W4 m ρ c (Proc.devRef .tc main_arg10) := W5_of_ne m ρ c F5 main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W5_main_arg11 (c : Dev nD) (F5) : W5 m ρ c F5 (Proc.devRef .tc main_arg11) = m ((c : Thread nD τ).loc main_arg11) :=
  calc W5 m ρ c F5 (Proc.devRef .tc main_arg11)
    _ = W4 m ρ c (Proc.devRef .tc main_arg11) := W5_of_ne m ρ c F5 main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

/-! ## @main as segments, and the launch -/

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's five segments in order. -/
abbrev segL : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]

set_option backward.isDefEq.respectTransparency.types false in
set_option maxHeartbeats 1000000 in
/-- THE RUN. From any memory with zero counters every weakly fair execution of @main terminates, nothing faulting, and in
    the final memory, on every core, every unscoped buffer holds the last boundary's contents for some contents `F5` the
    output array may hold after region 2's write-backs. -/
theorem run_main : θ_run defs (onTc (τ := τ) (main (F := F))) ⟨m, fun _ => 0, ρ⟩ (fun r => ∀ c : Dev nD,
      ∃ F5, (rdat2 (Bd4 m ρ) c).ArrAt 5 cfg2.N F5 ∧ ∀ b ∈ Pipeline.ucRefs τ sig, r.2.mem (((c : Thread nD τ)).1, b) = W5 m ρ c F5 b) :=
  Pipeline.RDat.θ_run_regions_kit (pcfgs (F := F)) adm (rdats m ρ) () cellOf_inj emb₁ defs₀ 𝒱₀ L lv m ρ main (segL m ρ)
    (fun c Q => by
      rewrite [main_chain c, Pipeline.RDat.Seg.run_eq_chain,
        show (segL m ρ).map Pipeline.RDat.Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      exact .rfl)
    (by simp only [segL, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tn m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ F5, (rdat2 (Bd4 m ρ) c).ArrAt 5 cfg2.N F5 ∧ ∀ b ∈ Pipeline.ucRefs τ sig, s.mem (((c : Thread nD τ)).1, b) = W5 m ρ c F5 b)
    (hfin := fun c s' => by
      unfold Tn StableHlo.held
      iintro ⟨⟨%F5, %h5, Hh, -⟩, HSI⟩
      ihave Hr := (pointsTo_read_all (Pipeline.ucRefs τ sig) (fun b => (((c : Thread nD τ)).1, b)) (W5 m ρ c F5) s') $$ [Hh HSI]
      · isplitl [Hh] <;> iassumption
      icases Hr with ⟨%h, HSI⟩
      imodintro
      isplitr
      · ipureintro; exact ⟨F5, h5, h⟩
      iexact HSI)
    (hQ := fun s h c => h c)

/-- THE FRAME: every argument array ends as launched, and the result array at some contents region 2's write-backs may
    leave. -/
theorem run_out : θ_run defs (onTc (τ := τ) (main (F := F))) ⟨m, fun _ => 0, ρ⟩ (fun r => ∀ c : Dev nD,
      (∃ F5, (rdat2 (Bd4 m ρ) c).ArrAt 5 cfg2.N F5 ∧ r.2.mem ((c.tc : Thread nD τ).loc main_v16) = F5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨F5, h5, hb⟩ := h c
    exact ⟨⟨F5, h5, (hb _ (mem_uc main_v16 (by decide))).trans ((W5_arr m ρ c F5 5).trans (Function.update_self _ _ _))⟩,
      (hb _ (mem_uc main_arg0 (by decide))).trans (W5_main_arg0 m ρ c F5),
      (hb _ (mem_uc main_arg1 (by decide))).trans (W5_main_arg1 m ρ c F5),
      (hb _ (mem_uc main_arg2 (by decide))).trans (W5_main_arg2 m ρ c F5),
      (hb _ (mem_uc main_arg3 (by decide))).trans (W5_main_arg3 m ρ c F5),
      (hb _ (mem_uc main_arg4 (by decide))).trans (W5_main_arg4 m ρ c F5),
      (hb _ (mem_uc main_arg5 (by decide))).trans (W5_main_arg5 m ρ c F5),
      (hb _ (mem_uc main_arg6 (by decide))).trans (W5_main_arg6 m ρ c F5),
      (hb _ (mem_uc main_arg7 (by decide))).trans (W5_main_arg7 m ρ c F5),
      (hb _ (mem_uc main_arg8 (by decide))).trans (W5_main_arg8 m ρ c F5),
      (hb _ (mem_uc main_arg9 (by decide))).trans (W5_main_arg9 m ρ c F5),
      (hb _ (mem_uc main_arg10 (by decide))).trans (W5_main_arg10 m ρ c F5),
      (hb _ (mem_uc main_arg11 (by decide))).trans (W5_main_arg11 m ρ c F5)⟩) (run_main m ρ)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_out m ρ)

end Cert.Kernel.Hand

end
-- ==== Proof.KI.Region0.lean ====
/- REGION 0 of @main: the first layer's product kernel (pipeline 0), at the region-entry contents `V`: each window's
   block at a point, what the body leaves in the output window's staging buffer, the body's triple, the proof data
   and the body obligation, at any float instance `F`. -/
import proofs.«128402_g50225347559984_cont_8to1_c_967_17_alg».proof.Proof.Gen.KernelIdeal.Launch
import proofs.«128402_g50225347559984_cont_8to1_c_967_17_alg».proof.Proof.Gen.KernelIdeal.Skeleton
import proofs.«128402_g50225347559984_cont_8to1_c_967_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output window's buffer -/

/-- Window 2's staging buffer after the body, from the input windows' blocks: its one store as a piece. -/
def out0_2 (x0 : Vec F S2000x128 .f32) (x1 : Vec F S128x128 .f32) : Vec F S2000x128 .bf16 :=
  View.canon [⟨r0_0, k0_pay1 (View.ld x0 r0_0) (View.ld x1 r0_1)⟩]

/-- Its store tiles the buffer, so it covers it. -/
theorem cover0_2 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__y0_kernel i arg1 harg1 arg2 harg2 arg3 harg3) K := by
  simp only [cc0__y0_kernel_eq_skeleton]; unfold cc0__y0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- REGION 1 of @main: the first aggregation layer's kernel (pipeline 1), at the region-entry contents `V`: each window's
   block at a point, what the body leaves in each output window's staging buffer, the body's triple, the proof data
   and the body obligation, at any float instance `F`. -/
import proofs.«128402_g50225347559984_cont_8to1_c_967_17_alg».proof.Proof.Gen.KernelIdeal.Launch
import proofs.«128402_g50225347559984_cont_8to1_c_967_17_alg».proof.Proof.Gen.KernelIdeal.Skeleton
import proofs.«128402_g50225347559984_cont_8to1_c_967_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S400x128 := Rect.unit (s := S400x128) ![0, 0] S400x128.size inb_S400x128_S400x128_0_0

/-! ## What the body leaves in each output window's buffer -/

/-- Window 4's staging buffer after the body, from the input windows' blocks: its one store as a piece. -/
def out1_4 (x0 : Vec F S400x10000 .f32) (x1 : Vec F S10000x128 .bf16) (x2 : Vec F S1x128 .f32) : Vec F S400x128 .f32 :=
  View.canon [⟨r1_4, k1_pay2 (View.ld x0 r1_0) (View.ld x1 r1_1) (View.ld x2 r1_2)⟩]

/-- Window 5's staging buffer after the body: its one store as a piece. -/
def out1_5 (x0 : Vec F S400x10000 .f32) : Vec F S400x10000 .bf16 :=
  View.canon [⟨r1_0, k1_pay1 (View.ld x0 r1_0)⟩]

/-- Window 6's staging buffer after the body: its one store as a piece. -/
def out1_6 (x0 : Vec F S400x10000 .f32) (x1 : Vec F S10000x128 .bf16) (x2 : Vec F S1x128 .f32) (x3 : Vec F S128x128 .f32) : Vec F S400x128 .bf16 :=
  View.canon [⟨r1_4, k1_pay3 (View.ld x0 r1_0) (View.ld x1 r1_1) (View.ld x2 r1_2) (View.ld x3 r1_3)⟩]

/-- Each output's store tiles its buffer, so it covers it. -/
theorem cover1_4 (p0 : Vec F S400x128 .f32) (y : S400x128.Idx) :
    ∃ pc ∈ ([⟨r1_4, p0⟩] : List (View.Piece (Elt F) S400x128 .f32)), y ∈ pc.1.set :=
  View.cover_of_tiled [⟨r1_4, p0⟩] S400x128.size (by rfl) y
theorem cover1_5 (p0 : Vec F S400x10000 .bf16) (y : S400x10000.Idx) :
    ∃ pc ∈ ([⟨r1_0, p0⟩] : List (View.Piece (Elt F) S400x10000 .bf16)), y ∈ pc.1.set :=
  View.cover_of_tiled [⟨r1_0, p0⟩] S400x10000.size (by rfl) y
theorem cover1_6 (p0 : Vec F S400x128 .bf16) (y : S400x128.Idx) :
    ∃ pc ∈ ([⟨r1_4, p0⟩] : List (View.Piece (Elt F) S400x128 .bf16)), y ∈ pc.1.set :=
  View.cover_of_tiled [⟨r1_4, p0⟩] S400x128.size (by rfl) y

/-! ## The body's triple -/

set_option maxHeartbeats 4000000 in
/-- The kernel body on whole staging memrefs, the inputs' at read contents `x0 … x3` and the outputs' at anything,
    runs to the continuation holding the inputs' as they were and each output's at `out1_W` of the inputs' (the body
    reads each output buffer before it overwrites it whole: what it read there is not used). -/
theorem sound_kernel1 (c : Dev nD) (E : Set ℕ) (i : grid1.Coords) (arg1 : Memref sig .tc .vmem S400x10000 .f32) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x128 .f32) (harg4 : arg4.IsWhole) (arg5 : Memref sig .tc .vmem S400x128 .f32) (harg5 : arg5.IsWhole) (arg6 : Memref sig .tc .vmem S400x10000 .bf16) (harg6 : arg6.IsWhole) (arg7 : Memref sig .tc .vmem S400x128 .bf16) (harg7 : arg7.IsWhole)
    (x0 : Vec F S400x10000 .f32) (x1 : Vec F S10000x128 .bf16) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2) ∗ owns (c : Thread nD τ) arg6 fullShare (out1_5 x0) ∗ owns (c : Thread nD τ) arg7 fullShare (out1_6 x0 x1 x2 x3)) -∗ K ⟨⟩))
      ⊢ wp frame (wpE (defs₀ (F := F)) Variants.none c none) E (cc1__layer0_kernel i arg1 harg1 arg2 harg2 arg3 harg3 arg4 harg4 arg5 harg5 arg6 harg6 arg7 harg7) K := by
  simp only [cc1__layer0_kernel_eq_skeleton]; unfold cc1__layer0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t)
    | ⟨6, _⟩ => out1_6 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Runs.lean ====
import proofs.«128402_g50225347559984_cont_8to1_c_967_17_alg».proof.Proof.Gen.KernelIdeal.Launch
import proofs.«128402_g50225347559984_cont_8to1_c_967_17_alg».proof.Proof.Gen.KernelIdeal.Skeleton
import proofs.«128402_g50225347559984_cont_8to1_c_967_17_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The third kernel's body, case by case. Its grid is 4 × 25: the first coordinate g is the layer (one of the four
  guarded blocks runs, the one whose guard g = 0, 1, 2, 3 holds), the second sweeps the 25 blocks of 400 rows. Four
  buffers of 10000 × 128 are kept across grid points; a point of layers 0–2 overwrites one block of 400 rows in two
  (or one) of them and leaves the output window alone; a point of layer 3 fills the output window and leaves the four
  alone. Each theorem runs the body under one assignment of the guards and says what every buffer holds afterwards:
  an overwritten buffer as the rows written over its previous contents, everything else as it was.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses -/

abbrev rAdj : Rect S400x10000 := Rect.unit (s := S400x10000) ![0, 0] S400x10000.size inb_S400x10000_S400x10000_0_0
abbrev rY : Rect S10000x128 := Rect.unit (s := S10000x128) ![0, 0] S10000x128.size inb_S10000x128_S10000x128_0_0
abbrev rO : Rect S400x128 := Rect.unit (s := S400x128) ![0, 0] S400x128.size inb_S400x128_S400x128_0_0
abbrev rW : Rect S1x128x128 := Rect.unit (s := S1x128x128) ![0, 0, 0] S1x128x128.size inb_S1x128x128_S1x128x128_0_0_0
abbrev rB : Rect S1x1x128 := Rect.unit (s := S1x1x128) ![0, 0, 0] S1x1x128.size inb_S1x1x128_S1x1x128_0_0_0
/-- The 400 rows a point of layer 0, 1, 2 overwrites in the kept buffers. -/
abbrev rS1 (i : grid2.Coords) (h : k2_cond1 i = 1#1) : Rect S10000x128 := Rect.unit (s := S10000x128) (k2_off1 i) S400x128.size (k2_off1_inb i h)
abbrev rS2 (i : grid2.Coords) (h : k2_cond2 i = 1#1) : Rect S10000x128 := Rect.unit (s := S10000x128) (k2_off2 i) S400x128.size (k2_off2_inb i h)
abbrev rS3 (i : grid2.Coords) (h : k2_cond3 i = 1#1) : Rect S10000x128 := Rect.unit (s := S10000x128) (k2_off3 i) S400x128.size (k2_off3_inb i h)

/-- A whole memref's contents after the stores `L` (last first) over contents `f`. -/
def upd {S : Shape} {φ : EltTy} (M : Memref sig .tc .vmem S φ) (hM : M.IsWhole) (f : Vec F S φ) (L : List (View.Piece (Elt F) S φ)) : Vec F S φ :=
  M.view.read (Elt F) (M.view.writes (Elt F) (hM.unread f) L)

/-- The output window after a point of layer 3: its one store, which covers it. -/
def out2_5 (x0 : Vec F S400x10000 .bf16) (f0 : Vec F S10000x128 .bf16) (x4 : Vec F S1x1x128 .f32) : Vec F S400x128 .f32 :=
  View.canon [⟨rO, k2_pay8 (View.ld x0 rAdj) (View.ld f0 rY) (View.ld x4 rB)⟩]

theorem cover2_5 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

section Runs

variable (c : Dev nD) (i : grid2.Coords) (arg2 : Memref sig .tc .vmem S400x10000 .bf16) (harg2 : arg2.IsWhole) (arg3 : Memref sig .tc .vmem S10000x128 .bf16) (harg3 : arg3.IsWhole) (arg4 : Memref sig .tc .vmem S400x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S10000x128 .f32) (harg11 : arg11.IsWhole)
  (x0 : Vec F S400x10000 .bf16) (x1 : Vec F S10000x128 .bf16) (x2 : Vec F S400x128 .f32) (x3 : Vec F S1x128x128 .f32) (x4 : Vec F S1x1x128 .f32)
  (y5 : Vec F S400x128 .f32)
  (f0 : Vec F S10000x128 .bf16) (f1 : Vec F S10000x128 .bf16) (f2 : Vec F S10000x128 .f32) (f3 : Vec F S10000x128 .f32)

/-- What the body is handed: the five input windows at their blocks, the output window at what it holds, the four kept
    buffers at what the points before left. -/
def held (y5' : Vec F S400x128 .f32) (f0' : Vec F S10000x128 .bf16) (f1' : Vec F S10000x128 .bf16) (f2' : Vec F S10000x128 .f32) (f3' : Vec F S10000x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y5'
    ∗ owns (c : Thread nD τ) arg8 fullShare f0' ∗ owns (c : Thread nD τ) arg9 fullShare f1' ∗ owns (c : Thread nD τ) arg10 fullShare f2' ∗ owns (c : Thread nD τ) arg11 fullShare f3')

set_option maxHeartbeats 2000000 in
/-- Layer 0 (only the first guard holds): 400 rows of the first and of the third kept buffer are overwritten. -/
theorem runA (hc1 : k2_cond1 i = 1#1) (hc2 : ¬ k2_cond2 i = 1#1) (hc3 : ¬ k2_cond3 i = 1#1) (hc4 : ¬ k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 y5
            (upd arg8 harg8 f0 [⟨rS1 i hc1, k2_pay3 (View.ld x0 rAdj) (View.ld x1 rY) (View.ld x4 rB) (View.ld x2 rO) (View.ld x3 rW)⟩])
            f1
            (upd arg10 harg10 f2 [⟨rS1 i hc1, k2_pay2 (View.ld x0 rAdj) (View.ld x1 rY) (View.ld x4 rB)⟩])
            f3 -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns upd
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact hg5
                  iexact H5
  isplitl [HS0]
  · iexists _; isplitr
    swap; · iexact HS0
    ipureintro
    simp only [View.readAt_eq_ld, harg2.read_unread, harg3.read_unread, harg4.read_unread, harg5.read_unread, harg6.read_unread, harg8.read_unread, harg9.read_unread, harg10.read_unread, harg11.read_unread]
  isplitl [HS1]; · iexists _; isplitr; · ipureintro; exact harg9.read_unread _
                   iexact HS1
  isplitl [HS2]
  · iexists _; isplitr
    swap; · iexact HS2
    ipureintro
    simp only [View.readAt_eq_ld, harg2.read_unread, harg3.read_unread, harg4.read_unread, harg5.read_unread, harg6.read_unread, harg8.read_unread, harg9.read_unread, harg10.read_unread, harg11.read_unread]
  · iexists _; isplitr; · ipureintro; exact harg11.read_unread _
    iexact HS3

set_option maxHeartbeats 2000000 in
/-- Layer 1 (only the second guard holds): the product is taken with the first kept buffer whole; 400 rows of the second and of the fourth kept buffer are overwritten, the second's from the same rows of the third. -/
theorem runB (hc1 : ¬ k2_cond1 i = 1#1) (hc2 : k2_cond2 i = 1#1) (hc3 : ¬ k2_cond3 i = 1#1) (hc4 : ¬ k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 y5
            f0
            (upd arg9 harg9 f1 [⟨rS2 i hc2, k2_pay6 (View.ld x0 rAdj) (View.ld f0 rY) (View.ld x4 rB) (View.ld f2 (rS2 i hc2)) (View.ld x3 rW)⟩])
            f2
            (upd arg11 harg11 f3 [⟨rS2 i hc2, k2_pay5 (View.ld x0 rAdj) (View.ld f0 rY) (View.ld x4 rB)⟩]) -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns upd
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact hg5
                  iexact H5
  isplitl [HS0]; · iexists _; isplitr; · ipureintro; exact harg8.read_unread _
                   iexact HS0
  isplitl [HS1]
  · iexists _; isplitr
    swap; · iexact HS1
    ipureintro
    simp only [View.readAt_eq_ld, harg2.read_unread, harg3.read_unread, harg4.read_unread, harg5.read_unread, harg6.read_unread, harg8.read_unread, harg9.read_unread, harg10.read_unread, harg11.read_unread]
  isplitl [HS2]; · iexists _; isplitr; · ipureintro; exact harg10.read_unread _
                   iexact HS2
  · iexists _; isplitr
    swap; · iexact HS3
    ipureintro
    simp only [View.readAt_eq_ld, harg2.read_unread, harg3.read_unread, harg4.read_unread, harg5.read_unread, harg6.read_unread, harg8.read_unread, harg9.read_unread, harg10.read_unread, harg11.read_unread]

set_option maxHeartbeats 2000000 in
/-- Layer 2 (only the third guard holds): the product is taken with the second kept buffer whole; 400 rows of the first kept buffer are overwritten, from the same rows of the fourth. -/
theorem runC (hc1 : ¬ k2_cond1 i = 1#1) (hc2 : ¬ k2_cond2 i = 1#1) (hc3 : k2_cond3 i = 1#1) (hc4 : ¬ k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 y5
            (upd arg8 harg8 f0 [⟨rS3 i hc3, k2_pay7 (View.ld x0 rAdj) (View.ld f1 rY) (View.ld x4 rB) (View.ld x2 rO) (View.ld f3 (rS3 i hc3)) (View.ld x3 rW)⟩])
            f1
            f2
            f3 -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns upd
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact hg5
                  iexact H5
  isplitl [HS0]
  · iexists _; isplitr
    swap; · iexact HS0
    ipureintro
    simp only [View.readAt_eq_ld, harg2.read_unread, harg3.read_unread, harg4.read_unread, harg5.read_unread, harg6.read_unread, harg8.read_unread, harg9.read_unread, harg10.read_unread, harg11.read_unread]
  isplitl [HS1]; · iexists _; isplitr; · ipureintro; exact harg9.read_unread _
                   iexact HS1
  isplitl [HS2]; · iexists _; isplitr; · ipureintro; exact harg10.read_unread _
                   iexact HS2
  · iexists _; isplitr; · ipureintro; exact harg11.read_unread _
    iexact HS3

set_option maxHeartbeats 2000000 in
/-- Layer 3 (only the fourth guard holds): the product is taken with the first kept buffer whole and the output window is filled; the kept buffers stay. -/
theorem runD (hc1 : ¬ k2_cond1 i = 1#1) (hc2 : ¬ k2_cond2 i = 1#1) (hc3 : ¬ k2_cond3 i = 1#1) (hc4 : k2_cond4 i = 1#1)
    (E : Set ℕ) (K : PUnit → sProp 𝕄) :
    iprop(held c arg2 arg3 arg4 arg5 arg6 arg7 arg8 arg9 arg10 arg11 x0 x1 x2 x3 x4 y5 f0 f1 f2 f3
        ∗ (held c arg2 arg3 arg4 arg5 arg6 arg7 arg8 arg9 arg10 arg11 x0 x1 x2 x3 x4 (out2_5 x0 f0 x4)
            f0
            f1
            f2
            f3 -∗ K ⟨⟩))
      ⊢ wp frame (wpE (defs₀ (F := F)) Variants.none c none) E (cc2__mega_kernel i arg2 harg2 arg3 harg3 arg4 harg4 arg5 harg5 arg6 harg6 arg7 harg7 arg8 harg8 arg9 harg9 arg10 harg10 arg11 harg11) K := by
  simp only [cc2__mega_kernel_eq_skeleton]; unfold cc2__mega_kernel_skel
  unfold held owns out2_5
  iintro ⟨⟨⟨%g0, %hg0, H0⟩, ⟨%g1, %hg1, H1⟩, ⟨%g2, %hg2, H2⟩, ⟨%g3, %hg3, H3⟩, ⟨%g4, %hg4, H4⟩, ⟨%g5, %hg5, H5⟩, ⟨%gs0, %hgs0, HS0⟩, ⟨%gs1, %hgs1, HS1⟩, ⟨%gs2, %hgs2, HS2⟩, ⟨%gs3, %hgs3, HS3⟩⟩, Hk⟩
  obtain rfl := harg2.eq_unread hg0; obtain rfl := harg3.eq_unread hg1; obtain rfl := harg4.eq_unread hg2
  obtain rfl := harg5.eq_unread hg3; obtain rfl := harg6.eq_unread hg4
  obtain rfl := harg8.eq_unread hgs0; obtain rfl := harg9.eq_unread hgs1; obtain rfl := harg10.eq_unread hgs2; obtain rfl := harg11.eq_unread hgs3
  sl_exec (disch := first | exact hc1 | exact hc2 | exact hc3 | exact hc4)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    simp only [View.readAt_eq_ld, harg2.read_unread, harg6.read_unread, harg8.read_unread]
    exact View.read_writes_eq_canon _ _ _ (cover2_5 _)
  isplitl [HS0]; · iexists _; isplitr; · ipureintro; exact harg8.read_unread _
                   iexact HS0
  isplitl [HS1]; · iexists _; isplitr; · ipureintro; exact harg9.read_unread _
                   iexact HS1
  isplitl [HS2]; · iexists _; isplitr; · ipureintro; exact harg10.read_unread _
                   iexact HS2
  · iexists _; isplitr; · ipureintro; exact harg11.read_unread _
    iexact HS3

end Runs

end Cert.KernelIdeal.Hand

end
-- ==== Proof.KI.Region2.lean ====
import proofs.«128402_g50225347559984_cont_8to1_c_967_17_alg».proof.Proof.KI.Region2Runs

set_option maxRecDepth 16384

noncomputable section

/-!
  The third kernel as a pipeline region: its proof data and body obligation, at any float instance.

  Point t of the 100 has layer g = t / 25. What the four kept buffers hold before point t is a recursion over the
  points from whatever they held at entry (`stAt`): a point of layer 0, 1, 2 overwrites 400 rows as the body's case
  says, a point of layer 3 nothing. The five input windows are handed back as found; the output window is handed back
  as found at layers 0–2 (the body does not touch it) and at layer 3 holds the body's one store, computed from the
  first kept buffer as it then stands. The output's block index moves when layer 3 begins, so the pipeline writes the
  untouched window back once, to a block that a later point of layer 3 writes again: hence the proof data constrains
  what the window holds instead of naming it at every point.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The guards over the grid -/

theorem hcond1 : ∀ t : Fin cfg2.N, k2_cond1 (grid2.coords t) = 1#1 ↔ t.val / 25 = 0 :=
  (by decide +kernel : ∀ t : Fin grid2.N, k2_cond1 (grid2.coords t) = 1#1 ↔ t.val / 25 = 0)
theorem hcond2 : ∀ t : Fin cfg2.N, k2_cond2 (grid2.coords t) = 1#1 ↔ t.val / 25 = 1 :=
  (by decide +kernel : ∀ t : Fin grid2.N, k2_cond2 (grid2.coords t) = 1#1 ↔ t.val / 25 = 1)
theorem hcond3 : ∀ t : Fin cfg2.N, k2_cond3 (grid2.coords t) = 1#1 ↔ t.val / 25 = 2 :=
  (by decide +kernel : ∀ t : Fin grid2.N, k2_cond3 (grid2.coords t) = 1#1 ↔ t.val / 25 = 2)
theorem hcond4 : ∀ t : Fin cfg2.N, k2_cond4 (grid2.coords t) = 1#1 ↔ t.val / 25 = 3 :=
  (by decide +kernel : ∀ t : Fin grid2.N, k2_cond4 (grid2.coords t) = 1#1 ↔ t.val / 25 = 3)

/-! ## The kept buffers -/

abbrev sc0 : Memref sig .tc .vmem S10000x128 .bf16 := Memref.whole cc2_scratch0
abbrev sc1 : Memref sig .tc .vmem S10000x128 .bf16 := Memref.whole cc2_scratch1
abbrev sc2 : Memref sig .tc .vmem S10000x128 .f32 := Memref.whole cc2_scratch2
abbrev sc3 : Memref sig .tc .vmem S10000x128 .f32 := Memref.whole cc2_scratch3

variable (F) in
/-- The four kept buffers' contents. -/
abbrev St : Type := Vec F S10000x128 .bf16 × Vec F S10000x128 .bf16 × Vec F S10000x128 .f32 × Vec F S10000x128 .f32

/-- One point: the case its layer selects, applied to the kept buffers. -/
def step (c : Dev nD) (t : Fin cfg2.N) (s : St F) : St F :=
  if h1 : k2_cond1 (grid2.coords t) = 1#1 then
    (upd sc0 (Memref.isWhole_whole _) s.1 [⟨rS1 (grid2.coords t) h1, k2_pay3 (View.ld (iblk2 V c 0 t) rAdj) (View.ld (iblk2 V c 1 t) rY) (View.ld (iblk2 V c 4 t) rB) (View.ld (iblk2 V c 2 t) rO) (View.ld (iblk2 V c 3 t) rW)⟩],
     s.2.1,
     upd sc2 (Memref.isWhole_whole _) s.2.2.1 [⟨rS1 (grid2.coords t) h1, k2_pay2 (View.ld (iblk2 V c 0 t) rAdj) (View.ld (iblk2 V c 1 t) rY) (View.ld (iblk2 V c 4 t) rB)⟩],
     s.2.2.2)
  else if h2 : k2_cond2 (grid2.coords t) = 1#1 then
    (s.1,
     upd sc1 (Memref.isWhole_whole _) s.2.1 [⟨rS2 (grid2.coords t) h2, k2_pay6 (View.ld (iblk2 V c 0 t) rAdj) (View.ld s.1 rY) (View.ld (iblk2 V c 4 t) rB) (View.ld s.2.2.1 (rS2 (grid2.coords t) h2)) (View.ld (iblk2 V c 3 t) rW)⟩],
     s.2.2.1,
     upd sc3 (Memref.isWhole_whole _) s.2.2.2 [⟨rS2 (grid2.coords t) h2, k2_pay5 (View.ld (iblk2 V c 0 t) rAdj) (View.ld s.1 rY) (View.ld (iblk2 V c 4 t) rB)⟩])
  else if h3 : k2_cond3 (grid2.coords t) = 1#1 then
    (upd sc0 (Memref.isWhole_whole _) s.1 [⟨rS3 (grid2.coords t) h3, k2_pay7 (View.ld (iblk2 V c 0 t) rAdj) (View.ld s.2.1 rY) (View.ld (iblk2 V c 4 t) rB) (View.ld (iblk2 V c 2 t) rO) (View.ld s.2.2.2 (rS3 (grid2.coords t) h3)) (View.ld (iblk2 V c 3 t) rW)⟩],
     s.2.1, s.2.2.1, s.2.2.2)
  else s

/-- What the kept buffers hold before point `n`, from `d` at entry. -/
def stAt (c : Dev nD) (d : St F) : (n : ℕ) → n ≤ cfg2.N → St F
  | 0, _ => d
  | n + 1, hn => step V c ⟨n, hn⟩ (stAt c d n (Nat.le_of_lt hn))

theorem stAt_succ (c : Dev nD) (d : St F) (t : Fin cfg2.N) :
    stAt V c d (t.val + 1) t.isLt = step V c t (stAt V c d t.val (Nat.le_of_lt t.isLt)) := rfl

/-- The kept buffers, owned at `s`. -/
def scr (c : Dev nD) (s : St F) : sProp 𝕄 :=
  iprop(owns (c : Thread nD τ) sc0 fullShare s.1 ∗ owns (c : Thread nD τ) sc1 fullShare s.2.1
    ∗ owns (c : Thread nD τ) sc2 fullShare s.2.2.1 ∗ owns (c : Thread nD τ) sc3 fullShare s.2.2.2)

/-- The scoped buffers the region never touches (the other kernels' staging buffers), at anything. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before point `n`: the kept buffers at `stAt` from some entry contents, the untouched scoped
    buffers, the generator register at some state. -/
def Phi (c : Dev nD) (n : ℕ) (hn : n ≤ cfg2.N) : sProp 𝕄 :=
  iprop((∃ d : St F, scr c (stAt V c d n hn)) ∗ others (F := F) c ∗ ∃ r, prngReg c r)

/-! ## The proof data -/

/-- What the output window may hold after point `t`, given what it held: at layer 3 the body's store computed from the
    first kept buffer (at its contents then, from some entry contents), otherwise what it held. -/
def rel5 (c : Dev nD) (t : Fin cfg2.N) (Y X : Vec F S400x128 .f32) : Prop :=
  if k2_cond4 (grid2.coords t) = 1#1 then
    ∃ d : St F, X = out2_5 (iblk2 V c 0 t) (stAt V c d t.val (Nat.le_of_lt t.isLt)).1 (iblk2 V c 4 t)
  else X = Y

def rdat2 (c : Dev nD) : RDat τ (Elt F) Unit ℕ (UR sig nD τ) ℕ cfg2 c where
  A w := V c (Pipeline.arrRef spec2 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => rel5 V c t Y X
  Φ t := Phi V c t.val (Nat.le_of_lt_succ t.isLt)
  q _ := fullShare
  owed _ := 0

theorem A_eq2 (c : Dev nD) (w : Fin cfg2.W) : (rdat2 V c).A w = V c (Pipeline.arrRef spec2 w) := by
  dsimp only [rdat2]

/-- An input window's buffer holds its block whenever the body is handed it, fetched there or not. -/
theorem finds2_0 (c : Dev nD) (t : Fin cfg2.N) (Y) (h : (rdat2 V c).Finds 0 t Y) : Y = iblk2 V c 0 t := by
  obtain ⟨d, hd⟩ := RDat.finds_in_eq_fetched (rdat2 V c) 0 rfl (fun _ _ _ => rfl) (fun _ _ _ h => h) t Y h
  rw [hd]; unfold RDat.fetched RDat.blockOf iblk2; rw [A_eq2]; try rfl
theorem finds2_1 (c : Dev nD) (t : Fin cfg2.N) (Y) (h : (rdat2 V c).Finds 1 t Y) : Y = iblk2 V c 1 t := by
  obtain ⟨d, hd⟩ := RDat.finds_in_eq_fetched (rdat2 V c) 1 rfl (fun _ _ _ => rfl) (fun _ _ _ h => h) t Y h
  rw [hd]; unfold RDat.fetched RDat.blockOf iblk2; rw [A_eq2]; try rfl
theorem finds2_2 (c : Dev nD) (t : Fin cfg2.N) (Y) (h : (rdat2 V c).Finds 2 t Y) : Y = iblk2 V c 2 t := by
  obtain ⟨d, hd⟩ := RDat.finds_in_eq_fetched (rdat2 V c) 2 rfl (fun _ _ _ => rfl) (fun _ _ _ h => h) t Y h
  rw [hd]; unfold RDat.fetched RDat.blockOf iblk2; rw [A_eq2]; try rfl
theorem finds2_3 (c : Dev nD) (t : Fin cfg2.N) (Y) (h : (rdat2 V c).Finds 3 t Y) : Y = iblk2 V c 3 t := by
  obtain ⟨d, hd⟩ := RDat.finds_in_eq_fetched (rdat2 V c) 3 rfl (fun _ _ _ => rfl) (fun _ _ _ h => h) t Y h
  rw [hd]; unfold RDat.fetched RDat.blockOf iblk2; rw [A_eq2]; try rfl
theorem finds2_4 (c : Dev nD) (t : Fin cfg2.N) (Y) (h : (rdat2 V c).Finds 4 t Y) : Y = iblk2 V c 4 t := by
  obtain ⟨d, hd⟩ := RDat.finds_in_eq_fetched (rdat2 V c) 4 rfl (fun _ _ _ => rfl) (fun _ _ _ h => h) t Y h
  rw [hd]; unfold RDat.fetched RDat.blockOf iblk2; rw [A_eq2]; try rfl

/-! ## The body obligation -/

/-- What the body is called with at point `t`: the invariant, what the core owes, the input windows at their blocks,
    the output window at whatever it holds. -/
def bodyPre2 (c : Dev nD) (t : Fin cfg2.N) (y5 : (cfg2.win 5).block.Idx → Elt F (cfg2.win 5).elt) : sProp 𝕄 :=
  iprop(Phi V c t.val (Nat.le_of_lt t.isLt) ∗ (rdat2 V c).owesAt () t.castSucc
    ∗ owns (c : Thread nD τ) (st2_0 t) fullShare (iblk2 V c 0 t) ∗ owns (c : Thread nD τ) (st2_1 t) fullShare (iblk2 V c 1 t) ∗ owns (c : Thread nD τ) (st2_2 t) fullShare (iblk2 V c 2 t) ∗ owns (c : Thread nD τ) (st2_3 t) fullShare (iblk2 V c 3 t) ∗ owns (c : Thread nD τ) (st2_4 t) fullShare (iblk2 V c 4 t)
    ∗ owns (c : Thread nD τ) (st2_5 t) fullShare y5)

/-- and what it returns. -/
def bodyPost2 (c : Dev nD) (t : Fin cfg2.N) (y5 : (cfg2.win 5).block.Idx → Elt F (cfg2.win 5).elt) : sProp 𝕄 :=
  iprop(Phi V c (t.val + 1) t.isLt ∗ (rdat2 V c).owesAt () t.castSucc
    ∗ (∃ X, ⌜X = iblk2 V c 0 t⌝ ∗ owns (c : Thread nD τ) (st2_0 t) fullShare X)
    ∗ (∃ X, ⌜X = iblk2 V c 1 t⌝ ∗ owns (c : Thread nD τ) (st2_1 t) fullShare X)
    ∗ (∃ X, ⌜X = iblk2 V c 2 t⌝ ∗ owns (c : Thread nD τ) (st2_2 t) fullShare X)
    ∗ (∃ X, ⌜X = iblk2 V c 3 t⌝ ∗ owns (c : Thread nD τ) (st2_3 t) fullShare X)
    ∗ (∃ X, ⌜X = iblk2 V c 4 t⌝ ∗ owns (c : Thread nD τ) (st2_4 t) fullShare X)
    ∗ (∃ X, ⌜rel5 V c t y5 X⌝ ∗ owns (c : Thread nD τ) (st2_5 t) fullShare X))

set_option maxHeartbeats 1000000 in
/-- The body at any point: the layer decides the guards, the case's run applies, and the kept buffers move one step of
    the recursion from the same entry contents. -/
theorem sound_body2 (c : Dev nD) (t : Fin cfg2.N) (y5 : (cfg2.win 5).block.Idx → Elt F (cfg2.win 5).elt) :
    bodyPre2 V c t y5 ⊢ wp frame (wpE (defs₀ (F := F)) Variants.none c none) Set.univ (bodyAt2 t) (fun _ => bodyPost2 V c t y5) := by
  unfold bodyPre2 bodyPost2 bodyAt2 Phi
  have hN : t.val < 100 := lt_of_lt_of_eq t.isLt (show cfg2.N = 100 from N_2)
  by_cases h0 : t.val / 25 = 0
  ·
    have hc1 : k2_cond1 (grid2.coords t) = 1#1 := (hcond1 t).mpr (by omega)
    have hc2 : ¬ k2_cond2 (grid2.coords t) = 1#1 := fun h => by have := (hcond2 t).mp h; omega
    have hc3 : ¬ k2_cond3 (grid2.coords t) = 1#1 := fun h => by have := (hcond3 t).mp h; omega
    have hc4 : ¬ k2_cond4 (grid2.coords t) = 1#1 := fun h => by have := (hcond4 t).mp h; omega
    iintro ⟨⟨⟨%d, HS⟩, HR, Hg⟩, Ho, H0, H1, H2, H3, H4, H5⟩
    unfold scr
    icases HS with ⟨S0, S1, S2, S3⟩
    iapply (runA c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_pos hc1]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_neg hc4]
    iexact H5
  by_cases h1 : t.val / 25 = 1
  ·
    have hc1 : ¬ k2_cond1 (grid2.coords t) = 1#1 := fun h => by have := (hcond1 t).mp h; omega
    have hc2 : k2_cond2 (grid2.coords t) = 1#1 := (hcond2 t).mpr (by omega)
    have hc3 : ¬ k2_cond3 (grid2.coords t) = 1#1 := fun h => by have := (hcond3 t).mp h; omega
    have hc4 : ¬ k2_cond4 (grid2.coords t) = 1#1 := fun h => by have := (hcond4 t).mp h; omega
    iintro ⟨⟨⟨%d, HS⟩, HR, Hg⟩, Ho, H0, H1, H2, H3, H4, H5⟩
    unfold scr
    icases HS with ⟨S0, S1, S2, S3⟩
    iapply (runB c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_neg hc1, dif_pos hc2]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_neg hc4]
    iexact H5
  by_cases h2 : t.val / 25 = 2
  ·
    have hc1 : ¬ k2_cond1 (grid2.coords t) = 1#1 := fun h => by have := (hcond1 t).mp h; omega
    have hc2 : ¬ k2_cond2 (grid2.coords t) = 1#1 := fun h => by have := (hcond2 t).mp h; omega
    have hc3 : k2_cond3 (grid2.coords t) = 1#1 := (hcond3 t).mpr (by omega)
    have hc4 : ¬ k2_cond4 (grid2.coords t) = 1#1 := fun h => by have := (hcond4 t).mp h; omega
    iintro ⟨⟨⟨%d, HS⟩, HR, Hg⟩, Ho, H0, H1, H2, H3, H4, H5⟩
    unfold scr
    icases HS with ⟨S0, S1, S2, S3⟩
    iapply (runC c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_neg hc1, dif_neg hc2, dif_pos hc3]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_neg hc4]
    iexact H5
  ·
    have hc1 : ¬ k2_cond1 (grid2.coords t) = 1#1 := fun h => by have := (hcond1 t).mp h; omega
    have hc2 : ¬ k2_cond2 (grid2.coords t) = 1#1 := fun h => by have := (hcond2 t).mp h; omega
    have hc3 : ¬ k2_cond3 (grid2.coords t) = 1#1 := fun h => by have := (hcond3 t).mp h; omega
    have hc4 : k2_cond4 (grid2.coords t) = 1#1 := (hcond4 t).mpr (by omega)
    iintro ⟨⟨⟨%d, HS⟩, HR, Hg⟩, Ho, H0, H1, H2, H3, H4, H5⟩
    unfold scr
    icases HS with ⟨S0, S1, S2, S3⟩
    iapply (runD c (grid2.coords t) _ _ _ _ _ _ _ _ _ _ _ _ _ _ _ _ _ _ _ _ (iblk2 V c 0 t) (iblk2 V c 1 t) (iblk2 V c 2 t) (iblk2 V c 3 t) (iblk2 V c 4 t) y5
      (stAt V c d t.val (Nat.le_of_lt t.isLt)).1 (stAt V c d t.val (Nat.le_of_lt t.isLt)).2.1 (stAt V c d t.val (Nat.le_of_lt t.isLt)).2.2.1 (stAt V c d t.val (Nat.le_of_lt t.isLt)).2.2.2 hc1 hc2 hc3 hc4 Set.univ _)
    unfold held
    isplitl [H0 H1 H2 H3 H4 H5 S0 S1 S2 S3]
    · isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      iexact S3
    iintro ⟨H0, H1, H2, H3, H4, H5, S0, S1, S2, S3⟩
    isplitl [S0 S1 S2 S3 HR Hg]
    · isplitl [S0 S1 S2 S3]
      · iexists d
        rw [stAt_succ V c d t]; unfold step; rw [dif_neg hc1, dif_neg hc2, dif_neg hc3]
        isplitl [S0]; · iexact S0
        isplitl [S1]; · iexact S1
        isplitl [S2]; · iexact S2
        iexact S3
      isplitl [HR]; · iexact HR
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    iexists _; isplitr
    · ipureintro; unfold rel5; rw [if_pos hc4]; exact ⟨d, rfl⟩
    iexact H5

/-- The library's body obligation over the relational data, at every point: the input windows' buffers hold their blocks
    (`finds2_W`), the output window's whatever it holds. -/
theorem body_obligation2 (c : Dev nD) : (rdat2 (F := F) V c).BodyObligation (defs₀ (F := F)) Variants.none () Set.univ := fun t Y hY => by
  rw [bigSep_W2, bigSep_W2]
  have e0 := finds2_0 V c t (Y 0) (hY 0)
  have e1 := finds2_1 V c t (Y 1) (hY 1)
  have e2 := finds2_2 V c t (Y 2) (hY 2)
  have e3 := finds2_3 V c t (Y 3) (hY 3)
  have e4 := finds2_4 V c t (Y 4) (hY 4)
  rw [e0, e1, e2, e3, e4]
  exact sound_body2 V c t (Y 5)

end Cert.KernelIdeal.Hand

end
-- ==== Proof.KI.Run.lean ====
import proofs.«128402_g50225347559984_cont_8to1_c_967_17_alg».proof.Proof.KI.Region0
import proofs.«128402_g50225347559984_cont_8to1_c_967_17_alg».proof.Proof.KI.Region1
import proofs.«128402_g50225347559984_cont_8to1_c_967_17_alg».proof.Proof.KI.Region2
import proofs.«128402_g50225347559984_cont_8to1_c_967_17_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

/-!
  The program's run: @main as host stretch, region 0, host stretch, region 1, region 2.

  The buffer contents at each boundary are a fold from the launch memory: a host stretch applies its operations; a
  region leaves its arrays at what its write-backs make of them and every other buffer as entered. Regions 0 and 1
  name their arrays' final contents; region 2's output array is whatever the write-backs, in point order, may leave
  (one of them writes back a window the body has not stored into, and a later one overwrites that block), so the last
  boundary's contents are stated for any such array `F5`. Every argument array reads back through the fold to its
  launch contents.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

section Exit2

variable (V : (c : Dev nD) → (b : Ref sig .tc) → Buf (Elt F) ((c : Thread nD τ).loc b))

set_option maxHeartbeats 1000000 in
/-- Region 2's arrays after every write-back: the five inputs as entered, the output at some contents it may hold. -/
theorem arraysAt2_split (c : Dev nD) :
    (rdat2 V c).arraysAt cfg2.N
      ⊢ (iprop(∃ F5, ⌜(rdat2 V c).ArrAt 5 cfg2.N F5⌝ ∗ (rdat2 V c).arrays (Function.update (rdat2 V c).A 5 F5)) : sProp 𝕄) := by
  unfold RDat.arraysAt RDat.arrays
  simp only [bigSep_W2]
  iintro ⟨⟨%F0, %h0, A0⟩, ⟨%F1, %h1, A1⟩, ⟨%F2, %h2, A2⟩, ⟨%F3, %h3, A3⟩, ⟨%F4, %h4, A4⟩, ⟨%F5, %h5, A5⟩⟩
  rw [(rdat2 V c).ArrAt_in 0 rfl cfg2.N] at h0; rw [(rdat2 V c).ArrAt_in 1 rfl cfg2.N] at h1
  rw [(rdat2 V c).ArrAt_in 2 rfl cfg2.N] at h2; rw [(rdat2 V c).ArrAt_in 3 rfl cfg2.N] at h3
  rw [(rdat2 V c).ArrAt_in 4 rfl cfg2.N] at h4
  subst h0 h1 h2 h3 h4
  iexists F5; isplitr; · ipureintro; exact h5
  rw [Function.update_of_ne (by decide : (0 : Fin 6) ≠ 5), Function.update_of_ne (by decide : (1 : Fin 6) ≠ 5),
    Function.update_of_ne (by decide : (2 : Fin 6) ≠ 5), Function.update_of_ne (by decide : (3 : Fin 6) ≠ 5),
    Function.update_of_ne (by decide : (4 : Fin 6) ≠ 5), Function.update_self]
  isplitl [A0]; · iexact A0
  isplitl [A1]; · iexact A1
  isplitl [A2]; · iexact A2
  isplitl [A3]; · iexact A3
  isplitl [A4]; · iexact A4
  iexact A5

end Exit2

section InOut2

variable (V : (c : Dev nD) → (b : Ref sig .tc) → Buf (Elt F) ((c : Thread nD τ).loc b))

/-- What the region is handed makes its invariant before the first point: the four kept buffers, at anything, are the
    recursion's start. -/
theorem hin2 (c : Dev nD) (P : sProp 𝕄) :
    iprop((∃ r, prngReg c r) ∗ P ∗ Pipeline.scopedRest (Ix := Unit) (Name := ℕ) (U := UR sig nD τ) (Lvl := ℕ) (Val := Elt F) spec2 c)
      ⊢ Phi V c 0 (Nat.zero_le _) := by
  rw [scopedRest2_eq]
  unfold Phi others scr
  simp only [stAt, sc0, sc1, sc2, sc3, owns_whole]
  iintro ⟨Hp, -, ⟨R0, R1, R2, R3, R4, R5, R6, R7, R8, R9, R10, R11, R12, R13, R14, R15, ⟨%d0, S0⟩, ⟨%d1, S1⟩, ⟨%d2, S2⟩, ⟨%d3, S3⟩⟩⟩
  isplitl [S0 S1 S2 S3]
  · iexists (d0, d1, d2, d3)
    isplitl [S0]; · iexact S0
    isplitl [S1]; · iexact S1
    isplitl [S2]; · iexact S2
    iexact S3
  isplitr [Hp]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact Hp

/-- After the last point the invariant gives the scoped buffers back, the kept ones at whatever they hold. -/
theorem hout2 (c : Dev nD) :
    Phi V c cfg2.N (Nat.le_refl _)
      ⊢ iprop((∃ r, prngReg c r) ∗ (BI.emp : sProp 𝕄) ∗ Pipeline.scopedRest (Ix := Unit) (Name := ℕ) (U := UR sig nD τ) (Lvl := ℕ) (Val := Elt F) spec2 c) := by
  rw [scopedRest2_eq]
  unfold Phi others scr
  simp only [sc0, sc1, sc2, sc3, owns_whole]
  iintro ⟨⟨%d, S0, S1, S2, S3⟩, ⟨R0, R1, R2, R3, R4, R5, R6, R7, R8, R9, R10, R11, R12, R13, R14, R15⟩, Hr⟩
  isplitl [Hr]; · iexact Hr
  isplitr; · iempintro
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [S0]; · iexists _; iexact S0
  isplitl [S1]; · iexists _; iexact S1
  isplitl [S2]; · iexists _; iexact S2
  iexists _; iexact S3

end InOut2

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev Bd1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Bd1 m ρ) c).arrAt w cfg0.N
theorem W2_arr (c : Dev nD) (w : Fin cfg0.W) :
    W2 m ρ c (Proc.devRef .tc (Pipeline.arrRef spec0 w)) = (dat0 (Bd1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Bd2 : (c : Dev nD) → (b : Ref sig .tc) → Buf (Elt F) ((c : Thread nD τ).loc b) := fun c b => W2 m ρ c b
theorem hF0 (c : Dev nD) (w : Fin cfg0.W) : (dat0 (Bd1 m ρ) c).arrAt w cfg0.N = Bd2 m ρ c (Pipeline.arrRef spec0 w) :=
  (W2_arr m ρ c w).symm
theorem hrest0 (c : Dev nD) : ∀ b, b ∉ Finset.univ.image (Pipeline.arrRef spec0) → Bd2 m ρ c b = Bd1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev Bd3 : (c : Dev nD) → (b : Ref sig .tc) → Buf (Elt F) ((c : Thread nD τ).loc b) := fun c b => W3 m ρ c b
/-- At region 1's exit (region 2's entry). -/
def W4 (c : Dev nD) : Valuation τ sig (Elt F) :=
  Pipeline.withArrays spec1 c (W3 m ρ c) fun w => (dat1 (Bd3 m ρ) c).arrAt w cfg1.N
theorem W4_arr (c : Dev nD) (w : Fin cfg1.W) :
    W4 m ρ c (Proc.devRef .tc (Pipeline.arrRef spec1 w)) = (dat1 (Bd3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Bd4 : (c : Dev nD) → (b : Ref sig .tc) → Buf (Elt F) ((c : Thread nD τ).loc b) := fun c b => W4 m ρ c b
theorem hF1 (c : Dev nD) (w : Fin cfg1.W) : (dat1 (Bd3 m ρ) c).arrAt w cfg1.N = Bd4 m ρ c (Pipeline.arrRef spec1 w) :=
  (W4_arr m ρ c w).symm
theorem hrest1 (c : Dev nD) : ∀ b, b ∉ Finset.univ.image (Pipeline.arrRef spec1) → Bd4 m ρ c b = Bd3 m ρ c b :=
  fun b hb => W4_of_ne m ρ c b fun w e => hb (Finset.mem_image.mpr ⟨w, Finset.mem_univ _, e⟩)

/-- Region 2's arrays at its exit, the output array at `F5`: the inputs as entered. -/
def arrs2 (c : Dev nD) (F5 : Buf (Elt F) ((cfg2.win 5).arr.view.loc (c.tc : Thread nD τ))) :
    (w : Fin cfg2.W) → Buf (Elt F) ((cfg2.win w).arr.view.loc (c.tc : Thread nD τ)) :=
  Function.update (rdat2 (Bd4 m ρ) c).A 5 F5
/-- At region 2's exit, the output array at `F5`. -/
def W5 (c : Dev nD) (F5 : Buf (Elt F) ((cfg2.win 5).arr.view.loc (c.tc : Thread nD τ))) : Valuation τ sig (Elt F) :=
  Pipeline.withArrays spec2 c (W4 m ρ c) (arrs2 m ρ c F5)
theorem W5_arr (c : Dev nD) (F5) (w : Fin cfg2.W) :
    W5 m ρ c F5 (Proc.devRef .tc (Pipeline.arrRef spec2 w)) = arrs2 m ρ c F5 w := by
  unfold W5; exact Pipeline.withArrays_arr spec2 launch2.win.arr_inj c _ _ w
theorem W5_of_ne (c : Dev nD) (F5) (b : Ref sig .tc) (hb : ∀ w, Pipeline.arrRef spec2 w ≠ b) :
    W5 m ρ c F5 (Proc.devRef .tc b) = W4 m ρ c (Proc.devRef .tc b) := by
  unfold W5; exact Pipeline.withArrays_of_ne spec2 c _ _ b hb
abbrev Bd5 (F5 : (c : Dev nD) → Buf (Elt F) ((cfg2.win 5).arr.view.loc (c.tc : Thread nD τ))) :
    (c : Dev nD) → (b : Ref sig .tc) → Buf (Elt F) ((c : Thread nD τ).loc b) := fun c b => W5 m ρ c (F5 c) b

/-! ## The proof data family -/

/-- Every pipeline's proof data at its region's entry contents: regions 0 and 1 name what their bodies leave, region 2
    constrains it. -/
def rdats : (p : Fin 3) → (c : Dev nD) → RDat τ (Elt F) Unit ℕ (UR sig nD τ) ℕ (Pipeline.pin (pcfgs (F := F)) adm p) c
  | ⟨0, _⟩ => fun c => (dat0 (Bd1 m ρ) c).toR
  | ⟨1, _⟩ => fun c => (dat1 (Bd3 m ρ) c).toR
  | ⟨2, _⟩ => fun c => rdat2 (Bd4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

/-- A region's arrays at contents `Fs` and the unscoped rest at `V` are the core's unscoped buffers at any valuation that
    has the arrays at `Fs` and agrees with `V` off them. -/
theorem join_arrays (p : Fin 3) (c : Dev nD) (hw : Pipeline.WinFacts (Pipeline.pin (pcfgs (F := F)) adm p).spec)
    (harr : ∀ w, ((Pipeline.pin (pcfgs (F := F)) adm p).spec w).arr.IsWhole) (hshare : ∀ w, (rdats m ρ p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m ρ p c).arrays Fs ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m ρ) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

set_option backward.isDefEq.respectTransparency.types false in
/-- Region 0: entered from every unscoped buffer at the boundary's contents, left at the next boundary's. Its arrays are
    split out of the unscoped buffers and put back at the exit contents; the generator register goes into the class's
    invariant and out; nothing is owed; the kernel has no semaphore of its own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bd1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bd1 m ρ c)
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (Bd1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (Bd1 m ρ) c).arrays ((dat0 (Bd1 m ρ) c).arrAt · cfg0.N)
          ∗ Pipeline.unscopedRest (Ix := Unit) (Name := ℕ) (U := UR sig nD τ) (Lvl := ℕ) spec0 c (Bd1 m ρ c))
        ⊢ (unscopedBufs c (Bd2 m ρ c) : sProp 𝕄) :=
      join_arrays m ρ 0 c launch0.win launch0.arr_whole ((rdats m ρ 0 c).share_full fun _ => rfl)
        (Bd1 m ρ c) (Bd2 m ρ c) ((dat0 (Bd1 m ρ) c).arrAt · cfg0.N) (hF0 m ρ c) (hrest0 m ρ c)
    rw [Pipeline.unscopedBufs_held] at hjoin
    rw [show (rdats m ρ 0 c).arraysAt (Pipeline.pinD (pcfgs (F := F)) (fun _ => adm) c 0).N = (dat0 (Bd1 m ρ) c).toR.arraysAt cfg0.N from rfl, Pipeline.Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1: entered from every unscoped buffer at the boundary's contents, left at the next boundary's. Its arrays are
    split out of the unscoped buffers and put back at the exit contents; the generator register goes into the class's
    invariant and out; nothing is owed; the kernel has no semaphore of its own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bd3 m ρ) c).toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Bd3 m ρ c)
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (Bd3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (Bd3 m ρ) c).arrays ((dat1 (Bd3 m ρ) c).arrAt · cfg1.N)
          ∗ Pipeline.unscopedRest (Ix := Unit) (Name := ℕ) (U := UR sig nD τ) (Lvl := ℕ) spec1 c (Bd3 m ρ c))
        ⊢ (unscopedBufs c (Bd4 m ρ c) : sProp 𝕄) :=
      join_arrays m ρ 1 c launch1.win launch1.arr_whole ((rdats m ρ 1 c).share_full fun _ => rfl)
        (Bd3 m ρ c) (Bd4 m ρ c) ((dat1 (Bd3 m ρ) c).arrAt · cfg1.N) (hF1 m ρ c) (hrest1 m ρ c)
    rw [Pipeline.unscopedBufs_held] at hjoin
    rw [show (rdats m ρ 1 c).arraysAt (Pipeline.pinD (pcfgs (F := F)) (fun _ => adm) c 1).N = (dat1 (Bd3 m ρ) c).toR.arraysAt cfg1.N from rfl, Pipeline.Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The last thread state without the `owes`: for some contents `F5` the output array may hold after every write-back,
    every unscoped buffer at the last boundary's contents, the generator register at some state. -/
def Tn (c : Dev nD) : sProp 𝕄 :=
  iprop(∃ F5, ⌜(rdat2 (Bd4 m ρ) c).ArrAt 5 cfg2.N F5⌝ ∗ StableHlo.held (c : Thread nD τ) (Pipeline.ucRefs τ sig) (W5 m ρ c F5) ∗ ∃ r, prngReg c r)

set_option backward.isDefEq.respectTransparency.types false in
/-- Region 2: as the others at its entry; the four kept buffers go from the scoped rest (at anything) into the invariant
    and back; at the exit its output array is at some contents the write-backs may leave. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (Bd4 m ρ) c
  hwaits := Pipeline.RDat.hwaits_of_owed_zero _ _ _ _ L lv 2 fun _ _ => rfl
  pre c := iprop(StableHlo.held (c : Thread nD τ) (Pipeline.ucRefs τ sig) (W4 m ρ c) ∗ R c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Bd4 m ρ c)
  hentry c := by
    rw [Pipeline.ownSems0_none]
    have hsplit := Pipeline.RDat.arrays_of_unscopedBufs (p := 2) (pcfgs (F := F)) adm (rdats m ρ) launch2.win launch2.arr_whole c
      ((rdats m ρ 2 c).share_full fun _ => rfl) (Bd4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := hin2 (Bd4 m ρ) c _
  hout c := by
    rw [Pipeline.ownSems0_none]
    exact hout2 (Bd4 m ρ) c
  hexit c := by
    rw [show (rdats m ρ 2 c).arraysAt (Pipeline.pinD (pcfgs (F := F)) (fun _ => adm) c 2).N = (rdat2 (Bd4 m ρ) c).arraysAt cfg2.N from rfl]
    iintro ⟨Ha, HO, HY, Hrest⟩
    ihave Ha' := (arraysAt2_split (Bd4 m ρ) c) $$ Ha
    icases Ha' with ⟨%F5, %h5, Ha⟩
    have hjoin : iprop((rdat2 (Bd4 m ρ) c).arrays (Function.update (rdat2 (Bd4 m ρ) c).A 5 F5)
          ∗ Pipeline.unscopedRest (Ix := Unit) (Name := ℕ) (U := UR sig nD τ) (Lvl := ℕ) spec2 c (Bd4 m ρ c))
        ⊢ (unscopedBufs c (fun b => W5 m ρ c F5 b) : sProp 𝕄) :=
      join_arrays m ρ 2 c launch2.win launch2.arr_whole ((rdats m ρ 2 c).share_full fun _ => rfl)
        (Bd4 m ρ c) (fun b => W5 m ρ c F5 b) (arrs2 m ρ c F5) (fun w => (W5_arr m ρ c F5 w).symm)
        (fun b hb => W5_of_ne m ρ c F5 b fun w e => hb (Finset.mem_image.mpr ⟨w, Finset.mem_univ _, e⟩))
    rw [Pipeline.unscopedBufs_held] at hjoin
    imodintro
    isplitl [Ha Hrest HY]
    · unfold Tn
      iexists F5; isplitr; · ipureintro; exact h5
      isplitl [Ha Hrest]
      · iapply hjoin; isplitl [Ha] <;> iassumption
      iexact HY
    unfold Pipeline.RDat.owesAt Pipeline.owesWithin
    icases HO with ⟨%W, -, HO⟩; iexists W; iexact HO

/-! ## What the host stretches leave alone -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched

No host operation writes an argument, and a region either reads it through an input window (whose array ends as entered)
or does not touch it: the fold at an argument's buffer walks back to the launch memory. -/

theorem W5_main_arg0 (c : Dev nD) (F5) : W5 m ρ c F5 (Proc.devRef .tc main_arg0) = m ((c : Thread nD τ).loc main_arg0) :=
  calc W5 m ρ c F5 (Proc.devRef .tc main_arg0)
    _ = W4 m ρ c (Proc.devRef .tc main_arg0) := W5_of_ne m ρ c F5 main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (Bd1 m ρ) c).arrAt_in 0 rfl _).trans (A_eq0 (Bd1 m ρ) c 0))
    _ = W0 m ρ c (Proc.devRef .tc main_arg0) := W1_keep m ρ c main_arg0 (by decide)
    _ = m ((c : Thread nD τ).loc main_arg0) := rfl

theorem W5_main_arg1 (c : Dev nD) (F5) : W5 m ρ c F5 (Proc.devRef .tc main_arg1) = m ((c : Thread nD τ).loc main_arg1) :=
  calc W5 m ρ c F5 (Proc.devRef .tc main_arg1)
    _ = W4 m ρ c (Proc.devRef .tc main_arg1) := W5_of_ne m ρ c F5 main_arg1 (by decide)
    _ = W3 m ρ c (Proc.devRef .tc main_arg1) := (W4_arr m ρ c 0).trans (((dat1 (Bd3 m ρ) c).arrAt_in 0 rfl _).trans (A_eq1 (Bd3 m ρ) c 0))
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W5_main_arg2 (c : Dev nD) (F5) : W5 m ρ c F5 (Proc.devRef .tc main_arg2) = m ((c : Thread nD τ).loc main_arg2) :=
  calc W5 m ρ c F5 (Proc.devRef .tc main_arg2)
    _ = W4 m ρ c (Proc.devRef .tc main_arg2) := W5_of_ne m ρ c F5 main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := (W2_arr m ρ c 1).trans (((dat0 (Bd1 m ρ) c).arrAt_in 1 rfl _).trans (A_eq0 (Bd1 m ρ) c 1))
    _ = W0 m ρ c (Proc.devRef .tc main_arg2) := W1_keep m ρ c main_arg2 (by decide)
    _ = m ((c : Thread nD τ).loc main_arg2) := rfl

theorem W5_main_arg3 (c : Dev nD) (F5) : W5 m ρ c F5 (Proc.devRef .tc main_arg3) = m ((c : Thread nD τ).loc main_arg3) :=
  calc W5 m ρ c F5 (Proc.devRef .tc main_arg3)
    _ = W4 m ρ c (Proc.devRef .tc main_arg3) := W5_of_ne m ρ c F5 main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W5_main_arg4 (c : Dev nD) (F5) : W5 m ρ c F5 (Proc.devRef .tc main_arg4) = m ((c : Thread nD τ).loc main_arg4) :=
  calc W5 m ρ c F5 (Proc.devRef .tc main_arg4)
    _ = W4 m ρ c (Proc.devRef .tc main_arg4) := W5_of_ne m ρ c F5 main_arg4 (by decide)
    _ = W3 m ρ c (Proc.devRef .tc main_arg4) := (W4_arr m ρ c 3).trans (((dat1 (Bd3 m ρ) c).arrAt_in 3 rfl _).trans (A_eq1 (Bd3 m ρ) c 3))
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W5_main_arg5 (c : Dev nD) (F5) : W5 m ρ c F5 (Proc.devRef .tc main_arg5) = m ((c : Thread nD τ).loc main_arg5) :=
  calc W5 m ρ c F5 (Proc.devRef .tc main_arg5)
    _ = W4 m ρ c (Proc.devRef .tc main_arg5) := W5_of_ne m ρ c F5 main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W5_main_arg6 (c : Dev nD) (F5) : W5 m ρ c F5 (Proc.devRef .tc main_arg6) = m ((c : Thread nD τ).loc main_arg6) :=
  calc W5 m ρ c F5 (Proc.devRef .tc main_arg6)
    _ = W4 m ρ c (Proc.devRef .tc main_arg6) := W5_of_ne m ρ c F5 main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W5_main_arg7 (c : Dev nD) (F5) : W5 m ρ c F5 (Proc.devRef .tc main_arg7) = m ((c : Thread nD τ).loc main_arg7) :=
  calc W5 m ρ c F5 (Proc.devRef .tc main_arg7)
    _ = W4 m ρ c (Proc.devRef .tc main_arg7) := W5_of_ne m ρ c F5 main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W5_main_arg8 (c : Dev nD) (F5) : W5 m ρ c F5 (Proc.devRef .tc main_arg8) = m ((c : Thread nD τ).loc main_arg8) :=
  calc W5 m ρ c F5 (Proc.devRef .tc main_arg8)
    _ = W4 m ρ c (Proc.devRef .tc main_arg8) := W5_of_ne m ρ c F5 main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W5_main_arg9 (c : Dev nD) (F5) : W5 m ρ c F5 (Proc.devRef .tc main_arg9) = m ((c : Thread nD τ).loc main_arg9) :=
  calc W5 m ρ c F5 (Proc.devRef .tc main_arg9)
    _ = W4 m ρ c (Proc.devRef .tc main_arg9) := W5_of_ne m ρ c F5 main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W5_main_arg10 (c : Dev nD) (F5) : W5 m ρ c F5 (Proc.devRef .tc main_arg10) = m ((c : Thread nD τ).loc main_arg10) :=
  calc W5 m ρ c F5 (Proc.devRef .tc main_arg10)
    _ = W4 m ρ c (Proc.devRef .tc main_arg10) := W5_of_ne m ρ c F5 main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W5_main_arg11 (c : Dev nD) (F5) : W5 m ρ c F5 (Proc.devRef .tc main_arg11) = m ((c : Thread nD τ).loc main_arg11) :=
  calc W5 m ρ c F5 (Proc.devRef .tc main_arg11)
    _ = W4 m ρ c (Proc.devRef .tc main_arg11) := W5_of_ne m ρ c F5 main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

/-! ## @main as segments, and the launch -/

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's five segments in order. -/
abbrev segL : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]

set_option backward.isDefEq.respectTransparency.types false in
set_option maxHeartbeats 1000000 in
/-- THE RUN. From any memory with zero counters every weakly fair execution of @main terminates, nothing faulting, and in
    the final memory, on every core, every unscoped buffer holds the last boundary's contents for some contents `F5` the
    output array may hold after region 2's write-backs. -/
theorem run_main : θ_run defs (onTc (τ := τ) (main (F := F))) ⟨m, fun _ => 0, ρ⟩ (fun r => ∀ c : Dev nD,
      ∃ F5, (rdat2 (Bd4 m ρ) c).ArrAt 5 cfg2.N F5 ∧ ∀ b ∈ Pipeline.ucRefs τ sig, r.2.mem (((c : Thread nD τ)).1, b) = W5 m ρ c F5 b) :=
  Pipeline.RDat.θ_run_regions_kit (pcfgs (F := F)) adm (rdats m ρ) () cellOf_inj emb₁ defs₀ 𝒱₀ L lv m ρ main (segL m ρ)
    (fun c Q => by
      rewrite [main_chain c, Pipeline.RDat.Seg.run_eq_chain,
        show (segL m ρ).map Pipeline.RDat.Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      exact .rfl)
    (by simp only [segL, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tn m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ F5, (rdat2 (Bd4 m ρ) c).ArrAt 5 cfg2.N F5 ∧ ∀ b ∈ Pipeline.ucRefs τ sig, s.mem (((c : Thread nD τ)).1, b) = W5 m ρ c F5 b)
    (hfin := fun c s' => by
      unfold Tn StableHlo.held
      iintro ⟨⟨%F5, %h5, Hh, -⟩, HSI⟩
      ihave Hr := (pointsTo_read_all (Pipeline.ucRefs τ sig) (fun b => (((c : Thread nD τ)).1, b)) (W5 m ρ c F5) s') $$ [Hh HSI]
      · isplitl [Hh] <;> iassumption
      icases Hr with ⟨%h, HSI⟩
      imodintro
      isplitr
      · ipureintro; exact ⟨F5, h5, h⟩
      iexact HSI)
    (hQ := fun s h c => h c)

/-- THE FRAME: every argument array ends as launched, and the result array at some contents region 2's write-backs may
    leave. -/
theorem run_out : θ_run defs (onTc (τ := τ) (main (F := F))) ⟨m, fun _ => 0, ρ⟩ (fun r => ∀ c : Dev nD,
      (∃ F5, (rdat2 (Bd4 m ρ) c).ArrAt 5 cfg2.N F5 ∧ r.2.mem ((c.tc : Thread nD τ).loc main_v16) = F5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨F5, h5, hb⟩ := h c
    exact ⟨⟨F5, h5, (hb _ (mem_uc main_v16 (by decide))).trans ((W5_arr m ρ c F5 5).trans (Function.update_self _ _ _))⟩,
      (hb _ (mem_uc main_arg0 (by decide))).trans (W5_main_arg0 m ρ c F5),
      (hb _ (mem_uc main_arg1 (by decide))).trans (W5_main_arg1 m ρ c F5),
      (hb _ (mem_uc main_arg2 (by decide))).trans (W5_main_arg2 m ρ c F5),
      (hb _ (mem_uc main_arg3 (by decide))).trans (W5_main_arg3 m ρ c F5),
      (hb _ (mem_uc main_arg4 (by decide))).trans (W5_main_arg4 m ρ c F5),
      (hb _ (mem_uc main_arg5 (by decide))).trans (W5_main_arg5 m ρ c F5),
      (hb _ (mem_uc main_arg6 (by decide))).trans (W5_main_arg6 m ρ c F5),
      (hb _ (mem_uc main_arg7 (by decide))).trans (W5_main_arg7 m ρ c F5),
      (hb _ (mem_uc main_arg8 (by decide))).trans (W5_main_arg8 m ρ c F5),
      (hb _ (mem_uc main_arg9 (by decide))).trans (W5_main_arg9 m ρ c F5),
      (hb _ (mem_uc main_arg10 (by decide))).trans (W5_main_arg10 m ρ c F5),
      (hb _ (mem_uc main_arg11 (by decide))).trans (W5_main_arg11 m ρ c F5)⟩) (run_main m ρ)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_out m ρ)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«128402_g50225347559984_cont_8to1_c_967_17_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«128402_g50225347559984_cont_8to1_c_967_17_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.Net.lean ====
/-
  The five-layer graph network on the extended reals, as functions of whole arrays.

  With A the n×n adjacency, x the n×d features, W₁ … W₅ the d×d weights and b₁ … b₅ the bias rows:
    y₀ = relu(x)·W₁                          o₀ = relu(A·y₀ + b₁)
    y₁ = o₀·W₂                                o₁ = elu (A·y₁ + b₂)
    y₂ = relu(o₁ + o₀)·W₃                     o₂ = σ   (A·y₂ + b₃)
    y₃ = relu(o₂ + o₁)·W₄                     o₃ = relu(A·y₃ + b₄)
    y₄ = relu((o₃ + o₀) + o₂)·W₅              o₄ = elu (A·y₄ + b₅)
  where relu h = max h 0, elu h = h for h > 0 and exp(min h 0) − 1 otherwise, σ h = 1 / (1 + exp(−h)), every
  operation the exact one on the extended reals. Since o₀ = max _ 0, relu(o₀) = o₀: the second layer's input needs no
  maximum. Every stage is row-local: a row of a stage depends on the same row of the stage's pointwise inputs (and on
  one row of A), which is what lets a block of rows be computed from a block of rows. Nothing here mentions a program.
-/
import Idealize.ShloMosaic.PureOps.Ideal.Laws
import Idealize.ShloMosaic.Lib.ValueIdx
import proofs.«128402_g50225347559984_cont_8to1_c_967_17_alg».proof.Proof.LibMatProd
import proofs.«128402_g50225347559984_cont_8to1_c_967_17_alg».proof.Proof.LibRowVector

open scoped BigOperators

noncomputable section

namespace Cert.Net

open Idealize.ShloMosaic Idealize.ShloMosaic.ValueIdx Cert.Lib.MatProd Cert.Lib.RowVector

/-- An r×c array of extended reals. -/
abbrev Mat (r c : Nat) : Type := (⟨2, ![r, c]⟩ : Shape).Idx → EReal

variable {r r' k n : Nat}

/-- max h 0, entry by entry. -/
def relu (X : Mat r n) : Mat r n := fun i => max (X i) 0
/-- The entrywise sum. -/
def plus (X Y : Mat r n) : Mat r n := fun i => X i + Y i
/-- A·Y plus the bias row b: entry (p, q) is ∑ c, A(p, c) · Y(c, q) + b(0, q). -/
def aff (A : Mat r k) (Y : Mat k n) (b : Mat 1 n) : Mat r n :=
  fun i => matProd A Y i + b (ix2 (0 : Fin 1) (⟨(i 1).val, idx2_lt1 i⟩ : Fin n))
/-- elu on one extended real: h above zero, exp(min h 0) − 1 otherwise. -/
def eluS (h : EReal) : EReal := if 0 < h then h else Ideal.exp (min h 0) - 1
def elu (X : Mat r n) : Mat r n := fun i => eluS (X i)
/-- The logistic function 1 / (1 + exp(−h)), entry by entry. -/
def sig (X : Mat r n) : Mat r n := fun i => Ideal.logistic (X i)

theorem relu_apply (X : Mat r n) (p : Fin r) (q : Fin n) : relu X (ix2 p q) = max (X (ix2 p q)) 0 := rfl
theorem plus_apply (X Y : Mat r n) (p : Fin r) (q : Fin n) : plus X Y (ix2 p q) = X (ix2 p q) + Y (ix2 p q) := rfl
theorem aff_apply (A : Mat r k) (Y : Mat k n) (b : Mat 1 n) (p : Fin r) (q : Fin n) :
    aff A Y b (ix2 p q) = matProd A Y (ix2 p q) + b (ix2 0 q) := rfl
theorem elu_apply (X : Mat r n) (p : Fin r) (q : Fin n) : elu X (ix2 p q) = eluS (X (ix2 p q)) := rfl
theorem sig_apply (X : Mat r n) (p : Fin r) (q : Fin n) : sig X (ix2 p q) = Ideal.logistic (X (ix2 p q)) := rfl

/-- The maximum with zero taken twice is taken once. -/
theorem relu_relu (X : Mat r n) : relu (relu X) = relu X := by
  funext i; simp only [relu, max_assoc, max_self]

/-- Row p' of A'·Y + b is row p of A·Y + b when row p' of A' is row p of A. -/
theorem aff_rows (A : Mat r k) (A' : Mat r' k) (Y : Mat k n) (b : Mat 1 n) (p' : Fin r') (p : Fin r) (q : Fin n)
    (h : ∀ c : Fin k, A' (ix2 p' c) = A (ix2 p c)) : aff A' Y b (ix2 p' q) = aff A Y b (ix2 p q) := by
  rw [aff_apply, aff_apply, matProd_block A A' Y Y p' q p q h fun _ => rfl]

/-- Row p' of X'·W is row p of X·W when row p' of X' is row p of X. -/
theorem matProd_rows (X : Mat r k) (X' : Mat r' k) (W : Mat k n) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-! ## The network -/

/-- The network's inputs: features, adjacency, five weight matrices, five bias rows. -/
structure Inp where
  x : Mat 10000 128
  A : Mat 10000 10000
  W1 : Mat 128 128
  W2 : Mat 128 128
  W3 : Mat 128 128
  W4 : Mat 128 128
  W5 : Mat 128 128
  b1 : Mat 1 128
  b2 : Mat 1 128
  b3 : Mat 1 128
  b4 : Mat 1 128
  b5 : Mat 1 128

variable (I : Inp)

def y0 : Mat 10000 128 := matProd (relu I.x) I.W1
def o0 : Mat 10000 128 := relu (aff I.A (y0 I) I.b1)
def y1 : Mat 10000 128 := matProd (o0 I) I.W2
def o1 : Mat 10000 128 := elu (aff I.A (y1 I) I.b2)
def y2 : Mat 10000 128 := matProd (relu (plus (o1 I) (o0 I))) I.W3
def o2 : Mat 10000 128 := sig (aff I.A (y2 I) I.b3)
def y3 : Mat 10000 128 := matProd (relu (plus (o2 I) (o1 I))) I.W4
def o3 : Mat 10000 128 := relu (aff I.A (y3 I) I.b4)
def y4 : Mat 10000 128 := matProd (relu (plus (plus (o3 I) (o0 I)) (o2 I))) I.W5
def o4 : Mat 10000 128 := elu (aff I.A (y4 I) I.b5)

/-- The second layer's input with the maximum the reference takes: relu(o₀) = o₀. -/
theorem y1_relu : matProd (relu (o0 I)) I.W2 = y1 I := by
  unfold y1 o0; rw [relu_relu]

/-! ## Layers 1 to 4 from the first layer's results

The last four layers as a function of the adjacency, of y₁ and o₀ (what the first layer leaves), of the three weight
matrices and four bias rows they use. -/

section Tail

variable (A : Mat 10000 10000) (Y1 O0 : Mat 10000 128) (W3 W4 W5 : Mat 128 128) (b2 b3 b4 b5 : Mat 1 128)

def t1 : Mat 10000 128 := elu (aff A Y1 b2)
def u2 : Mat 10000 128 := matProd (relu (plus (t1 A Y1 b2) O0)) W3
def t2 : Mat 10000 128 := sig (aff A (u2 A Y1 O0 W3 b2) b3)
def u3 : Mat 10000 128 := matProd (relu (plus (t2 A Y1 O0 W3 b2 b3) (t1 A Y1 b2))) W4
def t3 : Mat 10000 128 := relu (aff A (u3 A Y1 O0 W3 W4 b2 b3) b4)
def u4 : Mat 10000 128 := matProd (relu (plus (plus (t3 A Y1 O0 W3 W4 b2 b3 b4) O0) (t2 A Y1 O0 W3 b2 b3))) W5
/-- The network's result from the first layer's. -/
def tail : Mat 10000 128 := elu (aff A (u4 A Y1 O0 W3 W4 W5 b2 b3 b4) b5)

end Tail

theorem o4_eq_tail (I : Inp) : o4 I = tail I.A (y1 I) (o0 I) I.W3 I.W4 I.W5 I.b2 I.b3 I.b4 I.b5 := rfl

/-- The network's inputs from the twelve argument arrays in the programs' order (features, adjacency, then each weight
    matrix followed by its bias vector), each bias vector laid as a row. -/
def Inp.ofArgs (x : Mat 10000 128) (A : Mat 10000 10000)
    (W1 : Mat 128 128) (b1 : (⟨1, ![128]⟩ : Shape).Idx → EReal) (W2 : Mat 128 128) (b2 : (⟨1, ![128]⟩ : Shape).Idx → EReal)
    (W3 : Mat 128 128) (b3 : (⟨1, ![128]⟩ : Shape).Idx → EReal) (W4 : Mat 128 128) (b4 : (⟨1, ![128]⟩ : Shape).Idx → EReal)
    (W5 : Mat 128 128) (b5 : (⟨1, ![128]⟩ : Shape).Idx → EReal) : Inp :=
  ⟨x, A, W1, W2, W3, W4, W5, asRow b1, asRow b2, asRow b3, asRow b4, asRow b5⟩

/-- The network's result as a function of the twelve argument arrays. -/
def out (x : Mat 10000 128) (A : Mat 10000 10000)
    (W1 : Mat 128 128) (b1 : (⟨1, ![128]⟩ : Shape).Idx → EReal) (W2 : Mat 128 128) (b2 : (⟨1, ![128]⟩ : Shape).Idx → EReal)
    (W3 : Mat 128 128) (b3 : (⟨1, ![128]⟩ : Shape).Idx → EReal) (W4 : Mat 128 128) (b4 : (⟨1, ![128]⟩ : Shape).Idx → EReal)
    (W5 : Mat 128 128) (b5 : (⟨1, ![128]⟩ : Shape).Idx → EReal) : Mat 10000 128 :=
  o4 (Inp.ofArgs x A W1 b1 W2 b2 W3 b3 W4 b4 W5 b5)

end Cert.Net

end
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«128402_g50225347559984_cont_8to1_c_967_17_alg».proof.Proof.LibBlockReads
import proofs.«128402_g50225347559984_cont_8to1_c_967_17_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«128402_g50225347559984_cont_8to1_c_967_17_alg».proof.Proof.LibBlockReads
import proofs.«128402_g50225347559984_cont_8to1_c_967_17_alg».proof.Proof.LibMatProd
import proofs.«128402_g50225347559984_cont_8to1_c_967_17_alg».proof.Proof.LibRowVector
import proofs.«128402_g50225347559984_cont_8to1_c_967_17_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.KI.Value01.lean ====
/- What regions 0 and 1 of the kernel program leave in their output arrays, on the extended reals, for any region-entry
   contents `V`: the first layer's product relu(x)·W₁; the first aggregation layer relu(A·y₀ + b₁); the adjacency
   itself (rounding to the narrower format is the identity on the extended reals); and the second layer's product
   relu(A·y₀ + b₁)·W₂. Each point of a region's grid writes back one block of rows of a function of the whole arrays —
   a block of rows of a product is the product of the block of rows — and the blocks tile the array. -/
import proofs.«128402_g50225347559984_cont_8to1_c_967_17_alg».proof.Proof.KI.Region0
import proofs.«128402_g50225347559984_cont_8to1_c_967_17_alg».proof.Proof.KI.Region1
import proofs.«128402_g50225347559984_cont_8to1_c_967_17_alg».proof.Proof.Net
import proofs.«128402_g50225347559984_cont_8to1_c_967_17_alg».proof.Proof.LibMatProd
import proofs.«128402_g50225347559984_cont_8to1_c_967_17_alg».proof.Proof.LibRowVector
import proofs.«128402_g50225347559984_cont_8to1_c_967_17_alg».proof.Proof.LibBiasRelu
import proofs.«128402_g50225347559984_cont_8to1_c_967_17_alg».proof.Proof.LibSplitLayers
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Lib.MatProd

variable (V : (c : Dev nD) → (b : Ref sig .tc) → Buf (Elt Ideal) ((c : Thread nD τ).loc b))

/-! ## The body's operations on the extended reals -/

theorem zero_offsets : (![0, 0] : Fin 2 → Nat) = fun _ => 0 := funext fun a => by fin_cases a <;> rfl

/-- The maximum with a splat of the zero word is max · 0, entry by entry. -/
theorem maximumf_zero_eq_relu {r n : Nat} (x : FVec Ideal ⟨2, ![r, n]⟩ .f32) :
    maximumf x (broadcast ⟨2, ![r, n]⟩ (Scalar.ofBits (F := Ideal) .f32 0x00000000#32)) = Cert.Net.relu x := by
  funext i
  rw [maximumf_apply, broadcast_apply]
  show max (x i) (Ideal.ofBits .f32 0x00000000#32) = max (x i) 0
  rw [Ideal.ofBits_zero_f32]

/-! ## Region 0: relu(x)·W₁ -/

/-- The body's payload: the product of the block's maximum with zero by the weights; the rounding of the product to
    the narrower format is the identity. -/
theorem pay0_eq (x0 : Vec Ideal S2000x128 .f32) (x1 : Vec Ideal S128x128 .f32) :
    (k0_pay1 x0 x1 : S2000x128.Idx → EReal) = matProd (Cert.Net.relu x0) x1 := by
  unfold k0_pay1
  show matmul (φ₁ := .f32) (φ₂ := .f32) dot_S2000x128_S128x128_S2000x128_1_0_0_1_n_n none (maximumf x0 (broadcast S2000x128 (Scalar.ofBits (F := Ideal) .f32 0x00000000#32))) x1 (constant S2000x128 .f32 0x00000000#32) = _
  rw [maximumf_zero_eq_relu, matmul_zero_eq_matProd dot_S2000x128_S128x128_S2000x128_1_0_0_1_n_n rfl rfl rfl rfl rfl rfl]

/-- The printed index maps over the grid: the feature window moves with the output window down the rows, the weight
    window stays, and the output's block of rows at point `t` is block `t`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of relu(x)·W₁ of the arrays as the region finds them. -/
theorem flushed0_2_eq (c : Dev nD) (t : Fin cfg0.N) :
    (dat0 V c).flushed 2 t = ((cfg0.win 2).blk t).view.read (Elt Ideal)
      (matProd (Cert.Net.relu (V c main_arg0)) (V c main_arg2) : S10000x128.Idx → EReal) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  rw [pay0_eq]
  obtain ⟨e0, e1, e2, e3, e4, e5⟩ := idx_facts0 t
  funext j
  obtain ⟨p, q, rfl⟩ : ∃ (p : Fin 2000) (q : Fin 128), j = ix2 p q := ⟨j 0, j 1, eq_ix2 j⟩
  show matProd (Cert.Net.relu (iblk0 V c 0 t)) (iblk0 V c 1 t) (ix2 p q) = matProd (Cert.Net.relu (V c main_arg0)) (V c main_arg2) (((cfg0.win 2).blk t).view.emb (ix2 p q))
  have hA : ∀ k : Fin 128, Cert.Net.relu (iblk0 V c 0 t) (ix2 p k)
      = Cert.Net.relu (V c main_arg0) (ix2 ((((cfg0.win 2).blk t).view.emb (ix2 p q)) 0) k) := by
    intro k
    have hi : ((cfg0.win 0).blk t).view.emb (ix2 p k) = ix2 ((((cfg0.win 2).blk t).view.emb (ix2 p q)) 0) k := by
      funext a; apply Fin.ext
      match a with
      | ⟨0, _⟩ => show win0_0.index t (0 : Fin 2) * 2000 + 1 * p.val = win0_2.index t (0 : Fin 2) * 2000 + 1 * p.val; omega
      | ⟨1, _⟩ => show win0_0.index t (1 : Fin 2) * 128 + 1 * k.val = k.val; omega
    exact congrArg (fun z : EReal => max z 0) (congrArg (V c main_arg0 : S10000x128.Idx → EReal) hi)
  have hB : ∀ k : Fin 128, iblk0 V c 1 t (ix2 k q)
      = V c main_arg2 (ix2 k ((((cfg0.win 2).blk t).view.emb (ix2 p q)) 1)) := by
    intro k
    have hi : ((cfg0.win 1).blk t).view.emb (ix2 k q) = ix2 k ((((cfg0.win 2).blk t).view.emb (ix2 p q)) 1) := by
      funext a; apply Fin.ext
      match a with
      | ⟨0, _⟩ => show win0_1.index t (0 : Fin 2) * 128 + 1 * k.val = k.val; omega
      | ⟨1, _⟩ => show win0_1.index t (1 : Fin 2) * 128 + 1 * q.val = win0_2.index t (1 : Fin 2) * 128 + 1 * q.val; omega
    exact congrArg (V c main_arg2 : S128x128.Idx → EReal) hi
  exact (matProd_block (Cert.Net.relu (V c main_arg0)) (Cert.Net.relu (iblk0 V c 0 t)) (V c main_arg2) (iblk0 V c 1 t) p q _ _ hA hB).trans
    (congrArg _ (eq_ix2 (((cfg0.win 2).blk t).view.emb (ix2 p q))).symm)

/-- An index of the array is in point `t`'s block iff each coordinate is in the block's range on its axis. -/
theorem mem_blk0_2 (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v13).slice (win0_2.rect t)).set ↔ _
  rw [View.set_slice_whole, Rect.mem_set_unit]
  exact Iff.rfl

/-- The blocks of 2000 rows tile the array: row `r` is in the block of point `r / 2000`. -/
theorem cover0_2_arr (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 5 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- REGION 0's output array after the region: relu(x)·W₁ of the arrays as the region finds them. -/
theorem final0_2 (c : Dev nD) :
    (dat0 (F := Ideal) V c).arrAt 2 cfg0.N = matProd (Cert.Net.relu (V c main_arg0)) (V c main_arg2) :=
  (dat0 V c).arrAt_eq_of_cover 2 _ (fun t _ => flushed0_2_eq V c t) cover0_2_arr

/-! ## Region 1: relu(A·y₀ + b₁), the adjacency, and relu(A·y₀ + b₁)·W₂ -/

/-- Adding a bias row and taking the maximum with the zero word is the maximum with zero of the affine map. -/
theorem biasRelu_matProd_eq {r k n : Nat} (A : (⟨2, ![r, k]⟩ : Shape).Idx → EReal) (Y : (⟨2, ![k, n]⟩ : Shape).Idx → EReal)
    (b : (⟨2, ![1, n]⟩ : Shape).Idx → EReal) :
    Cert.Lib.BiasRelu.biasRelu (matProd A Y) b = Cert.Net.relu (Cert.Net.aff A Y b) := by
  funext i
  show max (matProd A Y i + b _) (Ideal.ofBits .f32 0x00000000#32) = max (matProd A Y i + b _) 0
  rw [Ideal.ofBits_zero_f32]

/-- The adjacency block rounded to the narrower format is the block itself. -/
theorem pay1_1_eq (x0 : Vec Ideal S400x10000 .f32) : (k1_pay1 x0 : S400x10000.Idx → EReal) = x0 := rfl

/-- The first output's payload: the block of adjacency rows times y₀, plus the bias row, maximum with zero. -/
theorem pay1_2_eq (x0 : Vec Ideal S400x10000 .f32) (x1 : Vec Ideal S10000x128 .bf16) (x2 : Vec Ideal S1x128 .f32) :
    (k1_pay2 x0 x1 x2 : S400x128.Idx → EReal) = Cert.Net.relu (Cert.Net.aff x0 x1 x2) := by
  unfold k1_pay2
  show maximumf (addf (matmul (φ₁ := .bf16) (φ₂ := .bf16) dot_S400x10000_S10000x128_S400x128_1_0_0_1_n_n none (k1_pay1 x0)
        (shapeCast S10000x128 x1 shapeCasts_S10000x128_S10000x128) (constant S400x128 .f32 0x00000000#32))
      (broadcastTo S400x128 (shapeCast S1x128 x2 shapeCasts_S1x128_S1x128) broadcasts_S1x128_S400x128))
    (broadcast S400x128 (Scalar.ofBits (F := Ideal) .f32 0x00000000#32)) = _
  rw [shapeCast_self, shapeCast_self,
    matmul_zero_eq_matProd dot_S400x10000_S10000x128_S400x128_1_0_0_1_n_n rfl rfl rfl rfl rfl rfl,
    Cert.Lib.SplitLayers.relu_bias_eq, biasRelu_matProd_eq, pay1_1_eq]

/-- The third output's payload: that block times W₂; the rounding of the product is the identity. -/
theorem pay1_3_eq (x0 : Vec Ideal S400x10000 .f32) (x1 : Vec Ideal S10000x128 .bf16) (x2 : Vec Ideal S1x128 .f32)
    (x3 : Vec Ideal S128x128 .f32) :
    (k1_pay3 x0 x1 x2 x3 : S400x128.Idx → EReal) = matProd (Cert.Net.relu (Cert.Net.aff x0 x1 x2)) x3 := by
  unfold k1_pay3
  show matmul (φ₁ := .f32) (φ₂ := .f32) dot_S400x128_S128x128_S400x128_1_0_0_1_n_n none (k1_pay2 x0 x1 x2) x3
      (constant S400x128 .f32 0x00000000#32) = _
  rw [matmul_zero_eq_matProd dot_S400x128_S128x128_S400x128_1_0_0_1_n_n rfl rfl rfl rfl rfl rfl, pay1_2_eq]

/-- The printed index maps over the grid: the adjacency window and the three output windows move together down the
    rows, block `t` at point `t`; the other windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The windows that hold a whole array hold it at every point. -/
theorem iblk1_1_eq (c : Dev nD) (t : Fin cfg1.N) : (iblk1 V c 1 t : S10000x128.Idx → EReal) = V c main_v13 := by
  obtain ⟨-, -, e2, e3, -⟩ := idx_facts1 t
  funext j
  refine congrArg (V c main_v13 : S10000x128.Idx → EReal) ?_
  funext a; apply Fin.ext
  match a with
  | ⟨0, _⟩ => show win1_1.index t (0 : Fin 2) * 10000 + 1 * (j 0).val = (j 0).val; omega
  | ⟨1, _⟩ => show win1_1.index t (1 : Fin 2) * 128 + 1 * (j 1).val = (j 1).val; omega

theorem iblk1_2_eq (c : Dev nD) (t : Fin cfg1.N) : (iblk1 V c 2 t : S1x128.Idx → EReal) = V c main_v14 := by
  obtain ⟨-, -, -, -, e4, e5, -⟩ := idx_facts1 t
  funext j
  refine congrArg (V c main_v14 : S1x128.Idx → EReal) ?_
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

theorem iblk1_3_eq (c : Dev nD) (t : Fin cfg1.N) : (iblk1 V c 3 t : S128x128.Idx → EReal) = V c main_arg4 := by
  obtain ⟨-, -, -, -, -, -, e6, e7, -⟩ := idx_facts1 t
  funext j
  refine congrArg (V c main_arg4 : S128x128.Idx → EReal) ?_
  funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- Row `p` of the adjacency block at point `t` is row `t · 400 + p` of the adjacency. -/
theorem iblk1_0_row (c : Dev nD) (t : Fin cfg1.N) (p : Fin 400) (k : Fin 10000) (r : Fin 10000)
    (hr : r.val = t.val * 400 + p.val) :
    (iblk1 V c 0 t : S400x10000.Idx → EReal) (ix2 p k) = V c main_arg1 (ix2 r k) := by
  obtain ⟨e0, e1, -⟩ := idx_facts1 t
  refine congrArg (V c main_arg1 : S10000x10000.Idx → EReal) ?_
  funext a; apply Fin.ext
  match a with
  | ⟨0, _⟩ => show win1_0.index t (0 : Fin 2) * 400 + 1 * p.val = r.val; omega
  | ⟨1, _⟩ => show win1_0.index t (1 : Fin 2) * 10000 + 1 * k.val = k.val; omega

/-- Row `p` of relu(A'·y₀ + b₁) for the adjacency block A' at point `t` is row `t · 400 + p` of relu(A·y₀ + b₁): a row of
    the product depends on the same row of the left factor only. -/
theorem o0_rows (c : Dev nD) (t : Fin cfg1.N) (p : Fin 400) (r : Fin 10000) (hr : r.val = t.val * 400 + p.val) (q : Fin 128) :
    Cert.Net.relu (Cert.Net.aff (iblk1 V c 0 t) (V c main_v13) (V c main_v14)) (ix2 p q)
      = Cert.Net.relu (Cert.Net.aff (V c main_arg1) (V c main_v13) (V c main_v14)) (ix2 r q) :=
  congrArg (fun z : EReal => max z 0)
    (Cert.Net.aff_rows (V c main_arg1) (iblk1 V c 0 t) (V c main_v13) (V c main_v14) p r q
      (fun k => iblk1_0_row V c t p k r hr))

/-- The row of the array that row `p` of the block at point `t` is. -/
def rowAt (t : Fin cfg1.N) (p : Fin 400) : Fin 10000 :=
  ⟨t.val * 400 + p.val, by have h : t.val < 25 := lt_of_lt_of_eq t.isLt N_1; have := p.isLt; omega⟩

/-- What point `t` writes back to the first output is block `t` of relu(A·y₀ + b₁). -/
theorem flushed1_4_eq (c : Dev nD) (t : Fin cfg1.N) :
    (dat1 V c).flushed 4 t = ((cfg1.win 4).blk t).view.read (Elt Ideal)
      (Cert.Net.relu (Cert.Net.aff (V c main_arg1) (V c main_v13) (V c main_v14)) : S10000x128.Idx → EReal) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x128) zero_offsets,
    View.ld_unit_zero (S := S1x128) zero_offsets]
  rw [pay1_2_eq, iblk1_1_eq, iblk1_2_eq]
  obtain ⟨-, -, -, -, -, -, -, -, e8, e9, -⟩ := idx_facts1 t
  funext j
  obtain ⟨p, q, rfl⟩ : ∃ (p : Fin 400) (q : Fin 128), j = ix2 p q := ⟨j 0, j 1, eq_ix2 j⟩
  have he : ((cfg1.win 4).blk t).view.emb (ix2 p q) = ix2 (rowAt t p) q := by
    funext a; apply Fin.ext
    match a with
    | ⟨0, _⟩ => show win1_4.index t (0 : Fin 2) * 400 + 1 * p.val = t.val * 400 + p.val; omega
    | ⟨1, _⟩ => show win1_4.index t (1 : Fin 2) * 128 + 1 * q.val = q.val; omega
  exact (o0_rows V c t p (rowAt t p) rfl q).trans
    (congrArg (Cert.Net.relu (Cert.Net.aff (V c main_arg1) (V c main_v13) (V c main_v14)) : S10000x128.Idx → EReal) he.symm)

/-- What point `t` writes back to the second output is block `t` of the adjacency. -/
theorem flushed1_5_eq (c : Dev nD) (t : Fin cfg1.N) :
    (dat1 V c).flushed 5 t = ((cfg1.win 5).blk t).view.read (Elt Ideal) (V c main_arg1 : S10000x10000.Idx → EReal) := by
  show (cfg1.win 5).cut (grid1.coords t) ((dat1 V c).after 5 t) = _
  rw [after1_5]
  unfold out1_5
  rw [View.canon_unit_zero zero_offsets]
  simp only [View.ld_unit_zero (S := S400x10000) zero_offsets]
  rw [pay1_1_eq]
  obtain ⟨-, -, -, -, -, -, -, -, -, -, e10, e11, -⟩ := idx_facts1 t
  funext j
  obtain ⟨p, k, rfl⟩ : ∃ (p : Fin 400) (k : Fin 10000), j = ix2 p k := ⟨j 0, j 1, eq_ix2 j⟩
  have he : ((cfg1.win 5).blk t).view.emb (ix2 p k) = ix2 (rowAt t p) k := by
    funext a; apply Fin.ext
    match a with
    | ⟨0, _⟩ => show win1_5.index t (0 : Fin 2) * 400 + 1 * p.val = t.val * 400 + p.val; omega
    | ⟨1, _⟩ => show win1_5.index t (1 : Fin 2) * 10000 + 1 * k.val = k.val; omega
  exact (iblk1_0_row V c t p k (rowAt t p) rfl).trans
    (congrArg (V c main_arg1 : S10000x10000.Idx → EReal) he.symm)

/-- What point `t` writes back to the third output is block `t` of relu(A·y₀ + b₁)·W₂. -/
theorem flushed1_6_eq (c : Dev nD) (t : Fin cfg1.N) :
    (dat1 V c).flushed 6 t = ((cfg1.win 6).blk t).view.read (Elt Ideal)
      (matProd (Cert.Net.relu (Cert.Net.aff (V c main_arg1) (V c main_v13) (V c main_v14))) (V c main_arg4) : S10000x128.Idx → EReal) := by
  show (cfg1.win 6).cut (grid1.coords t) ((dat1 V c).after 6 t) = _
  rw [after1_6]
  unfold out1_6
  rw [View.canon_unit_zero zero_offsets]
  simp only [View.ld_unit_zero (S := S400x10000) zero_offsets, View.ld_unit_zero (S := S10000x128) zero_offsets,
    View.ld_unit_zero (S := S1x128) zero_offsets, View.ld_unit_zero (S := S128x128) zero_offsets]
  rw [pay1_3_eq, iblk1_1_eq, iblk1_2_eq, iblk1_3_eq]
  obtain ⟨-, -, -, -, -, -, -, -, -, -, -, -, e12, e13⟩ := idx_facts1 t
  funext j
  obtain ⟨p, q, rfl⟩ : ∃ (p : Fin 400) (q : Fin 128), j = ix2 p q := ⟨j 0, j 1, eq_ix2 j⟩
  have he : ((cfg1.win 6).blk t).view.emb (ix2 p q) = ix2 (rowAt t p) q := by
    funext a; apply Fin.ext
    match a with
    | ⟨0, _⟩ => show win1_6.index t (0 : Fin 2) * 400 + 1 * p.val = t.val * 400 + p.val; omega
    | ⟨1, _⟩ => show win1_6.index t (1 : Fin 2) * 128 + 1 * q.val = q.val; omega
  exact (Cert.Net.matProd_rows (Cert.Net.relu (Cert.Net.aff (V c main_arg1) (V c main_v13) (V c main_v14)))
      (Cert.Net.relu (Cert.Net.aff (iblk1 V c 0 t) (V c main_v13) (V c main_v14))) (V c main_arg4) p (rowAt t p) q
      (fun k => o0_rows V c t p (rowAt t p) rfl k)).trans
    (congrArg (matProd (Cert.Net.relu (Cert.Net.aff (V c main_arg1) (V c main_v13) (V c main_v14))) (V c main_arg4) : S10000x128.Idx → EReal) he.symm)

/-- An index of an output array is in point `t`'s block iff each coordinate is in the block's range on its axis. -/
theorem mem_blk1_4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v15_0).slice (win1_4.rect t)).set ↔ _
  rw [View.set_slice_whole, Rect.mem_set_unit]
  exact Iff.rfl
theorem mem_blk1_5 (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v15_1).slice (win1_5.rect t)).set ↔ _
  rw [View.set_slice_whole, Rect.mem_set_unit]
  exact Iff.rfl
theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v15_2).slice (win1_6.rect t)).set ↔ _
  rw [View.set_slice_whole, Rect.mem_set_unit]
  exact Iff.rfl

/-- The point whose block of 400 rows holds row `r`. -/
def pointOf (r : Fin 10000) : Fin cfg1.N := ⟨r.val / 400, by rw [show cfg1.N = 25 from N_1]; have := r.isLt; omega⟩

/-- The blocks of 400 rows tile each output array: row `r` is in the block of point `r / 400`. -/
theorem cover1_4_arr (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨-, -, -, -, -, -, -, -, e8, e9, -⟩ := idx_facts1 (pointOf (i 0))
  have ht : (pointOf (i 0)).val = (i 0).val / 400 := rfl
  refine ⟨pointOf (i 0), flush1_4 _, ?_⟩
  rw [mem_blk1_4]
  intro a
  match a with
  | ⟨0, _⟩ => show win1_4.index (pointOf (i 0)) (0 : Fin 2) * 400 ≤ (i 0).val ∧ (i 0).val < win1_4.index (pointOf (i 0)) (0 : Fin 2) * 400 + 400; omega
  | ⟨1, _⟩ => show win1_4.index (pointOf (i 0)) (1 : Fin 2) * 128 ≤ (i 1).val ∧ (i 1).val < win1_4.index (pointOf (i 0)) (1 : Fin 2) * 128 + 128; omega
theorem cover1_5_arr (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  obtain ⟨-, -, -, -, -, -, -, -, -, -, e10, e11, -⟩ := idx_facts1 (pointOf (i 0))
  have ht : (pointOf (i 0)).val = (i 0).val / 400 := rfl
  refine ⟨pointOf (i 0), flush1_5 _, ?_⟩
  rw [mem_blk1_5]
  intro a
  match a with
  | ⟨0, _⟩ => show win1_5.index (pointOf (i 0)) (0 : Fin 2) * 400 ≤ (i 0).val ∧ (i 0).val < win1_5.index (pointOf (i 0)) (0 : Fin 2) * 400 + 400; omega
  | ⟨1, _⟩ => show win1_5.index (pointOf (i 0)) (1 : Fin 2) * 10000 ≤ (i 1).val ∧ (i 1).val < win1_5.index (pointOf (i 0)) (1 : Fin 2) * 10000 + 10000; omega
theorem cover1_6_arr (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  obtain ⟨-, -, -, -, -, -, -, -, -, -, -, -, e12, e13⟩ := idx_facts1 (pointOf (i 0))
  have ht : (pointOf (i 0)).val = (i 0).val / 400 := rfl
  refine ⟨pointOf (i 0), flush1_6 _, ?_⟩
  rw [mem_blk1_6]
  intro a
  match a with
  | ⟨0, _⟩ => show win1_6.index (pointOf (i 0)) (0 : Fin 2) * 400 ≤ (i 0).val ∧ (i 0).val < win1_6.index (pointOf (i 0)) (0 : Fin 2) * 400 + 400; omega
  | ⟨1, _⟩ => show win1_6.index (pointOf (i 0)) (1 : Fin 2) * 128 ≤ (i 1).val ∧ (i 1).val < win1_6.index (pointOf (i 0)) (1 : Fin 2) * 128 + 128; omega

/-- REGION 1's first output after the region: relu(A·y₀ + b₁) of the arrays as the region finds them. -/
theorem final1_4 (c : Dev nD) :
    (dat1 (F := Ideal) V c).arrAt 4 cfg1.N = Cert.Net.relu (Cert.Net.aff (V c main_arg1) (V c main_v13) (V c main_v14)) :=
  (dat1 V c).arrAt_eq_of_cover 4 _ (fun t _ => flushed1_4_eq V c t) cover1_4_arr

/-- Its second output: the adjacency, entry for entry. -/
theorem final1_5 (c : Dev nD) :
    (dat1 (F := Ideal) V c).arrAt 5 cfg1.N = (V c main_arg1 : S10000x10000.Idx → EReal) :=
  (dat1 V c).arrAt_eq_of_cover 5 _ (fun t _ => flushed1_5_eq V c t) cover1_5_arr

/-- Its third output: relu(A·y₀ + b₁)·W₂. -/
theorem final1_6 (c : Dev nD) :
    (dat1 (F := Ideal) V c).arrAt 6 cfg1.N
      = matProd (Cert.Net.relu (Cert.Net.aff (V c main_arg1) (V c main_v13) (V c main_v14))) (V c main_arg4) :=
  (dat1 V c).arrAt_eq_of_cover 6 _ (fun t _ => flushed1_6_eq V c t) cover1_6_arr

end Cert.KernelIdeal.Hand

end
-- ==== Proof.LibSigmoidLayer.lean ====
/-
  The last layer of a perceptron with the logistic function, over the extended reals.

  Entry (p, q) is logistic (∑ c, X(p, c) · W(c, q) + b(0, q)), where logistic x = 1 / (1 + e^(-x)) with the
  conventions of the extended reals at the infinities. A kernel's one logistic operation and the reference's
  expansion of it into a negation, an exponential, an addition to one and a quotient of one are this one function;
  the pattern 0x3F800000 is the real 1.
-/
import Idealize.ShloMosaic.PureOps.Ideal.Laws
import Idealize.ShloMosaic.Lib.ValueIdx
import Idealize.ShloMosaic.Lib.Pipeline.Value
import proofs.«128402_g50225347559984_cont_8to1_c_967_17_alg».proof.Proof.LibBlockReads
import proofs.«128402_g50225347559984_cont_8to1_c_967_17_alg».proof.Proof.LibMatProd
import proofs.«128402_g50225347559984_cont_8to1_c_967_17_alg».proof.Proof.LibRowVector
import proofs.«128402_g50225347559984_cont_8to1_c_967_17_alg».proof.Proof.LibSplitLayers

open scoped BigOperators

noncomputable section

namespace Cert.Lib.SigmoidLayer

open Idealize.ShloMosaic Idealize.ShloMosaic.ValueIdx Cert.Lib.MatProd Cert.Lib.RowVector Cert.Lib.SplitLayers

variable {r r' k n : Nat}

/-- Entry (p, q) is logistic (∑ c, X(p, c) · W(c, q) + b(0, q)). -/
def sigLayer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => Ideal.logistic (matProd X W i + b (ix2 (0 : Fin 1) (⟨(i 1).val, idx2_lt1 i⟩ : Fin n)))

theorem sigLayer_apply (X : (⟨2, ![r, k]⟩ : Shape).Idx → EReal) (W : (⟨2, ![k, n]⟩ : Shape).Idx → EReal)
    (b : (⟨2, ![1, n]⟩ : Shape).Idx → EReal) (p : Fin r) (q : Fin n) :
    sigLayer X W b (ix2 p q) = Ideal.logistic (matProd X W (ix2 p q) + b (ix2 0 q)) := rfl

/-- An entry depends on one row of the input. -/
theorem sigLayer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    sigLayer X' W b (ix2 p' q) = sigLayer X W b (ix2 p q) := by
  rw [sigLayer_apply, sigLayer_apply, matProd_rows X X' W p' p q h]

/-- The kernel body's spelling: the product into zeros, the bias row broadcast down the rows, the logistic. -/
theorem body_sig {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ φ₁) (W : FVec Ideal ⟨2, ![k, n]⟩ φ₂) (b : FVec Ideal ⟨2, ![1, n]⟩ .f32)
    (hb : (⟨2, ![1, n]⟩ : Shape).Broadcasts ⟨2, ![r, n]⟩) :
    logistic (addf (matmul d none X W (constant ⟨2, ![r, n]⟩ .f32 0x00000000#32)) (broadcastTo ⟨2, ![r, n]⟩ b hb))
      = sigLayer X W b := by
  rw [matmul_zero_eq_matProd d hlc hrc hln hrn hlb hrb none]
  funext i
  obtain ⟨p, q, rfl⟩ : ∃ (p : Fin r) (q : Fin n), i = ix2 p q := ⟨i 0, i 1, eq_ix2 i⟩
  show Ideal.logistic (addf (matProd X W) (broadcastTo ⟨2, ![r, n]⟩ b hb) (ix2 p q)) = _
  rw [addf_apply, Cert.Lib.BlockReads.broadcast_row_apply]
  rfl

/-- The pattern of 1.0 is the real 1. -/
theorem ofBits_one : Ideal.ofBits .f32 0x3F800000#32 = 1 := by
  simp [Ideal.ofBits, Ideal.ieee, -EReal.coe_mul]; norm_num

/-- The reference's spelling: one over one plus the exponential of the negated affine layer. -/
theorem host_sig (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    Host.divf (broadcastInDim ⟨2, ![r, n]⟩ ![] h3 (constant (F := Ideal) ⟨0, ![]⟩ .f32 0x3F800000#32))
      (addf (broadcastInDim ⟨2, ![r, n]⟩ ![] h3 (constant (F := Ideal) ⟨0, ![]⟩ .f32 0x3F800000#32))
        (Host.exp (Host.negf (addf (Host.dotGeneral d none X W)
          (broadcastInDim ⟨2, ![r, n]⟩ ![0, 1] h2 (broadcastInDim ⟨2, ![1, n]⟩ ![1] h1 bv))))))
    = sigLayer X W (asRow bv) := by
  have e3 : Host.dotGeneral d none X W = matProd X W := dotGeneral_eq_matProd d hlc hrc hln hrn hlb hrb none _ X W
  funext i
  obtain ⟨p, q, rfl⟩ : ∃ (p : Fin r) (q : Fin n), i = ix2 p q := ⟨i 0, i 1, eq_ix2 i⟩
  have e1 : broadcastInDim ⟨2, ![r, n]⟩ ![] h3 (constant (F := Ideal) ⟨0, ![]⟩ .f32 0x3F800000#32) (ix2 p q) = 1 := by
    rw [bcastInDim_scalar_apply, constant_apply, ofBits_one]
  have e2 : addf (Host.dotGeneral d none X W)
      (broadcastInDim ⟨2, ![r, n]⟩ ![0, 1] h2 (broadcastInDim ⟨2, ![1, n]⟩ ![1] h1 bv)) (ix2 p q)
      = matProd X W (ix2 p q) + asRow bv (ix2 0 q) := by
    rw [addf_apply, e3, bcastInDim_rows_apply, bcastInDim_eq_asRow]
  show Ideal.div (broadcastInDim ⟨2, ![r, n]⟩ ![] h3 (constant (F := Ideal) ⟨0, ![]⟩ .f32 0x3F800000#32) (ix2 p q))
      (broadcastInDim ⟨2, ![r, n]⟩ ![] h3 (constant (F := Ideal) ⟨0, ![]⟩ .f32 0x3F800000#32) (ix2 p q)
        + Ideal.exp (-(addf (Host.dotGeneral d none X W)
          (broadcastInDim ⟨2, ![r, n]⟩ ![0, 1] h2 (broadcastInDim ⟨2, ![1, n]⟩ ![1] h1 bv)) (ix2 p q)))) = _
  rw [e1, e2]
  rfl

end Cert.Lib.SigmoidLayer

end
-- ==== Proof.KI.Value2a.lean ====
/- The third kernel's arithmetic on the extended reals: each value its body stores, as a stage of the network applied to
   the blocks it loads (the affine map A·Y + b, then elu, the logistic function or the maximum with zero, then sums with
   earlier stages and the product with a weight matrix); and how a buffer of 10000 rows reads after 400 of its rows
   are overwritten. -/
import proofs.«128402_g50225347559984_cont_8to1_c_967_17_alg».proof.Proof.KI.Region2
import proofs.«128402_g50225347559984_cont_8to1_c_967_17_alg».proof.Proof.KI.Value01
import proofs.«128402_g50225347559984_cont_8to1_c_967_17_alg».proof.Proof.Net
import proofs.«128402_g50225347559984_cont_8to1_c_967_17_alg».proof.Proof.LibSigmoidLayer
import Idealize.ShloMosaic.Lib.Pipeline.Value
import Idealize.ShloMosaic.Lib.ValueLayout
import Idealize.ShloMosaic.Lib.WritesUnit
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat RDat)
open Idealize.ShloMosaic.ValueIdx Cert.Lib.MatProd

/-! ## Slabs -/

/-- A 1×a×b slab as an a×b matrix. -/
def slab {a b : Nat} (x : (⟨3, ![1, a, b]⟩ : Shape).Idx → EReal) : Cert.Net.Mat a b :=
  fun i => x (ix3 (0 : Fin 1) (i 0) (i 1))

theorem slab_apply {a b : Nat} (x : (⟨3, ![1, a, b]⟩ : Shape).Idx → EReal) (p : Fin a) (q : Fin b) :
    slab x (ix2 p q) = x (ix3 0 p q) := rfl

/-- Dropping the leading unit axis of a slab by a reshape gives that matrix. -/
theorem shapeCast_slab {a b : Nat} (x : (⟨3, ![1, a, b]⟩ : Shape).Idx → EReal)
    (h : (⟨3, ![1, a, b]⟩ : Shape).ShapeCasts ⟨2, ![a, b]⟩) : shapeCast ⟨2, ![a, b]⟩ x h = slab x := by
  funext i
  obtain ⟨p, q, rfl⟩ : ∃ (p : Fin a) (q : Fin b), i = ix2 p q := ⟨i 0, i 1, eq_ix2 i⟩
  exact shapeCast_1ab_ab_apply x h p q

/-! ## The operations -/

/-- A product into zeros plus a bias row broadcast down the rows is the affine map. -/
theorem affine_eq {r k n : Nat} {φ₁ φ₂ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ φ₁) (Y : FVec Ideal ⟨2, ![k, n]⟩ φ₂) (b : FVec Ideal ⟨2, ![1, n]⟩ .f32)
    (hb : (⟨2, ![1, n]⟩ : Shape).Broadcasts ⟨2, ![r, n]⟩) :
    addf (matmul d none A Y (constant ⟨2, ![r, n]⟩ .f32 0x00000000#32)) (broadcastTo ⟨2, ![r, n]⟩ b hb)
      = Cert.Net.aff A Y b := by
  rw [matmul_zero_eq_matProd d hlc hrc hln hrn hlb hrb none]
  funext i
  obtain ⟨p, q, rfl⟩ : ∃ (p : Fin r) (q : Fin n), i = ix2 p q := ⟨i 0, i 1, eq_ix2 i⟩
  rw [addf_apply, Cert.Lib.BlockReads.broadcast_row_apply]
  rfl

/-- The body's elu: where the entry is above zero the entry, elsewhere exp(min(entry, 0)) − 1. -/
theorem elu_body_eq {r n : Nat} (h : FVec Ideal ⟨2, ![r, n]⟩ .f32) :
    select (cmpf .ogt h (broadcast ⟨2, ![r, n]⟩ (Scalar.ofBits (F := Ideal) .f32 0x00000000#32))) h
      (subf (exp (minimumf h (broadcast ⟨2, ![r, n]⟩ (Scalar.ofBits (F := Ideal) .f32 0x00000000#32))))
        (broadcast ⟨2, ![r, n]⟩ (Scalar.ofBits (F := Ideal) .f32 0x3F800000#32))) = Cert.Net.elu h := by
  funext i
  show Scalar.select (Ideal.cmp .ogt (h i) (Ideal.ofBits .f32 0x00000000#32)) (h i)
      (Ideal.exp (min (h i) (Ideal.ofBits .f32 0x00000000#32)) - Ideal.ofBits .f32 0x3F800000#32) = Cert.Net.eluS (h i)
  rw [Ideal.ofBits_zero_f32, Cert.Lib.SigmoidLayer.ofBits_one]
  unfold Cert.Net.eluS
  by_cases hp : 0 < h i
  · have hc : Ideal.cmp .ogt (h i) 0 = 1#1 := by simp [Ideal.cmp, hp]
    rw [hc, select_one, if_pos hp]
  · have hc : Ideal.cmp .ogt (h i) 0 = 0#1 := by simp [Ideal.cmp, hp]
    rw [hc, select_zero, if_neg hp]

/-! ## What the body stores -/

section Payloads

variable (a : Vec Ideal S400x10000 .bf16) (y : Vec Ideal S10000x128 .bf16) (b : Vec Ideal S1x1x128 .f32)
  (o r : Vec Ideal S400x128 .f32) (w : Vec Ideal S1x128x128 .f32)

/-- Layer 0's activation: elu of the affine map. -/
theorem pay2_1_eq : (k2_pay1 a y b : S400x128.Idx → EReal) = Cert.Net.elu (Cert.Net.aff a y (slab b)) := by
  unfold k2_pay1
  simp only [shapeCast_self, shapeCast_slab, affine_eq dot_S400x10000_S10000x128_S400x128_1_0_0_1_n_n rfl rfl rfl rfl rfl rfl, elu_body_eq]

theorem pay2_2_eq : (k2_pay2 a y b : S400x128.Idx → EReal) = Cert.Net.elu (Cert.Net.aff a y (slab b)) := by
  unfold k2_pay2
  simp only [shapeCast_self, pay2_1_eq]

/-- Layer 0's product for the next layer: the maximum with zero of the activation plus the first layer's, times the weights. -/
theorem pay2_3_eq : (k2_pay3 a y b o w : S400x128.Idx → EReal)
    = matProd (Cert.Net.relu (Cert.Net.plus (Cert.Net.elu (Cert.Net.aff a y (slab b))) o)) (slab w) := by
  unfold k2_pay3
  simp only [shapeCast_self, shapeCast_slab, pay2_1_eq, maximumf_zero_eq_relu,
    matmul_zero_eq_matProd dot_S400x128_S128x128_S400x128_1_0_0_1_n_n rfl rfl rfl rfl rfl rfl]
  rfl

/-- Layer 1's activation: the logistic function of the affine map. -/
theorem pay2_4_eq : (k2_pay4 a y b : S400x128.Idx → EReal) = Cert.Net.sig (Cert.Net.aff a y (slab b)) := by
  unfold k2_pay4
  simp only [shapeCast_self, shapeCast_slab, affine_eq dot_S400x10000_S10000x128_S400x128_1_0_0_1_n_n rfl rfl rfl rfl rfl rfl]
  rfl

theorem pay2_5_eq : (k2_pay5 a y b : S400x128.Idx → EReal) = Cert.Net.sig (Cert.Net.aff a y (slab b)) := by
  unfold k2_pay5
  simp only [shapeCast_self, pay2_4_eq]

theorem pay2_6_eq : (k2_pay6 a y b r w : S400x128.Idx → EReal)
    = matProd (Cert.Net.relu (Cert.Net.plus (Cert.Net.sig (Cert.Net.aff a y (slab b))) r)) (slab w) := by
  unfold k2_pay6
  simp only [shapeCast_self, shapeCast_slab, pay2_4_eq, maximumf_zero_eq_relu,
    matmul_zero_eq_matProd dot_S400x128_S128x128_S400x128_1_0_0_1_n_n rfl rfl rfl rfl rfl rfl]
  rfl

/-- Layer 2: the maximum with zero of the affine map, plus the first layer's, plus layer 1's; maximum with zero; times the weights. -/
theorem pay2_7_eq : (k2_pay7 a y b o r w : S400x128.Idx → EReal)
    = matProd (Cert.Net.relu (Cert.Net.plus (Cert.Net.plus (Cert.Net.relu (Cert.Net.aff a y (slab b))) o) r)) (slab w) := by
  unfold k2_pay7
  simp only [shapeCast_self, shapeCast_slab, affine_eq dot_S400x10000_S10000x128_S400x128_1_0_0_1_n_n rfl rfl rfl rfl rfl rfl,
    maximumf_zero_eq_relu, matmul_zero_eq_matProd dot_S400x128_S128x128_S400x128_1_0_0_1_n_n rfl rfl rfl rfl rfl rfl]
  rfl

/-- Layer 3: elu of the affine map. -/
theorem pay2_8_eq : (k2_pay8 a y b : S400x128.Idx → EReal) = Cert.Net.elu (Cert.Net.aff a y (slab b)) := by
  unfold k2_pay8
  simp only [shapeCast_self, shapeCast_slab, affine_eq dot_S400x10000_S10000x128_S400x128_1_0_0_1_n_n rfl rfl rfl rfl rfl rfl, elu_body_eq]

end Payloads

/-! ## A buffer of 10000 rows after 400 of its rows are overwritten -/

section Rows

variable {φ : EltTy} (M : Memref sig .tc .vmem S10000x128 φ) (hM : M.IsWhole) (f : Vec Ideal S10000x128 φ)
  {off : Fin 2 → ℕ} (inb : ∀ a, off a + S400x128.size a ≤ S10000x128.size a) (w : Vec Ideal S400x128 φ) (o : ℕ)

/-- A row among the 400 overwritten ones reads what was stored, at its place among them. -/
theorem upd_rows_of_mem (hoff : off = ![o, 0]) (y : S10000x128.Idx) (p : Fin 400) (q : Fin 128)
    (h0 : (y 0).val = o + p.val) (h1 : (y 1).val = q.val) :
    upd M hM f [⟨Rect.unit (s := S10000x128) off S400x128.size inb, w⟩] y = w (ix2 p q) :=
  View.read_writes_cons_rows_of_mem M.view (hM.unread f) inb w [] y (ix2 p q) hoff h0 h1

/-- Any other row reads what the buffer held. -/
theorem upd_rows_of_not_mem (hoff : off = ![o, 0]) (y : S10000x128.Idx)
    (h : (y 0).val < o ∨ o + 400 ≤ (y 0).val) :
    upd M hM f [⟨Rect.unit (s := S10000x128) off S400x128.size inb, w⟩] y = f y := by
  unfold upd
  rw [View.read_writes_cons_rows_of_not_mem M.view (hM.unread f) inb w [] y hoff rfl h, View.writes_nil, hM.read_unread]

end Rows

end Cert.KernelIdeal.Hand

end
-- ==== Proof.KI.Value2b.lean ====
/- The third kernel's geometry, decided once over its 100 grid points, and each input window's block at a point as rows or
   slices of the whole arrays. Point t has layer g = t / 25 and position i = t % 25; the blocks of 400 rows are swept
   forward in the even layers and backward in the odd ones. -/
import proofs.«128402_g50225347559984_cont_8to1_c_967_17_alg».proof.Proof.KI.Value2a
import Idealize.ShloMosaic.Lib.Pipeline.Value
import Idealize.ShloMosaic.Lib.ValueLayout
import Idealize.ShloMosaic.Lib.WritesUnit
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat RDat)
open Idealize.ShloMosaic.ValueIdx Cert.Lib.MatProd

variable (V : (c : Dev nD) → (b : Ref sig .tc) → Buf (Elt Ideal) ((c : Thread nD τ).loc b))

/-! ## The printed index maps and offsets over the grid -/

/-- The adjacency window and the first layer's activation window: block t % 25 in the even layers, 24 − t % 25 in the odd. -/
theorem idx_facts2_rows : ∀ t : Fin cfg2.N,
    (t.val / 25 % 2 = 0 → win2_0.index t (0 : Fin 2) = t.val % 25 ∧ win2_2.index t (0 : Fin 2) = t.val % 25)
    ∧ (t.val / 25 % 2 = 1 → win2_0.index t (0 : Fin 2) = 24 - t.val % 25 ∧ win2_2.index t (0 : Fin 2) = 24 - t.val % 25)
    ∧ win2_0.index t (1 : Fin 2) = 0 ∧ win2_2.index t (1 : Fin 2) = 0
    ∧ win2_1.index t (0 : Fin 2) = 0 ∧ win2_1.index t (1 : Fin 2) = 0 :=
  (by decide +kernel : ∀ t : Fin grid2.N, _)

/-- The stacked weights' window is at slice min (g + 2) 4, the stacked biases' at slice g + 1. -/
theorem idx_facts2_slices : ∀ t : Fin cfg2.N,
    win2_3.index t (0 : Fin 3) = min (t.val / 25 + 2) 4 ∧ win2_3.index t (1 : Fin 3) = 0 ∧ win2_3.index t (2 : Fin 3) = 0
    ∧ win2_4.index t (0 : Fin 3) = t.val / 25 + 1 ∧ win2_4.index t (1 : Fin 3) = 0 ∧ win2_4.index t (2 : Fin 3) = 0 :=
  (by decide +kernel : ∀ t : Fin grid2.N, _)

/-- The output window is at block 24 − t % 25 in the last layer and at block 0 before; it is written back from point 74 on. -/
theorem idx_facts2_out : ∀ t : Fin cfg2.N,
    (t.val / 25 = 3 → win2_5.index t (0 : Fin 2) = 24 - t.val % 25) ∧ (t.val / 25 ≠ 3 → win2_5.index t (0 : Fin 2) = 0)
    ∧ win2_5.index t (1 : Fin 2) = 0 ∧ ((cfg2.win 5).flush t = true ↔ 74 ≤ t.val) :=
  (by decide +kernel : ∀ t : Fin grid2.N, _)

/-- The rows a point of layers 0, 1, 2 overwrites start at 400 times its block. -/
theorem off_facts2 : ∀ t : Fin cfg2.N,
    (t.val / 25 = 0 → k2_off1 (grid2.coords t) (0 : Fin 2) = 400 * (t.val % 25) ∧ k2_off1 (grid2.coords t) (1 : Fin 2) = 0)
    ∧ (t.val / 25 = 1 → k2_off2 (grid2.coords t) (0 : Fin 2) = 400 * (24 - t.val % 25) ∧ k2_off2 (grid2.coords t) (1 : Fin 2) = 0)
    ∧ (t.val / 25 = 2 → k2_off3 (grid2.coords t) (0 : Fin 2) = 400 * (t.val % 25) ∧ k2_off3 (grid2.coords t) (1 : Fin 2) = 0) :=
  (by decide +kernel : ∀ t : Fin grid2.N, _)

/-! ## The sweep -/

/-- The block of 400 rows the sweep is at, at point `t`. -/
def blkOf (t : Fin cfg2.N) : ℕ := if t.val / 25 % 2 = 0 then t.val % 25 else 24 - t.val % 25

theorem blkOf_lt (t : Fin cfg2.N) : blkOf t < 25 := by
  unfold blkOf; split <;> omega

/-- Row `p` of that block, as a row of the whole arrays. -/
def rowAt2 (t : Fin cfg2.N) (p : Fin 400) : Fin 10000 :=
  ⟨blkOf t * 400 + p.val, by have := blkOf_lt t; have := p.isLt; omega⟩

theorem rowAt2_val (t : Fin cfg2.N) (p : Fin 400) : (rowAt2 t p).val = blkOf t * 400 + p.val := rfl

theorem sweep_index (t : Fin cfg2.N) : win2_0.index t (0 : Fin 2) = blkOf t ∧ win2_2.index t (0 : Fin 2) = blkOf t := by
  obtain ⟨he, ho, -⟩ := idx_facts2_rows t
  unfold blkOf
  split
  · next h => exact he h
  · next h => exact ho (by omega)

theorem zero_offsets3 : (![0, 0, 0] : Fin 3 → Nat) = fun _ => 0 := funext fun a => by fin_cases a <;> rfl

/-! ## The input windows' blocks -/

/-- Slice `k` of the stacked weights, and of the stacked bias rows. -/
def wsl (c : Dev nD) (k : Fin 5) : Cert.Net.Mat 128 128 :=
  fun i => (V c main_v5 : S5x128x128.Idx → EReal) (ix3 k (⟨(i 0).val, idx2_lt0 i⟩ : Fin 128) (⟨(i 1).val, idx2_lt1 i⟩ : Fin 128))
def bsl (c : Dev nD) (k : Fin 5) : Cert.Net.Mat 1 128 :=
  fun i => (V c main_v12 : S5x1x128.Idx → EReal) (ix3 k (0 : Fin 1) (⟨(i 1).val, idx2_lt1 i⟩ : Fin 128))

theorem wsl_apply (c : Dev nD) (k : Fin 5) (p q : Fin 128) : wsl V c k (ix2 p q) = V c main_v5 (ix3 k p q) := rfl
theorem bsl_apply (c : Dev nD) (k : Fin 5) (q : Fin 128) : bsl V c k (ix2 0 q) = V c main_v12 (ix3 k 0 q) := rfl

/-- Row `p` of the adjacency block at point `t` is the sweep's row of the adjacency. -/
theorem iblk2_0_row (c : Dev nD) (t : Fin cfg2.N) (p : Fin 400) (k : Fin 10000) :
    (iblk2 V c 0 t : S400x10000.Idx → EReal) (ix2 p k) = V c main_v15_1 (ix2 (rowAt2 t p) k) := by
  obtain ⟨e0, -⟩ := sweep_index t
  obtain ⟨-, -, e1, -⟩ := idx_facts2_rows t
  refine congrArg (V c main_v15_1 : S10000x10000.Idx → EReal) ?_
  funext a; apply Fin.ext
  match a with
  | ⟨0, _⟩ => show win2_0.index t (0 : Fin 2) * 400 + 1 * p.val = blkOf t * 400 + p.val; omega
  | ⟨1, _⟩ => show win2_0.index t (1 : Fin 2) * 10000 + 1 * k.val = k.val; omega

/-- The second window holds its whole array at every point. -/
theorem iblk2_1_eq (c : Dev nD) (t : Fin cfg2.N) : (iblk2 V c 1 t : S10000x128.Idx → EReal) = V c main_v15_2 := by
  obtain ⟨-, -, -, -, e2, e3⟩ := idx_facts2_rows t
  funext j
  refine congrArg (V c main_v15_2 : S10000x128.Idx → EReal) ?_
  funext a; apply Fin.ext
  match a with
  | ⟨0, _⟩ => show win2_1.index t (0 : Fin 2) * 10000 + 1 * (j 0).val = (j 0).val; omega
  | ⟨1, _⟩ => show win2_1.index t (1 : Fin 2) * 128 + 1 * (j 1).val = (j 1).val; omega

/-- Row `p` of the third window's block is the sweep's row of its array. -/
theorem iblk2_2_row (c : Dev nD) (t : Fin cfg2.N) (p : Fin 400) (q : Fin 128) :
    (iblk2 V c 2 t : S400x128.Idx → EReal) (ix2 p q) = V c main_v15_0 (ix2 (rowAt2 t p) q) := by
  obtain ⟨-, e0⟩ := sweep_index t
  obtain ⟨-, -, -, e1, -⟩ := idx_facts2_rows t
  refine congrArg (V c main_v15_0 : S10000x128.Idx → EReal) ?_
  funext a; apply Fin.ext
  match a with
  | ⟨0, _⟩ => show win2_2.index t (0 : Fin 2) * 400 + 1 * p.val = blkOf t * 400 + p.val; omega
  | ⟨1, _⟩ => show win2_2.index t (1 : Fin 2) * 128 + 1 * q.val = q.val; omega

/-- The weights' block at point `t` is slice min (g + 2) 4 of the stack. -/
theorem slab_iblk2_3 (c : Dev nD) (t : Fin cfg2.N) (k : Fin 5) (hk : k.val = min (t.val / 25 + 2) 4) :
    slab (iblk2 V c 3 t : S1x128x128.Idx → EReal) = wsl V c k := by
  obtain ⟨e0, e1, e2, -⟩ := idx_facts2_slices t
  funext i
  obtain ⟨p, q, rfl⟩ : ∃ (p : Fin 128) (q : Fin 128), i = ix2 p q := ⟨i 0, i 1, eq_ix2 i⟩
  refine congrArg (V c main_v5 : S5x128x128.Idx → EReal) ?_
  funext a; apply Fin.ext
  match a with
  | ⟨0, _⟩ => show win2_3.index t (0 : Fin 3) * 1 + 1 * 0 = k.val; omega
  | ⟨1, _⟩ => show win2_3.index t (1 : Fin 3) * 128 + 1 * p.val = p.val; omega
  | ⟨2, _⟩ => show win2_3.index t (2 : Fin 3) * 128 + 1 * q.val = q.val; omega

/-- The biases' block at point `t` is row g + 1 of the stack. -/
theorem slab_iblk2_4 (c : Dev nD) (t : Fin cfg2.N) (k : Fin 5) (hk : k.val = t.val / 25 + 1) :
    slab (iblk2 V c 4 t : S1x1x128.Idx → EReal) = bsl V c k := by
  obtain ⟨-, -, -, e0, e1, e2⟩ := idx_facts2_slices t
  funext i
  obtain ⟨p, q, rfl⟩ : ∃ (p : Fin 1) (q : Fin 128), i = ix2 p q := ⟨i 0, i 1, eq_ix2 i⟩
  refine congrArg (V c main_v12 : S5x1x128.Idx → EReal) ?_
  funext a; apply Fin.ext
  match a with
  | ⟨0, _⟩ => show win2_4.index t (0 : Fin 3) * 1 + 1 * 0 = k.val; omega
  | ⟨1, _⟩ => show win2_4.index t (1 : Fin 3) * 1 + 1 * p.val = 0; have := p.isLt; omega
  | ⟨2, _⟩ => show win2_4.index t (2 : Fin 3) * 128 + 1 * q.val = q.val; omega

/-- The body's loads of whole windows read the windows. -/
theorem ld_adj (x : Vec Ideal S400x10000 .bf16) : View.ld x rAdj = x := View.ld_unit_zero (S := S400x10000) zero_offsets _ x
theorem ld_y (x : Vec Ideal S10000x128 .bf16) : View.ld x rY = x := View.ld_unit_zero (S := S10000x128) zero_offsets _ x
theorem ld_o (x : Vec Ideal S400x128 .f32) : View.ld x rO = x := View.ld_unit_zero (S := S400x128) zero_offsets _ x
theorem ld_w (x : Vec Ideal S1x128x128 .f32) : View.ld x rW = x := View.ld_unit_zero (S := S1x128x128) zero_offsets3 _ x
theorem ld_b (x : Vec Ideal S1x1x128 .f32) : View.ld x rB = x := View.ld_unit_zero (S := S1x1x128) zero_offsets3 _ x

/-! ## Offsets of the overwritten rows -/

theorem blkOf_layer0 (t : Fin cfg2.N) (ht : t.val / 25 = 0) : blkOf t = t.val % 25 := by
  unfold blkOf; rw [if_pos (by omega)]
theorem blkOf_layer1 (t : Fin cfg2.N) (ht : t.val / 25 = 1) : blkOf t = 24 - t.val % 25 := by
  unfold blkOf; rw [if_neg (by omega)]
theorem blkOf_layer2 (t : Fin cfg2.N) (ht : t.val / 25 = 2) : blkOf t = t.val % 25 := by
  unfold blkOf; rw [if_pos (by omega)]
theorem blkOf_layer3 (t : Fin cfg2.N) (ht : t.val / 25 = 3) : blkOf t = 24 - t.val % 25 := by
  unfold blkOf; rw [if_neg (by omega)]

theorem off1_eq (t : Fin cfg2.N) (ht : t.val / 25 = 0) : k2_off1 (grid2.coords t) = ![400 * blkOf t, 0] := by
  obtain ⟨h, -, -⟩ := off_facts2 t
  obtain ⟨h0, h1⟩ := h ht
  have hb := blkOf_layer0 t ht
  funext a
  match a with
  | ⟨0, _⟩ => show k2_off1 (grid2.coords t) (0 : Fin 2) = 400 * blkOf t; omega
  | ⟨1, _⟩ => show k2_off1 (grid2.coords t) (1 : Fin 2) = 0; omega
theorem off2_eq (t : Fin cfg2.N) (ht : t.val / 25 = 1) : k2_off2 (grid2.coords t) = ![400 * blkOf t, 0] := by
  obtain ⟨-, h, -⟩ := off_facts2 t
  obtain ⟨h0, h1⟩ := h ht
  have hb := blkOf_layer1 t ht
  funext a
  match a with
  | ⟨0, _⟩ => show k2_off2 (grid2.coords t) (0 : Fin 2) = 400 * blkOf t; omega
  | ⟨1, _⟩ => show k2_off2 (grid2.coords t) (1 : Fin 2) = 0; omega
theorem off3_eq (t : Fin cfg2.N) (ht : t.val / 25 = 2) : k2_off3 (grid2.coords t) = ![400 * blkOf t, 0] := by
  obtain ⟨-, -, h⟩ := off_facts2 t
  obtain ⟨h0, h1⟩ := h ht
  have hb := blkOf_layer2 t ht
  funext a
  match a with
  | ⟨0, _⟩ => show k2_off3 (grid2.coords t) (0 : Fin 2) = 400 * blkOf t; omega
  | ⟨1, _⟩ => show k2_off3 (grid2.coords t) (1 : Fin 2) = 0; omega

/-- A buffer after the 400 rows of block `b` are overwritten with rows of a function `G` of the whole index: `G` on that
    block, what it held elsewhere. -/
theorem upd_block {φ : EltTy} (M : Memref sig .tc .vmem S10000x128 φ) (hM : M.IsWhole) (f : Vec Ideal S10000x128 φ)
    {off : Fin 2 → ℕ} (inb : ∀ a, off a + S400x128.size a ≤ S10000x128.size a) (w : Vec Ideal S400x128 φ) (b : ℕ)
    (hoff : off = ![400 * b, 0]) (G : S10000x128.Idx → Elt Ideal φ)
    (hw : ∀ (p : Fin 400) (q : Fin 128) (r : Fin 10000), r.val = b * 400 + p.val → w (ix2 p q) = G (ix2 r q))
    (y : S10000x128.Idx) :
    upd M hM f [⟨Rect.unit (s := S10000x128) off S400x128.size inb, w⟩] y
      = if (y 0).val / 400 = b then G y else f y := by
  have hy0 : (y 0).val < 10000 := idx2_lt0 y
  by_cases hy : (y 0).val / 400 = b
  · rw [if_pos hy]
    have hG : G (ix2 (⟨(y 0).val, idx2_lt0 y⟩ : Fin 10000) (⟨(y 1).val, idx2_lt1 y⟩ : Fin 128)) = G y :=
      congrArg G (funext fun a => match a with | ⟨0, _⟩ => rfl | ⟨1, _⟩ => rfl)
    rw [upd_rows_of_mem M hM f inb w (400 * b) hoff y ⟨(y 0).val - 400 * b, by omega⟩ ⟨(y 1).val, idx2_lt1 y⟩
      (by show (y 0).val = 400 * b + ((y 0).val - 400 * b); omega) rfl,
      hw _ _ ⟨(y 0).val, idx2_lt0 y⟩ (by show (y 0).val = b * 400 + ((y 0).val - 400 * b); omega), hG]
  · rw [if_neg hy]
    exact upd_rows_of_not_mem M hM f inb w (400 * b) hoff y (by omega)

/-- Rows of a buffer loaded at the sweep's block. -/
theorem ld_rows {φ : EltTy} (X : Vec Ideal S10000x128 φ) {off : Fin 2 → ℕ}
    (inb : ∀ a, off a + S400x128.size a ≤ S10000x128.size a) (b : ℕ) (hoff : off = ![400 * b, 0])
    (p : Fin 400) (q : Fin 128) (r : Fin 10000) (hr : r.val = b * 400 + p.val) :
    View.ld X (Rect.unit (s := S10000x128) off S400x128.size inb) (ix2 p q) = X (ix2 r q) := by
  subst hoff
  refine congrArg X ?_
  funext a; apply Fin.ext
  match a with
  | ⟨0, _⟩ => show 400 * b + 1 * p.val = r.val; omega
  | ⟨1, _⟩ => show 0 + 1 * q.val = q.val; omega

end Cert.KernelIdeal.Hand

end
-- ==== Proof.KI.Value2c.lean ====
/- The third kernel's four kept buffers through its 100 grid points, on the extended reals and from ANY contents at entry:
   after the 25 points of layer 0 the third buffer holds t₁ = elu(A·y₁ + b₂) and the first u₂ = relu(t₁ + o₀)·W₃; after
   layer 1 the fourth holds t₂ = σ(A·u₂ + b₃) and the second u₃ = relu(t₂ + t₁)·W₄; after layer 2 the first holds
   u₄ = relu((t₃ + o₀) + t₂)·W₅ with t₃ = relu(A·u₃ + b₄). Within a layer, the rows of the blocks already swept hold
   the new stage; a row of a stage depends on the same row of the adjacency and of the stages added to it. -/
import proofs.«128402_g50225347559984_cont_8to1_c_967_17_alg».proof.Proof.KI.Value2b
import Idealize.ShloMosaic.Lib.Pipeline.Value
import Idealize.ShloMosaic.Lib.ValueLayout
import Idealize.ShloMosaic.Lib.WritesUnit
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat RDat)
open Idealize.ShloMosaic.ValueIdx Cert.Lib.MatProd

variable (V : (c : Dev nD) → (b : Ref sig .tc) → Buf (Elt Ideal) ((c : Thread nD τ).loc b)) (c : Dev nD)

/-! ## The stages, from the arrays as the region finds them -/

/-- The adjacency, the second layer's product and the first layer's activation, as the region finds them. -/
abbrev adj : Cert.Net.Mat 10000 10000 := V c main_v15_1
abbrev yin : Cert.Net.Mat 10000 128 := V c main_v15_2
abbrev oin : Cert.Net.Mat 10000 128 := V c main_v15_0

def T1 : Cert.Net.Mat 10000 128 := Cert.Net.t1 (adj V c) (yin V c) (bsl V c 1)
def U2 : Cert.Net.Mat 10000 128 := Cert.Net.u2 (adj V c) (yin V c) (oin V c) (wsl V c 2) (bsl V c 1)
def T2 : Cert.Net.Mat 10000 128 := Cert.Net.t2 (adj V c) (yin V c) (oin V c) (wsl V c 2) (bsl V c 1) (bsl V c 2)
def U3 : Cert.Net.Mat 10000 128 := Cert.Net.u3 (adj V c) (yin V c) (oin V c) (wsl V c 2) (wsl V c 3) (bsl V c 1) (bsl V c 2)
def T3 : Cert.Net.Mat 10000 128 := Cert.Net.t3 (adj V c) (yin V c) (oin V c) (wsl V c 2) (wsl V c 3) (bsl V c 1) (bsl V c 2) (bsl V c 3)
def U4 : Cert.Net.Mat 10000 128 := Cert.Net.u4 (adj V c) (yin V c) (oin V c) (wsl V c 2) (wsl V c 3) (wsl V c 4) (bsl V c 1) (bsl V c 2) (bsl V c 3)
def TL : Cert.Net.Mat 10000 128 := Cert.Net.tail (adj V c) (yin V c) (oin V c) (wsl V c 2) (wsl V c 3) (wsl V c 4) (bsl V c 1) (bsl V c 2) (bsl V c 3) (bsl V c 4)

theorem T1_eq : T1 V c = Cert.Net.elu (Cert.Net.aff (adj V c) (yin V c) (bsl V c 1)) := rfl
theorem U2_eq : U2 V c = matProd (Cert.Net.relu (Cert.Net.plus (T1 V c) (oin V c))) (wsl V c 2) := rfl
theorem T2_eq : T2 V c = Cert.Net.sig (Cert.Net.aff (adj V c) (U2 V c) (bsl V c 2)) := rfl
theorem U3_eq : U3 V c = matProd (Cert.Net.relu (Cert.Net.plus (T2 V c) (T1 V c))) (wsl V c 3) := rfl
theorem T3_eq : T3 V c = Cert.Net.relu (Cert.Net.aff (adj V c) (U3 V c) (bsl V c 3)) := rfl
theorem U4_eq : U4 V c = matProd (Cert.Net.relu (Cert.Net.plus (Cert.Net.plus (T3 V c) (oin V c)) (T2 V c))) (wsl V c 4) := rfl
theorem TL_eq : TL V c = Cert.Net.elu (Cert.Net.aff (adj V c) (U4 V c) (bsl V c 4)) := rfl

/-! ## Rows -/

section Rows

variable (t : Fin cfg2.N) (p : Fin 400) (r : Fin 10000)

theorem r_eq (hr : r.val = blkOf t * 400 + p.val) : r = rowAt2 t p := Fin.ext hr

/-- Row `p` of the affine map of the adjacency block at point `t` is the sweep's row of the affine map of the adjacency. -/
theorem aff_row (hr : r.val = blkOf t * 400 + p.val) (Y : Cert.Net.Mat 10000 128) (b : Cert.Net.Mat 1 128) (q : Fin 128) :
    Cert.Net.aff (iblk2 V c 0 t : S400x10000.Idx → EReal) Y b (ix2 p q) = Cert.Net.aff (adj V c) Y b (ix2 r q) := by
  obtain rfl := r_eq t p r hr
  exact Cert.Net.aff_rows (adj V c) (iblk2 V c 0 t) Y b p (rowAt2 t p) q (fun k => iblk2_0_row V c t p k)

/-- Row `p` of the first layer's activation block at point `t` is the sweep's row of that activation. -/
theorem oin_row (hr : r.val = blkOf t * 400 + p.val) (q : Fin 128) : (iblk2 V c 2 t : S400x128.Idx → EReal) (ix2 p q) = oin V c (ix2 r q) := by
  obtain rfl := r_eq t p r hr
  exact iblk2_2_row V c t p q

end Rows

/-- Entries of a sum, and of the maximum with zero of a sum, from the entries of the summands. -/
theorem plus_rows {r r' n : Nat} (X O : Cert.Net.Mat r n) (X' O' : Cert.Net.Mat r' n) (p' : Fin r') (p : Fin r) (q : Fin n)
    (hX : X' (ix2 p' q) = X (ix2 p q)) (hO : O' (ix2 p' q) = O (ix2 p q)) :
    Cert.Net.plus X' O' (ix2 p' q) = Cert.Net.plus X O (ix2 p q) := by
  show X' (ix2 p' q) + O' (ix2 p' q) = X (ix2 p q) + O (ix2 p q)
  rw [hX, hO]
theorem relu_plus_rows {r r' n : Nat} (X O : Cert.Net.Mat r n) (X' O' : Cert.Net.Mat r' n) (p' : Fin r') (p : Fin r) (q : Fin n)
    (hX : X' (ix2 p' q) = X (ix2 p q)) (hO : O' (ix2 p' q) = O (ix2 p q)) :
    Cert.Net.relu (Cert.Net.plus X' O') (ix2 p' q) = Cert.Net.relu (Cert.Net.plus X O) (ix2 p q) :=
  congrArg (fun z : EReal => max z 0) (plus_rows X O X' O' p' p q hX hO)

/-! ## One point of each layer -/

section Steps

variable (t : Fin cfg2.N) (s : St Ideal)

/-- A point of layer 0 writes the sweep's block of t₁ into the third buffer and of u₂ into the first. -/
theorem step_layer0 (ht : t.val / 25 = 0) :
    (∀ y, (step V c t s).2.2.1 y = if (y 0).val / 400 = blkOf t then T1 V c y else s.2.2.1 y)
    ∧ (∀ y, (step V c t s).1 y = if (y 0).val / 400 = blkOf t then U2 V c y else s.1 y)
    ∧ (step V c t s).2.1 = s.2.1 ∧ (step V c t s).2.2.2 = s.2.2.2 := by
  have hc1 : k2_cond1 (grid2.coords t) = 1#1 := (hcond1 t).mpr ht
  have hT1 : ∀ (p : Fin 400) (q : Fin 128) (r : Fin 10000), r.val = blkOf t * 400 + p.val →
      (k2_pay2 (View.ld (iblk2 V c 0 t) rAdj) (View.ld (iblk2 V c 1 t) rY) (View.ld (iblk2 V c 4 t) rB) : S400x128.Idx → EReal) (ix2 p q)
        = T1 V c (ix2 r q) := by
    intro p q r hr
    rw [ld_adj, ld_y, ld_b, pay2_2_eq, iblk2_1_eq, slab_iblk2_4 V c t 1 (by show 1 = t.val / 25 + 1; omega)]
    exact congrArg Cert.Net.eluS (aff_row V c t p r hr (yin V c) (bsl V c 1) q)
  have hU2 : ∀ (p : Fin 400) (q : Fin 128) (r : Fin 10000), r.val = blkOf t * 400 + p.val →
      (k2_pay3 (View.ld (iblk2 V c 0 t) rAdj) (View.ld (iblk2 V c 1 t) rY) (View.ld (iblk2 V c 4 t) rB) (View.ld (iblk2 V c 2 t) rO) (View.ld (iblk2 V c 3 t) rW) : S400x128.Idx → EReal) (ix2 p q)
        = U2 V c (ix2 r q) := by
    intro p q r hr
    rw [ld_adj, ld_y, ld_b, ld_o, ld_w, pay2_3_eq, iblk2_1_eq, slab_iblk2_4 V c t 1 (by show 1 = t.val / 25 + 1; omega),
      slab_iblk2_3 V c t 2 (by show 2 = min (t.val / 25 + 2) 4; omega), U2_eq]
    refine Cert.Net.matProd_rows _ _ (wsl V c 2) p r q (fun k => relu_plus_rows _ _ _ _ p r k ?_ ?_)
    · exact congrArg Cert.Net.eluS (aff_row V c t p r hr (yin V c) (bsl V c 1) k)
    · exact oin_row V c t p r hr k
  unfold step; rw [dif_pos hc1]
  refine ⟨fun y => ?_, fun y => ?_, rfl, rfl⟩
  · dsimp only
    refine upd_block sc2 _ s.2.2.1 _ _ (blkOf t) (off1_eq t ht) (T1 V c) ?_ y
    exact hT1
  · dsimp only
    refine upd_block sc0 _ s.1 _ _ (blkOf t) (off1_eq t ht) (U2 V c) ?_ y
    exact hU2

/-- A point of layer 1, the first buffer holding u₂ and the third t₁: it writes the sweep's block of t₂ into the fourth
    buffer and of u₃ into the second. -/
theorem step_layer1 (ht : t.val / 25 = 1) (h0 : s.1 = U2 V c) (h2 : s.2.2.1 = T1 V c) :
    (∀ y, (step V c t s).2.2.2 y = if (y 0).val / 400 = blkOf t then T2 V c y else s.2.2.2 y)
    ∧ (∀ y, (step V c t s).2.1 y = if (y 0).val / 400 = blkOf t then U3 V c y else s.2.1 y)
    ∧ (step V c t s).1 = s.1 ∧ (step V c t s).2.2.1 = s.2.2.1 := by
  have hc1 : ¬ k2_cond1 (grid2.coords t) = 1#1 := fun h => by have := (hcond1 t).mp h; omega
  have hc2 : k2_cond2 (grid2.coords t) = 1#1 := (hcond2 t).mpr ht
  have hT2 : ∀ (p : Fin 400) (q : Fin 128) (r : Fin 10000), r.val = blkOf t * 400 + p.val →
      (k2_pay5 (View.ld (iblk2 V c 0 t) rAdj) (View.ld s.1 rY) (View.ld (iblk2 V c 4 t) rB) : S400x128.Idx → EReal) (ix2 p q)
        = T2 V c (ix2 r q) := by
    intro p q r hr
    rw [ld_adj, ld_y, ld_b, pay2_5_eq, h0, slab_iblk2_4 V c t 2 (by show 2 = t.val / 25 + 1; omega)]
    exact congrArg Ideal.logistic (aff_row V c t p r hr (U2 V c) (bsl V c 2) q)
  have hU3 : ∀ (p : Fin 400) (q : Fin 128) (r : Fin 10000), r.val = blkOf t * 400 + p.val →
      (k2_pay6 (View.ld (iblk2 V c 0 t) rAdj) (View.ld s.1 rY) (View.ld (iblk2 V c 4 t) rB) (View.ld s.2.2.1 (rS2 (grid2.coords t) hc2)) (View.ld (iblk2 V c 3 t) rW) : S400x128.Idx → EReal) (ix2 p q)
        = U3 V c (ix2 r q) := by
    intro p q r hr
    rw [ld_adj, ld_y, ld_b, ld_w, pay2_6_eq, h0, h2, slab_iblk2_4 V c t 2 (by show 2 = t.val / 25 + 1; omega),
      slab_iblk2_3 V c t 3 (by show 3 = min (t.val / 25 + 2) 4; omega), U3_eq]
    refine Cert.Net.matProd_rows _ _ (wsl V c 3) p r q (fun k => relu_plus_rows _ _ _ _ p r k ?_ ?_)
    · exact congrArg Ideal.logistic (aff_row V c t p r hr (U2 V c) (bsl V c 2) k)
    · exact ld_rows (φ := .f32) (T1 V c) _ (blkOf t) (off2_eq t ht) p k r hr
  unfold step; rw [dif_neg hc1, dif_pos hc2]
  refine ⟨fun y => ?_, fun y => ?_, rfl, rfl⟩
  · dsimp only
    refine upd_block sc3 _ s.2.2.2 _ _ (blkOf t) (off2_eq t ht) (T2 V c) ?_ y
    exact hT2
  · dsimp only
    refine upd_block sc1 _ s.2.1 _ _ (blkOf t) (off2_eq t ht) (U3 V c) ?_ y
    exact hU3

/-- A point of layer 2, the second buffer holding u₃ and the fourth t₂: it writes the sweep's block of u₄ into the first. -/
theorem step_layer2 (ht : t.val / 25 = 2) (h1 : s.2.1 = U3 V c) (h3 : s.2.2.2 = T2 V c) :
    (∀ y, (step V c t s).1 y = if (y 0).val / 400 = blkOf t then U4 V c y else s.1 y)
    ∧ (step V c t s).2.1 = s.2.1 ∧ (step V c t s).2.2.1 = s.2.2.1 ∧ (step V c t s).2.2.2 = s.2.2.2 := by
  have hc1 : ¬ k2_cond1 (grid2.coords t) = 1#1 := fun h => by have := (hcond1 t).mp h; omega
  have hc2 : ¬ k2_cond2 (grid2.coords t) = 1#1 := fun h => by have := (hcond2 t).mp h; omega
  have hc3 : k2_cond3 (grid2.coords t) = 1#1 := (hcond3 t).mpr ht
  have hU4 : ∀ (p : Fin 400) (q : Fin 128) (r : Fin 10000), r.val = blkOf t * 400 + p.val →
      (k2_pay7 (View.ld (iblk2 V c 0 t) rAdj) (View.ld s.2.1 rY) (View.ld (iblk2 V c 4 t) rB) (View.ld (iblk2 V c 2 t) rO) (View.ld s.2.2.2 (rS3 (grid2.coords t) hc3)) (View.ld (iblk2 V c 3 t) rW) : S400x128.Idx → EReal) (ix2 p q)
        = U4 V c (ix2 r q) := by
    intro p q r hr
    rw [ld_adj, ld_y, ld_b, ld_o, ld_w, pay2_7_eq, h1, h3, slab_iblk2_4 V c t 3 (by show 3 = t.val / 25 + 1; omega),
      slab_iblk2_3 V c t 4 (by show 4 = min (t.val / 25 + 2) 4; omega), U4_eq]
    refine Cert.Net.matProd_rows _ _ (wsl V c 4) p r q (fun k => relu_plus_rows _ _ _ _ p r k ?_ ?_)
    · refine plus_rows _ _ _ _ p r k ?_ ?_
      · exact congrArg (fun z : EReal => max z 0) (aff_row V c t p r hr (U3 V c) (bsl V c 3) k)
      · exact oin_row V c t p r hr k
    · exact ld_rows (φ := .f32) (T2 V c) _ (blkOf t) (off3_eq t ht) p k r hr
  unfold step; rw [dif_neg hc1, dif_neg hc2, dif_pos hc3]
  refine ⟨fun y => ?_, rfl, rfl, rfl⟩
  dsimp only
  refine upd_block sc0 _ s.1 _ _ (blkOf t) (off3_eq t ht) (U4 V c) ?_ y
  exact hU4

/-- A point of layer 3 leaves the four buffers alone. -/
theorem step_layer3 (ht : t.val / 25 = 3) : step V c t s = s := by
  have hc1 : ¬ k2_cond1 (grid2.coords t) = 1#1 := fun h => by have := (hcond1 t).mp h; omega
  have hc2 : ¬ k2_cond2 (grid2.coords t) = 1#1 := fun h => by have := (hcond2 t).mp h; omega
  have hc3 : ¬ k2_cond3 (grid2.coords t) = 1#1 := fun h => by have := (hcond3 t).mp h; omega
  unfold step; rw [dif_neg hc1, dif_neg hc2, dif_neg hc3]

end Steps

/-! ## The four layers -/

section Layers

variable (d : St Ideal)

theorem blkOf_mk0 (n : ℕ) (hn : n < cfg2.N) (h : n < 25) : blkOf ⟨n, hn⟩ = n := by
  rw [blkOf_layer0 ⟨n, hn⟩ (by show n / 25 = 0; omega)]; show n % 25 = n; omega
theorem blkOf_mk1 (m : ℕ) (hn : 25 + m < cfg2.N) (h : m < 25) : blkOf ⟨25 + m, hn⟩ = 24 - m := by
  rw [blkOf_layer1 ⟨25 + m, hn⟩ (by show (25 + m) / 25 = 1; omega)]; show 24 - (25 + m) % 25 = 24 - m; omega
theorem blkOf_mk2 (m : ℕ) (hn : 50 + m < cfg2.N) (h : m < 25) : blkOf ⟨50 + m, hn⟩ = m := by
  rw [blkOf_layer2 ⟨50 + m, hn⟩ (by show (50 + m) / 25 = 2; omega)]; show (50 + m) % 25 = m; omega

/-- Within layer 0: the rows of the blocks already swept hold t₁ in the third buffer and u₂ in the first. -/
theorem layer0_rows : ∀ (n : ℕ) (hn : n ≤ cfg2.N), n ≤ 25 → ∀ y : S10000x128.Idx, (y 0).val / 400 < n →
    (stAt V c d n hn).2.2.1 y = T1 V c y ∧ (stAt V c d n hn).1 y = U2 V c y := by
  intro n
  induction n with
  | zero => intro _ _ y hy; exact absurd hy (Nat.not_lt_zero _)
  | succ n ih =>
    intro hn h25 y hy
    obtain ⟨h1, h2, -, -⟩ := step_layer0 V c ⟨n, hn⟩ (stAt V c d n (Nat.le_of_lt hn)) (by show n / 25 = 0; omega)
    have hb := blkOf_mk0 n hn (by omega)
    show (step V c ⟨n, hn⟩ (stAt V c d n (Nat.le_of_lt hn))).2.2.1 y = _ ∧ (step V c ⟨n, hn⟩ (stAt V c d n (Nat.le_of_lt hn))).1 y = _
    rw [h1 y, h2 y, hb]
    by_cases hyn : (y 0).val / 400 = n
    · rw [if_pos hyn, if_pos hyn]; exact ⟨rfl, rfl⟩
    · rw [if_neg hyn, if_neg hyn]; exact ih (Nat.le_of_lt hn) (by omega) y (by omega)

/-- After layer 0 the third buffer holds t₁ and the first u₂, whole. -/
theorem layer0_done (hn : 25 ≤ cfg2.N) : (stAt V c d 25 hn).2.2.1 = T1 V c ∧ (stAt V c d 25 hn).1 = U2 V c :=
  ⟨funext fun y => (layer0_rows V c d 25 hn (Nat.le_refl _) y (by have := idx2_lt0 y; omega)).1,
   funext fun y => (layer0_rows V c d 25 hn (Nat.le_refl _) y (by have := idx2_lt0 y; omega)).2⟩

/-- Within layer 1 (swept backward): t₁ and u₂ stay; the rows of the blocks already swept hold t₂ in the fourth buffer
    and u₃ in the second. -/
theorem layer1_rows : ∀ (m : ℕ) (hn : 25 + m ≤ cfg2.N), m ≤ 25 →
    (stAt V c d (25 + m) hn).1 = U2 V c ∧ (stAt V c d (25 + m) hn).2.2.1 = T1 V c
    ∧ ∀ y : S10000x128.Idx, 25 - m ≤ (y 0).val / 400 →
      (stAt V c d (25 + m) hn).2.2.2 y = T2 V c y ∧ (stAt V c d (25 + m) hn).2.1 y = U3 V c y := by
  intro m
  induction m with
  | zero =>
    intro hn _
    obtain ⟨h2, h0⟩ := layer0_done V c d hn
    exact ⟨h0, h2, fun y hy => by have := idx2_lt0 y; omega⟩
  | succ m ih =>
    intro hn h25
    obtain ⟨i0, i2, irows⟩ := ih (Nat.le_of_lt hn) (by omega)
    obtain ⟨h1, h2, h3, h4⟩ := step_layer1 V c ⟨25 + m, hn⟩ (stAt V c d (25 + m) (Nat.le_of_lt hn)) (by show (25 + m) / 25 = 1; omega) i0 i2
    have hb := blkOf_mk1 m hn (by omega)
    show (step V c ⟨25 + m, hn⟩ (stAt V c d (25 + m) (Nat.le_of_lt hn))).1 = _ ∧ (step V c ⟨25 + m, hn⟩ (stAt V c d (25 + m) (Nat.le_of_lt hn))).2.2.1 = _
      ∧ ∀ y : S10000x128.Idx, 25 - (m + 1) ≤ (y 0).val / 400 →
        (step V c ⟨25 + m, hn⟩ (stAt V c d (25 + m) (Nat.le_of_lt hn))).2.2.2 y = _ ∧ (step V c ⟨25 + m, hn⟩ (stAt V c d (25 + m) (Nat.le_of_lt hn))).2.1 y = _
    refine ⟨h3.trans i0, h4.trans i2, fun y hy => ?_⟩
    rw [h1 y, h2 y, hb]
    by_cases hyn : (y 0).val / 400 = 24 - m
    · rw [if_pos hyn, if_pos hyn]; exact ⟨rfl, rfl⟩
    · rw [if_neg hyn, if_neg hyn]; exact irows y (by omega)

/-- After layer 1 the fourth buffer holds t₂ and the second u₃, whole. -/
theorem layer1_done (hn : 50 ≤ cfg2.N) : (stAt V c d 50 hn).2.2.2 = T2 V c ∧ (stAt V c d 50 hn).2.1 = U3 V c := by
  obtain ⟨-, -, h⟩ := layer1_rows V c d 25 hn (Nat.le_refl _)
  exact ⟨funext fun y => (h y (by omega)).1, funext fun y => (h y (by omega)).2⟩

/-- Within layer 2: t₂ and u₃ stay; the rows of the blocks already swept hold u₄ in the first buffer. -/
theorem layer2_rows : ∀ (m : ℕ) (hn : 50 + m ≤ cfg2.N), m ≤ 25 →
    (stAt V c d (50 + m) hn).2.1 = U3 V c ∧ (stAt V c d (50 + m) hn).2.2.2 = T2 V c
    ∧ ∀ y : S10000x128.Idx, (y 0).val / 400 < m → (stAt V c d (50 + m) hn).1 y = U4 V c y := by
  intro m
  induction m with
  | zero =>
    intro hn _
    obtain ⟨h3, h1⟩ := layer1_done V c d hn
    exact ⟨h1, h3, fun y hy => absurd hy (Nat.not_lt_zero _)⟩
  | succ m ih =>
    intro hn h25
    obtain ⟨i1, i3, irows⟩ := ih (Nat.le_of_lt hn) (by omega)
    obtain ⟨h0, h1, -, h3⟩ := step_layer2 V c ⟨50 + m, hn⟩ (stAt V c d (50 + m) (Nat.le_of_lt hn)) (by show (50 + m) / 25 = 2; omega) i1 i3
    have hb := blkOf_mk2 m hn (by omega)
    show (step V c ⟨50 + m, hn⟩ (stAt V c d (50 + m) (Nat.le_of_lt hn))).2.1 = _ ∧ (step V c ⟨50 + m, hn⟩ (stAt V c d (50 + m) (Nat.le_of_lt hn))).2.2.2 = _
      ∧ ∀ y : S10000x128.Idx, (y 0).val / 400 < m + 1 → (step V c ⟨50 + m, hn⟩ (stAt V c d (50 + m) (Nat.le_of_lt hn))).1 y = _
    refine ⟨h1.trans i1, h3.trans i3, fun y hy => ?_⟩
    rw [h0 y, hb]
    by_cases hyn : (y 0).val / 400 = m
    · rw [if_pos hyn]
    · rw [if_neg hyn]; exact irows y (by omega)

/-- After layer 2, and through layer 3, the first buffer holds u₄, whole. -/
theorem layer3_first : ∀ (m : ℕ) (hn : 75 + m ≤ cfg2.N), m ≤ 25 → (stAt V c d (75 + m) hn).1 = U4 V c := by
  intro m
  induction m with
  | zero =>
    intro hn _
    obtain ⟨-, -, h⟩ := layer2_rows V c d 25 hn (Nat.le_refl _)
    exact funext fun y => h y (by have := idx2_lt0 y; omega)
  | succ m ih =>
    intro hn h25
    show (step V c ⟨75 + m, hn⟩ (stAt V c d (75 + m) (Nat.le_of_lt hn))).1 = _
    rw [step_layer3 V c ⟨75 + m, hn⟩ _ (by show (75 + m) / 25 = 3; omega)]
    exact ih (Nat.le_of_lt hn) (by omega)

/-- At every point of layer 3 the first buffer holds u₄, whatever the four buffers held at entry. -/
theorem first_at_layer3 (t : Fin cfg2.N) (ht : t.val / 25 = 3) : (stAt V c d t.val (Nat.le_of_lt t.isLt)).1 = U4 V c := by
  have hN : t.val < 100 := lt_of_lt_of_eq t.isLt (show cfg2.N = 100 from N_2)
  have e : ∀ (n : ℕ) (h : n ≤ cfg2.N), n = t.val → (stAt V c d t.val (Nat.le_of_lt t.isLt)).1 = (stAt V c d n h).1 := by
    intro n h hn; subst hn; rfl
  rw [e (75 + (t.val - 75)) (le_of_le_of_eq (by omega : 75 + (t.val - 75) ≤ 100) (N_2).symm) (by omega)]
  exact layer3_first V c d (t.val - 75) _ (by omega)

end Layers

/-- From point 75 on the first buffer holds u₄, whatever the four buffers held at entry. -/
theorem sc0_layer3 (d : St Ideal) (n : ℕ) (hn : n ≤ cfg2.N) (h : 75 ≤ n) :
    (stAt V c d n hn).1 = Cert.Net.u4 (V c main_v15_1) (V c main_v15_2) (V c main_v15_0) (wsl V c 2) (wsl V c 3) (wsl V c 4)
      (bsl V c 1) (bsl V c 2) (bsl V c 3) := by
  have hN : n ≤ 100 := le_of_le_of_eq hn N_2
  have e : ∀ (k : ℕ) (hk : k ≤ cfg2.N), k = n → (stAt V c d n hn).1 = (stAt V c d k hk).1 := by
    intro k hk hkn; subst hkn; rfl
  rw [e (75 + (n - 75)) (le_of_le_of_eq (by omega : 75 + (n - 75) ≤ 100) (N_2).symm) (by omega)]
  exact layer3_first V c d (n - 75) _ (by omega)

end Cert.KernelIdeal.Hand

end
-- ==== Proof.KI.Value2.lean ====
/- The third kernel's output array after the region, on the extended reals: the network's last four layers applied to what
   the first two kernels left. The output window is written back at the 26 points from the last of layer 2 on: that
   first write-back puts contents nothing states into block 0; each point of layer 3 then writes back the block of 400
   rows it has just computed, 24 − i at position i, so the blocks fill from the last to the first and block 0 is written
   again at the end, the later write prevailing. By induction through layer 3 the rows of the blocks already written
   back hold the result, and after the last point that is every row. -/
import proofs.«128402_g50225347559984_cont_8to1_c_967_17_alg».proof.Proof.KI.Value2c
import Idealize.ShloMosaic.Lib.Pipeline.Value
import Idealize.ShloMosaic.Lib.ValueLayout
import Idealize.ShloMosaic.Lib.WritesUnit
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat RDat)
open Idealize.ShloMosaic.ValueIdx Cert.Lib.MatProd

variable (V : (c : Dev nD) → (b : Ref sig .tc) → Buf (Elt Ideal) ((c : Thread nD τ).loc b)) (c : Dev nD)

/-- An index of the output array is in point `t`'s block iff each coordinate is in the block's range on its axis. -/
theorem mem_blk2_5 (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v16).slice (win2_5.rect t)).set ↔ _
  rw [View.set_slice_whole, Rect.mem_set_unit]
  exact Iff.rfl

/-- What a point of layer 3 may leave in the output window, written back, is its block of the result. -/
theorem leaves5_layer3 (t : Fin cfg2.N) (ht : t.val / 25 = 3) (X : (cfg2.win 5).block.Idx → Elt Ideal (cfg2.win 5).elt)
    (h : (rdat2 V c).Leaves 5 t X) :
    (cfg2.win 5).cut (grid2.coords t) X = ((cfg2.win 5).blk t).view.read (Elt Ideal) (TL V c : S10000x128.Idx → EReal) := by
  obtain ⟨Y, -, hXY⟩ := h
  have hrel : rel5 V c t Y X := by
    have h' := hXY
    dsimp only [rdat2] at h'
    exact h'
  unfold rel5 at hrel
  rw [if_pos ((hcond4 t).mpr ht)] at hrel
  obtain ⟨d, rfl⟩ := hrel
  rw [first_at_layer3 V c d t ht]
  unfold out2_5
  rw [View.canon_unit_zero zero_offsets, ld_adj, ld_y, ld_b, pay2_8_eq, slab_iblk2_4 V c t 4 (by show 4 = t.val / 25 + 1; omega)]
  obtain ⟨e0, -, e1, -⟩ := idx_facts2_out t
  have hb := blkOf_layer3 t ht
  funext j
  obtain ⟨p, q, rfl⟩ : ∃ (p : Fin 400) (q : Fin 128), j = ix2 p q := ⟨j 0, j 1, eq_ix2 j⟩
  have he : ((cfg2.win 5).blk t).view.emb (ix2 p q) = ix2 (rowAt2 t p) q := by
    funext a; apply Fin.ext
    match a with
    | ⟨0, _⟩ => show win2_5.index t (0 : Fin 2) * 400 + 1 * p.val = blkOf t * 400 + p.val; have := e0 ht; omega
    | ⟨1, _⟩ => show win2_5.index t (1 : Fin 2) * 128 + 1 * q.val = q.val; omega
  exact (congrArg Cert.Net.eluS (aff_row V c t p (rowAt2 t p) rfl (U4 V c) (bsl V c 4) q)).trans
    (congrArg (TL V c : S10000x128.Idx → EReal) he.symm)

/-- Through layer 3: the rows of the blocks already written back hold the result. -/
theorem arr5_rows : ∀ m : ℕ, m ≤ 25 → ∀ F5, (rdat2 V c).ArrAt 5 (75 + m) F5 →
    ∀ y : S10000x128.Idx, 25 - m ≤ (y 0).val / 400 → F5 y = TL V c y := by
  intro m
  induction m with
  | zero => intro _ F5 _ y hy; have := idx2_lt0 y; omega
  | succ m ih =>
    intro h25 F5 hF y hy
    have hu : 75 + m < cfg2.N := lt_of_lt_of_eq (by omega : 75 + m < 100) (N_2).symm
    have hF' : (rdat2 V c).ArrAt 5 ((⟨75 + m, hu⟩ : Fin cfg2.N).val + 1) F5 := hF
    obtain ⟨e0, -, e1, hfl⟩ := idx_facts2_out ⟨75 + m, hu⟩
    have hidx : win2_5.index ⟨75 + m, hu⟩ (0 : Fin 2) = 24 - m := by
      rw [e0 (by show (75 + m) / 25 = 3; omega)]; show 24 - (75 + m) % 25 = 24 - m; omega
    rw [RDat.ArrAt_succ, if_pos (hfl.mpr (by show 74 ≤ 75 + m; omega))] at hF'
    obtain ⟨G₀, X, hG₀, hX, rfl⟩ := hF'
    rw [leaves5_layer3 V c ⟨75 + m, hu⟩ (by show (75 + m) / 25 = 3; omega) X hX, View.write_read_eq_piecewise]
    by_cases hin : y ∈ ((cfg2.win 5).blk ⟨75 + m, hu⟩).view.setOn Finset.univ
    · rw [Finset.piecewise_eq_of_mem _ _ _ hin]
    · rw [Finset.piecewise_eq_of_notMem _ _ _ hin]
      refine ih (by omega) G₀ hG₀ y ?_
      by_contra hlt
      apply hin
      rw [View.setOn_univ, mem_blk2_5]
      have hy0 : (y 0).val < 10000 := idx2_lt0 y
      have hy1 : (y 1).val < 128 := idx2_lt1 y
      intro a
      match a with
      | ⟨0, _⟩ => show win2_5.index ⟨75 + m, hu⟩ (0 : Fin 2) * 400 ≤ (y 0).val ∧ (y 0).val < win2_5.index ⟨75 + m, hu⟩ (0 : Fin 2) * 400 + 400; omega
      | ⟨1, _⟩ => show win2_5.index ⟨75 + m, hu⟩ (1 : Fin 2) * 128 ≤ (y 1).val ∧ (y 1).val < win2_5.index ⟨75 + m, hu⟩ (1 : Fin 2) * 128 + 128; omega

/-- REGION 2's output array after the region: the network's last four layers of what the first two kernels left — the
    adjacency, the second layer's product and the first layer's activation as the region finds them, with slices 2, 3, 4
    of the stacked weights and rows 1, 2, 3, 4 of the stacked biases. -/
theorem final2_5 (F5) (h : (rdat2 (F := Ideal) V c).ArrAt 5 cfg2.N F5) :
    F5 = Cert.Net.tail (V c main_v15_1) (V c main_v15_2) (V c main_v15_0) (wsl V c 2) (wsl V c 3) (wsl V c 4)
      (bsl V c 1) (bsl V c 2) (bsl V c 3) (bsl V c 4) := by
  have h' : (rdat2 V c).ArrAt 5 (75 + 25) F5 := by
    have e : cfg2.N = 75 + 25 := N_2
    rw [e] at h
    exact h
  funext y
  exact arr5_rows V c 25 (Nat.le_refl _) F5 h' y (Nat.zero_le _)

end Cert.KernelIdeal.Hand

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.LibSingleAssignmentNary.lean ====
/-
  SINGLE ASSIGNMENT, the operation over a family of operands (a concatenation): in a straight line in which every
  buffer is written once and nothing is read before it is written, the result buffer of an operation over the
  operands `xs 0, …, xs (k-1)` holds, at the end, the operation's function of the FINAL contents of those operands —
  none of them is written again, and neither is the result. Same shape as the one-, two- and three-operand statements
  it sits beside; the side conditions are memberships in literal lists of references. Program-free.
-/
import proofs.«128402_g50225347559984_cont_8to1_c_967_17_alg».proof.Proof.LibSingleAssignment

namespace Cert.Lib.SingleAssignment

open Idealize.ShloMosaic Idealize.ShloMosaic.StableHlo

variable {τ : Topo} {sig : RefSig} {Val : EltTy → Type}

section Read

variable {l t : List (HloOp τ sig Val)} {Wl Wt : List (Ref sig .tc)}

/-- An operation over a family of operands: its buffer holds its function of the operands' final contents. -/
theorem read_nary (hl : Writes l Wl) (ht : Writes t Wt) (n : Nat) {k : Nat} {xs : Fin k → Ref sig .tc} {y : Ref sig .tc}
    {f : ((i : Fin k) → (xs i).ty.Contents Val) → y.ty.Contents Val} {hxs hy}
    (hop : l[n]? = some (nary (τ := τ) xs y f hxs hy)) (nxs : ∀ i, xs i ∉ Wl.drop n ++ Wt)
    (ny : y ∉ Wl.drop (n + 1) ++ Wt) (U : Valuation τ sig Val) :
    after t (after l U) (Proc.devRef .tc y) = f (fun i => after t (after l U) (Proc.devRef .tc (xs i))) := by
  rw [final_of_at hl ht n hop ny, nary_result]
  refine congrArg f ?_
  funext i
  exact (final_of_before hl ht n (nxs i) U).symm

end Read

/-- The whole line read at its end: nothing follows it. -/
theorem Writes.nil : Writes ([] : List (HloOp τ sig Val)) [] := List.Forall₂.nil

end Cert.Lib.SingleAssignment
-- ==== Proof.KI.HostValues.lean ====
/-
  What the program's host operations leave in three buffers, read at an index. The thirteen operations before the first
  kernel region lay each 128×128 weight matrix as a 1×128×128 array and stack the five (5×128×128), lay each 128-vector of
  biases as a 1×128 row, stack the five (5×128) and re-shape the stack to 5×1×128; the one operation before the second
  region re-shapes the first bias vector to a 1×128 row. All of these are re-indexings: entry (k, a, b) of the stack of
  matrices is entry (a, b) of the k-th matrix, entry (k, 0, q) of the stack of bias rows is entry q of the k-th vector,
  and entry (0, q) of the re-shaped vector is its entry q. No arithmetic is involved, so the statements hold for any
  reading of the floats.
-/
import proofs.«128402_g50225347559984_cont_8to1_c_967_17_alg».proof.Proof.Gen.KernelIdeal.Regions
import proofs.«128402_g50225347559984_cont_8to1_c_967_17_alg».proof.Proof.LibSingleAssignmentNary
import proofs.«128402_g50225347559984_cont_8to1_c_967_17_alg».proof.Proof.LibRowVector
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.ShloMosaic.ValueIdx
open Cert.KernelIdeal Cert.KernelIdeal.Gen
open Cert.Lib.SingleAssignment Cert.Lib.RowVector

variable {F : FTy → Type} [FloatOps F]

/-! ## The layout operations read at an index -/

section Layout
variable {α : Type}

/-- A 5×n array cast to 5×1×n reads, at (k, 0, q), the operand at (k, q): same row-major position. -/
theorem shapeCast_5n_51n_apply {n : Nat} (x : (⟨2, ![5, n]⟩ : Shape).Idx → α)
    (h : (⟨2, ![5, n]⟩ : Shape).ShapeCasts ⟨3, ![5, 1, n]⟩) (k : Fin 5) (q : Fin n) :
    shapeCast ⟨3, ![5, 1, n]⟩ x h (ix3 k 0 q) = x (ix2 k q) :=
  shapeCast_apply x h _ _ (by
    rw [Shape.rowMajor_val_three, Shape.rowMajor_val_two]
    show k.val * n + q.val = (k.val * 1 + 0) * n + q.val
    rw [Nat.mul_one, Nat.add_zero])

/-- Five 1×n rows stacked: row k of the stack is the k-th piece's only row. -/
theorem stackRows_apply {n : Nat} (x0 x1 x2 x3 x4 : (⟨2, ![1, n]⟩ : Shape).Idx → α)
    (h : Shape.Concatenates (([⟨⟨2, ![1, n]⟩, x0⟩, ⟨⟨2, ![1, n]⟩, x1⟩, ⟨⟨2, ![1, n]⟩, x2⟩, ⟨⟨2, ![1, n]⟩, x3⟩, ⟨⟨2, ![1, n]⟩, x4⟩] :
      List ((s : Shape) × (s.Idx → α))).map (·.1)) ⟨2, ![5, n]⟩ 0) (k : Fin 5) (q : Fin n) :
    concatenate ⟨2, ![5, n]⟩ 0 [⟨⟨2, ![1, n]⟩, x0⟩, ⟨⟨2, ![1, n]⟩, x1⟩, ⟨⟨2, ![1, n]⟩, x2⟩, ⟨⟨2, ![1, n]⟩, x3⟩, ⟨⟨2, ![1, n]⟩, x4⟩] h (ix2 k q)
      = (![x0, x1, x2, x3, x4] k) (ix2 0 q) := by
  have hi : ∀ (k : Fin 5) (b : Fin 2), b.cast rfl ≠ (0 : Fin 2) →
      ((ix2 (0 : Fin 1) q : (⟨2, ![1, n]⟩ : Shape).Idx) b).val = ((ix2 k q : (⟨2, ![5, n]⟩ : Shape).Idx) (b.cast rfl)).val := by
    intro k b hb
    match b with
    | ⟨0, _⟩ => exact absurd rfl hb
    | ⟨1, _⟩ => rfl
  match k with
  | ⟨0, _⟩ => exact concatenate_apply_piece _ _ h _ 0 (by show 0 < 5; omega) _ x0 rfl rfl 0 rfl (ix2 0 q) (hi _) rfl
  | ⟨1, _⟩ => exact concatenate_apply_piece _ _ h _ 1 (by show 1 < 5; omega) _ x1 rfl rfl 1 rfl (ix2 0 q) (hi _) rfl
  | ⟨2, _⟩ => exact concatenate_apply_piece _ _ h _ 2 (by show 2 < 5; omega) _ x2 rfl rfl 2 rfl (ix2 0 q) (hi _) rfl
  | ⟨3, _⟩ => exact concatenate_apply_piece _ _ h _ 3 (by show 3 < 5; omega) _ x3 rfl rfl 3 rfl (ix2 0 q) (hi _) rfl
  | ⟨4, _⟩ => exact concatenate_apply_piece _ _ h _ 4 (by show 4 < 5; omega) _ x4 rfl rfl 4 rfl (ix2 0 q) (hi _) rfl

/-- Five 1×m×n slabs stacked: slab k of the stack is the k-th piece's only slab. -/
theorem stackSlabs_apply {m n : Nat} (x0 x1 x2 x3 x4 : (⟨3, ![1, m, n]⟩ : Shape).Idx → α)
    (h : Shape.Concatenates (([⟨⟨3, ![1, m, n]⟩, x0⟩, ⟨⟨3, ![1, m, n]⟩, x1⟩, ⟨⟨3, ![1, m, n]⟩, x2⟩, ⟨⟨3, ![1, m, n]⟩, x3⟩, ⟨⟨3, ![1, m, n]⟩, x4⟩] :
      List ((s : Shape) × (s.Idx → α))).map (·.1)) ⟨3, ![5, m, n]⟩ 0) (k : Fin 5) (a : Fin m) (b : Fin n) :
    concatenate ⟨3, ![5, m, n]⟩ 0 [⟨⟨3, ![1, m, n]⟩, x0⟩, ⟨⟨3, ![1, m, n]⟩, x1⟩, ⟨⟨3, ![1, m, n]⟩, x2⟩, ⟨⟨3, ![1, m, n]⟩, x3⟩, ⟨⟨3, ![1, m, n]⟩, x4⟩] h (ix3 k a b)
      = (![x0, x1, x2, x3, x4] k) (ix3 0 a b) := by
  have hi : ∀ (k : Fin 5) (c : Fin 3), c.cast rfl ≠ (0 : Fin 3) →
      ((ix3 (0 : Fin 1) a b : (⟨3, ![1, m, n]⟩ : Shape).Idx) c).val = ((ix3 k a b : (⟨3, ![5, m, n]⟩ : Shape).Idx) (c.cast rfl)).val := by
    intro k c hc
    match c with
    | ⟨0, _⟩ => exact absurd rfl hc
    | ⟨1, _⟩ => rfl
    | ⟨2, _⟩ => rfl
  match k with
  | ⟨0, _⟩ => exact concatenate_apply_piece _ _ h _ 0 (by show 0 < 5; omega) _ x0 rfl rfl 0 rfl (ix3 0 a b) (hi _) rfl
  | ⟨1, _⟩ => exact concatenate_apply_piece _ _ h _ 1 (by show 1 < 5; omega) _ x1 rfl rfl 1 rfl (ix3 0 a b) (hi _) rfl
  | ⟨2, _⟩ => exact concatenate_apply_piece _ _ h _ 2 (by show 2 < 5; omega) _ x2 rfl rfl 2 rfl (ix3 0 a b) (hi _) rfl
  | ⟨3, _⟩ => exact concatenate_apply_piece _ _ h _ 3 (by show 3 < 5; omega) _ x3 rfl rfl 3 rfl (ix3 0 a b) (hi _) rfl
  | ⟨4, _⟩ => exact concatenate_apply_piece _ _ h _ 4 (by show 4 < 5; omega) _ x4 rfl rfl 4 rfl (ix3 0 a b) (hi _) rfl

/-- An m×n matrix laid as the only slab of a 1×m×n array: entry (0, a, b) is entry (a, b). -/
theorem bcastInDim_slab_apply {m n : Nat} (x : (⟨2, ![m, n]⟩ : Shape).Idx → α)
    (h : (⟨2, ![m, n]⟩ : Shape).BroadcastsInDim ⟨3, ![1, m, n]⟩ ![1, 2]) (a : Fin m) (b : Fin n) :
    broadcastInDim ⟨3, ![1, m, n]⟩ ![1, 2] h x (ix3 0 a b) = x (ix2 a b) :=
  broadcastInDim_apply _ h x _ _ fun ax => by
    match ax with
    | ⟨0, _⟩ =>
      show a.val = if m = 1 then 0 else a.val
      split_ifs with hm
      · have := a.isLt; omega
      · rfl
    | ⟨1, _⟩ =>
      show b.val = if n = 1 then 0 else b.val
      split_ifs with hn
      · have := b.isLt; omega
      · rfl

end Layout

/-! ## The host operations read back -/

/-- The thirteen operations before the first region write thirteen buffers, one each, in this order. -/
theorem writes0 : Writes (τ := τ) (hostOps0 (F := F)) hostOps0_W :=
  .cons rfl (.cons rfl (.cons rfl (.cons rfl (.cons rfl (.cons rfl (.cons rfl (.cons rfl (.cons rfl (.cons rfl
    (.cons rfl (.cons rfl (.cons rfl .nil))))))))))))

/-- The one operation before the second region writes one buffer. -/
theorem writes1 : Writes (τ := τ) (hostOps1 (F := F)) hostOps1_W := .cons rfl .nil

variable (W : Valuation τ sig (Elt F))

/-- The re-shaped first bias vector: entry (0, q) of the 1×128 row is entry q of the vector. -/
theorem host_v14 (q : Fin 128) :
    (StableHlo.after hostOps1 W (Proc.devRef .tc main_v14) : S1x128.Idx → Elt F .f32) (ix2 0 q)
      = (W (Proc.devRef .tc main_arg3) : S128.Idx → Elt F .f32) (ix1 q) := by
  have e : (StableHlo.after hostOps1 W (Proc.devRef .tc main_v14) : S1x128.Idx → Elt F .f32)
      = shapeCast S1x128 (StableHlo.after hostOps1 W (Proc.devRef .tc main_arg3) : S128.Idx → Elt F .f32) shapeCasts_S128_S1x128 :=
    read_reshape (t := []) writes1 Writes.nil 0 rfl (by decide) (by decide) W
  have a : StableHlo.after hostOps1 W (Proc.devRef .tc main_arg3) = W (Proc.devRef .tc main_arg3) :=
    after_of_not_mem writes1 (by decide) W
  rw [e, a, shapeCast_eq_asRow]; rfl

/-- The five bias vectors, in the order the program stacks them. -/
def hostB (k : Fin 5) : S128.Idx → Elt F .f32 :=
  ![(W (Proc.devRef .tc main_arg3) : S128.Idx → Elt F .f32), W (Proc.devRef .tc main_arg5), W (Proc.devRef .tc main_arg7),
    W (Proc.devRef .tc main_arg9), W (Proc.devRef .tc main_arg11)] k

/-- The five weight matrices, in the order the program stacks them. -/
def hostW (k : Fin 5) : S128x128.Idx → Elt F .f32 :=
  ![(W (Proc.devRef .tc main_arg2) : S128x128.Idx → Elt F .f32), W (Proc.devRef .tc main_arg4), W (Proc.devRef .tc main_arg6),
    W (Proc.devRef .tc main_arg8), W (Proc.devRef .tc main_arg10)] k

/-- An argument array is not written by the first stretch of host operations. -/
theorem arg_kept {r : Ref sig .tc} (hr : r ∉ hostOps0_W) :
    StableHlo.after hostOps0 W (Proc.devRef .tc r) = W (Proc.devRef .tc r) := after_of_not_mem writes0 hr W

/-- The stack of bias rows, re-shaped to 5×1×128: entry (k, 0, q) is entry q of the k-th bias vector. -/
theorem host_v12 (k : Fin 5) (q : Fin 128) :
    (StableHlo.after hostOps0 W (Proc.devRef .tc main_v12) : S5x1x128.Idx → Elt F .f32) (ix3 k 0 q) = hostB W k (ix1 q) := by
  have e12 : (StableHlo.after hostOps0 W (Proc.devRef .tc main_v12) : S5x1x128.Idx → Elt F .f32)
      = shapeCast S5x1x128 (StableHlo.after hostOps0 W (Proc.devRef .tc main_v11) : S5x128.Idx → Elt F .f32) shapeCasts_S5x128_S5x1x128 :=
    read_reshape (t := []) writes0 Writes.nil 12 rfl (by decide) (by decide) W
  have e11 := read_nary (τ := τ) (l := hostOps0 (F := F)) (t := []) writes0 Writes.nil 11 rfl (by decide) (by decide) W
  have e11' : (StableHlo.after hostOps0 W (Proc.devRef .tc main_v11) : S5x128.Idx → Elt F .f32)
      = concatenate S5x128 0 [⟨S1x128, StableHlo.after hostOps0 W (Proc.devRef .tc main_v6)⟩, ⟨S1x128, StableHlo.after hostOps0 W (Proc.devRef .tc main_v7)⟩,
          ⟨S1x128, StableHlo.after hostOps0 W (Proc.devRef .tc main_v8)⟩, ⟨S1x128, StableHlo.after hostOps0 W (Proc.devRef .tc main_v9)⟩,
          ⟨S1x128, StableHlo.after hostOps0 W (Proc.devRef .tc main_v10)⟩] concatenates_S1x128_S1x128_S1x128_S1x128_S1x128_S5x128_d0 := e11
  have e6 : (StableHlo.after hostOps0 W (Proc.devRef .tc main_v6) : S1x128.Idx → Elt F .f32) = asRow (W (Proc.devRef .tc main_arg3) : S128.Idx → Elt F .f32) :=
    (read_unary (t := []) writes0 Writes.nil 6 rfl (by decide) (by decide) W).trans (by rw [StableHlo.after_nil, arg_kept W (by decide)]; exact bcastInDim_eq_asRow _ _)
  have e7 : (StableHlo.after hostOps0 W (Proc.devRef .tc main_v7) : S1x128.Idx → Elt F .f32) = asRow (W (Proc.devRef .tc main_arg5) : S128.Idx → Elt F .f32) :=
    (read_unary (t := []) writes0 Writes.nil 7 rfl (by decide) (by decide) W).trans (by rw [StableHlo.after_nil, arg_kept W (by decide)]; exact bcastInDim_eq_asRow _ _)
  have e8 : (StableHlo.after hostOps0 W (Proc.devRef .tc main_v8) : S1x128.Idx → Elt F .f32) = asRow (W (Proc.devRef .tc main_arg7) : S128.Idx → Elt F .f32) :=
    (read_unary (t := []) writes0 Writes.nil 8 rfl (by decide) (by decide) W).trans (by rw [StableHlo.after_nil, arg_kept W (by decide)]; exact bcastInDim_eq_asRow _ _)
  have e9 : (StableHlo.after hostOps0 W (Proc.devRef .tc main_v9) : S1x128.Idx → Elt F .f32) = asRow (W (Proc.devRef .tc main_arg9) : S128.Idx → Elt F .f32) :=
    (read_unary (t := []) writes0 Writes.nil 9 rfl (by decide) (by decide) W).trans (by rw [StableHlo.after_nil, arg_kept W (by decide)]; exact bcastInDim_eq_asRow _ _)
  have e10 : (StableHlo.after hostOps0 W (Proc.devRef .tc main_v10) : S1x128.Idx → Elt F .f32) = asRow (W (Proc.devRef .tc main_arg11) : S128.Idx → Elt F .f32) :=
    (read_unary (t := []) writes0 Writes.nil 10 rfl (by decide) (by decide) W).trans (by rw [StableHlo.after_nil, arg_kept W (by decide)]; exact bcastInDim_eq_asRow _ _)
  rw [e12, shapeCast_5n_51n_apply, e11', stackRows_apply, e6, e7, e8, e9, e10]
  match k with
  | ⟨0, _⟩ => rfl
  | ⟨1, _⟩ => rfl
  | ⟨2, _⟩ => rfl
  | ⟨3, _⟩ => rfl
  | ⟨4, _⟩ => rfl

/-- The stack of weight matrices: entry (k, a, b) is entry (a, b) of the k-th weight matrix. -/
theorem host_v5 (k : Fin 5) (a b : Fin 128) :
    (StableHlo.after hostOps0 W (Proc.devRef .tc main_v5) : S5x128x128.Idx → Elt F .f32) (ix3 k a b) = hostW W k (ix2 a b) := by
  have e5 := read_nary (τ := τ) (l := hostOps0 (F := F)) (t := []) writes0 Writes.nil 5 rfl (by decide) (by decide) W
  have e5' : (StableHlo.after hostOps0 W (Proc.devRef .tc main_v5) : S5x128x128.Idx → Elt F .f32)
      = concatenate S5x128x128 0 [⟨S1x128x128, StableHlo.after hostOps0 W (Proc.devRef .tc main_v0)⟩, ⟨S1x128x128, StableHlo.after hostOps0 W (Proc.devRef .tc main_v1)⟩,
          ⟨S1x128x128, StableHlo.after hostOps0 W (Proc.devRef .tc main_v2)⟩, ⟨S1x128x128, StableHlo.after hostOps0 W (Proc.devRef .tc main_v3)⟩,
          ⟨S1x128x128, StableHlo.after hostOps0 W (Proc.devRef .tc main_v4)⟩] concatenates_S1x128x128_S1x128x128_S1x128x128_S1x128x128_S1x128x128_S5x128x128_d0 := e5
  have e0 : (StableHlo.after hostOps0 W (Proc.devRef .tc main_v0) : S1x128x128.Idx → Elt F .f32)
      = broadcastInDim S1x128x128 ![1, 2] bcast_S128x128_S1x128x128_1_2 (W (Proc.devRef .tc main_arg2) : S128x128.Idx → Elt F .f32) :=
    (read_unary (t := []) writes0 Writes.nil 0 rfl (by decide) (by decide) W).trans (by rw [StableHlo.after_nil, arg_kept W (by decide)])
  have e1 : (StableHlo.after hostOps0 W (Proc.devRef .tc main_v1) : S1x128x128.Idx → Elt F .f32)
      = broadcastInDim S1x128x128 ![1, 2] bcast_S128x128_S1x128x128_1_2 (W (Proc.devRef .tc main_arg4) : S128x128.Idx → Elt F .f32) :=
    (read_unary (t := []) writes0 Writes.nil 1 rfl (by decide) (by decide) W).trans (by rw [StableHlo.after_nil, arg_kept W (by decide)])
  have e2 : (StableHlo.after hostOps0 W (Proc.devRef .tc main_v2) : S1x128x128.Idx → Elt F .f32)
      = broadcastInDim S1x128x128 ![1, 2] bcast_S128x128_S1x128x128_1_2 (W (Proc.devRef .tc main_arg6) : S128x128.Idx → Elt F .f32) :=
    (read_unary (t := []) writes0 Writes.nil 2 rfl (by decide) (by decide) W).trans (by rw [StableHlo.after_nil, arg_kept W (by decide)])
  have e3 : (StableHlo.after hostOps0 W (Proc.devRef .tc main_v3) : S1x128x128.Idx → Elt F .f32)
      = broadcastInDim S1x128x128 ![1, 2] bcast_S128x128_S1x128x128_1_2 (W (Proc.devRef .tc main_arg8) : S128x128.Idx → Elt F .f32) :=
    (read_unary (t := []) writes0 Writes.nil 3 rfl (by decide) (by decide) W).trans (by rw [StableHlo.after_nil, arg_kept W (by decide)])
  have e4 : (StableHlo.after hostOps0 W (Proc.devRef .tc main_v4) : S1x128x128.Idx → Elt F .f32)
      = broadcastInDim S1x128x128 ![1, 2] bcast_S128x128_S1x128x128_1_2 (W (Proc.devRef .tc main_arg10) : S128x128.Idx → Elt F .f32) :=
    (read_unary (t := []) writes0 Writes.nil 4 rfl (by decide) (by decide) W).trans (by rw [StableHlo.after_nil, arg_kept W (by decide)])
  rw [e5', stackSlabs_apply, e0, e1, e2, e3, e4]
  match k with
  | ⟨0, _⟩ => exact bcastInDim_slab_apply (W (Proc.devRef .tc main_arg2) : S128x128.Idx → Elt F .f32) bcast_S128x128_S1x128x128_1_2 a b
  | ⟨1, _⟩ => exact bcastInDim_slab_apply (W (Proc.devRef .tc main_arg4) : S128x128.Idx → Elt F .f32) bcast_S128x128_S1x128x128_1_2 a b
  | ⟨2, _⟩ => exact bcastInDim_slab_apply (W (Proc.devRef .tc main_arg6) : S128x128.Idx → Elt F .f32) bcast_S128x128_S1x128x128_1_2 a b
  | ⟨3, _⟩ => exact bcastInDim_slab_apply (W (Proc.devRef .tc main_arg8) : S128x128.Idx → Elt F .f32) bcast_S128x128_S1x128x128_1_2 a b
  | ⟨4, _⟩ => exact bcastInDim_slab_apply (W (Proc.devRef .tc main_arg10) : S128x128.Idx → Elt F .f32) bcast_S128x128_S1x128x128_1_2 a b

/-! ## The same, one buffer at a time -/

theorem host_v5_0 (a b : Fin 128) : (StableHlo.after hostOps0 W (Proc.devRef .tc main_v5) : S5x128x128.Idx → Elt F .f32) (ix3 0 a b)
    = (W (Proc.devRef .tc main_arg2) : S128x128.Idx → Elt F .f32) (ix2 a b) := host_v5 W 0 a b
theorem host_v5_1 (a b : Fin 128) : (StableHlo.after hostOps0 W (Proc.devRef .tc main_v5) : S5x128x128.Idx → Elt F .f32) (ix3 1 a b)
    = (W (Proc.devRef .tc main_arg4) : S128x128.Idx → Elt F .f32) (ix2 a b) := host_v5 W 1 a b
theorem host_v5_2 (a b : Fin 128) : (StableHlo.after hostOps0 W (Proc.devRef .tc main_v5) : S5x128x128.Idx → Elt F .f32) (ix3 2 a b)
    = (W (Proc.devRef .tc main_arg6) : S128x128.Idx → Elt F .f32) (ix2 a b) := host_v5 W 2 a b
theorem host_v5_3 (a b : Fin 128) : (StableHlo.after hostOps0 W (Proc.devRef .tc main_v5) : S5x128x128.Idx → Elt F .f32) (ix3 3 a b)
    = (W (Proc.devRef .tc main_arg8) : S128x128.Idx → Elt F .f32) (ix2 a b) := host_v5 W 3 a b
theorem host_v5_4 (a b : Fin 128) : (StableHlo.after hostOps0 W (Proc.devRef .tc main_v5) : S5x128x128.Idx → Elt F .f32) (ix3 4 a b)
    = (W (Proc.devRef .tc main_arg10) : S128x128.Idx → Elt F .f32) (ix2 a b) := host_v5 W 4 a b

theorem host_v12_0 (q : Fin 128) : (StableHlo.after hostOps0 W (Proc.devRef .tc main_v12) : S5x1x128.Idx → Elt F .f32) (ix3 0 0 q)
    = (W (Proc.devRef .tc main_arg3) : S128.Idx → Elt F .f32) (ix1 q) := host_v12 W 0 q
theorem host_v12_1 (q : Fin 128) : (StableHlo.after hostOps0 W (Proc.devRef .tc main_v12) : S5x1x128.Idx → Elt F .f32) (ix3 1 0 q)
    = (W (Proc.devRef .tc main_arg5) : S128.Idx → Elt F .f32) (ix1 q) := host_v12 W 1 q
theorem host_v12_2 (q : Fin 128) : (StableHlo.after hostOps0 W (Proc.devRef .tc main_v12) : S5x1x128.Idx → Elt F .f32) (ix3 2 0 q)
    = (W (Proc.devRef .tc main_arg7) : S128.Idx → Elt F .f32) (ix1 q) := host_v12 W 2 q
theorem host_v12_3 (q : Fin 128) : (StableHlo.after hostOps0 W (Proc.devRef .tc main_v12) : S5x1x128.Idx → Elt F .f32) (ix3 3 0 q)
    = (W (Proc.devRef .tc main_arg9) : S128.Idx → Elt F .f32) (ix1 q) := host_v12 W 3 q
theorem host_v12_4 (q : Fin 128) : (StableHlo.after hostOps0 W (Proc.devRef .tc main_v12) : S5x1x128.Idx → Elt F .f32) (ix3 4 0 q)
    = (W (Proc.devRef .tc main_arg11) : S128.Idx → Elt F .f32) (ix1 q) := host_v12 W 4 q

end Cert.KernelIdeal.Hand

end
-- ==== Proof.KI.Value.lean ====
/-
  The kernel program's result on the extended reals, composed: what each boundary's buffers hold in terms of the
  twelve argument arrays, region by region, down to the network's result in the output array.
-/
import proofs.«128402_g50225347559984_cont_8to1_c_967_17_alg».proof.Proof.KI.Run
import proofs.«128402_g50225347559984_cont_8to1_c_967_17_alg».proof.Proof.KI.Value01
import proofs.«128402_g50225347559984_cont_8to1_c_967_17_alg».proof.Proof.KI.Value2
import proofs.«128402_g50225347559984_cont_8to1_c_967_17_alg».proof.Proof.KI.HostValues
import proofs.«128402_g50225347559984_cont_8to1_c_967_17_alg».proof.Proof.Net
import proofs.«128402_g50225347559984_cont_8to1_c_967_17_alg».proof.Proof.LibRowVector

noncomputable section

namespace Cert.KernelIdeal.Hand

open Cert.KernelIdeal Cert.KernelIdeal.Gen Idealize.ShloMosaic Idealize.ShloMosaic.TcCoe Idealize.SL.Sem
open Idealize.ShloMosaic.Pipeline (Dat RDat)
open Idealize.ShloMosaic.ValueIdx Cert.Lib.MatProd Cert.Lib.RowVector

variable (m : (ℓ : Loc nD τ sig) → Buf (Elt Ideal) ℓ) (ρ : Dev nD → PrngReg)

/-! ## Region 0's entry and exit -/

theorem U1_arg0 (c : Dev nD) : Bd1 m ρ c main_arg0 = m ((c.tc : Thread nD τ).loc main_arg0) := W1_keep m ρ c main_arg0 (by decide)
theorem U1_arg2 (c : Dev nD) : Bd1 m ρ c main_arg2 = m ((c.tc : Thread nD τ).loc main_arg2) := W1_keep m ρ c main_arg2 (by decide)

/-- Region 0 leaves y₀ = relu(x)·W₁ in its output array. -/
theorem W2_v13 (c : Dev nD) :
    W2 m ρ c (Proc.devRef .tc main_v13) = matProd (Cert.Net.relu (m ((c.tc : Thread nD τ).loc main_arg0))) (m ((c.tc : Thread nD τ).loc main_arg2)) :=
  (W2_arr m ρ c 2).trans ((final0_2 (Bd1 m ρ) c).trans (by rw [U1_arg0, U1_arg2]))

/-! ## Region 1's entry -/

theorem U3_arg1 (c : Dev nD) : Bd3 m ρ c main_arg1 = m ((c.tc : Thread nD τ).loc main_arg1) :=
  (W3_keep m ρ c main_arg1 (by decide)).trans ((W2_of_ne m ρ c main_arg1 (by decide)).trans (W1_keep m ρ c main_arg1 (by decide)))
theorem U3_arg4 (c : Dev nD) : Bd3 m ρ c main_arg4 = m ((c.tc : Thread nD τ).loc main_arg4) :=
  (W3_keep m ρ c main_arg4 (by decide)).trans ((W2_of_ne m ρ c main_arg4 (by decide)).trans (W1_keep m ρ c main_arg4 (by decide)))
theorem U3_v13 (c : Dev nD) : Bd3 m ρ c main_v13 = matProd (Cert.Net.relu (m ((c.tc : Thread nD τ).loc main_arg0))) (m ((c.tc : Thread nD τ).loc main_arg2)) :=
  (W3_keep m ρ c main_v13 (by decide)).trans (W2_v13 m ρ c)
theorem W2_arg3 (c : Dev nD) : W2 m ρ c (Proc.devRef .tc main_arg3) = m ((c.tc : Thread nD τ).loc main_arg3) :=
  (W2_of_ne m ρ c main_arg3 (by decide)).trans (W1_keep m ρ c main_arg3 (by decide))

/-- Region 1's bias window: the first bias vector laid as a row. -/
theorem U3_v14 (c : Dev nD) : (Bd3 m ρ c main_v14 : S1x128.Idx → EReal) = asRow (m ((c.tc : Thread nD τ).loc main_arg3)) := by
  funext i
  rw [idx_row i]
  exact (host_v14 (W2 m ρ c) _).trans (congrFun (W2_arg3 m ρ c) _)

/-! ## Region 1's exit: region 2's entry -/

/-- The network's inputs: the twelve launch arrays. -/
abbrev inp (c : Dev nD) : Cert.Net.Inp := (Cert.Net.Inp.ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))

/-- Region 1 leaves o₀ in its first output array, -/
theorem U4_v15_0 (c : Dev nD) : Bd4 m ρ c main_v15_0 = Cert.Net.o0 (inp m c) :=
  (W4_arr m ρ c 4).trans ((final1_4 (Bd3 m ρ) c).trans (by rw [U3_arg1, U3_v13, U3_v14]; rfl))
/-- the adjacency, unchanged by the change of format, in its second, -/
theorem U4_v15_1 (c : Dev nD) : Bd4 m ρ c main_v15_1 = m ((c.tc : Thread nD τ).loc main_arg1) :=
  (W4_arr m ρ c 5).trans ((final1_5 (Bd3 m ρ) c).trans (U3_arg1 m ρ c))
/-- and y₁ = o₀·W₂ in its third. -/
theorem U4_v15_2 (c : Dev nD) : Bd4 m ρ c main_v15_2 = Cert.Net.y1 (inp m c) :=
  (W4_arr m ρ c 6).trans ((final1_6 (Bd3 m ρ) c).trans (by rw [U3_arg1, U3_v13, U3_v14, U3_arg4]; rfl))

/-- The stacked weights and biases reach region 2 as the first host stretch left them. -/
theorem U4_v5 (c : Dev nD) : Bd4 m ρ c main_v5 = StableHlo.after hostOps0 (W0 m ρ c) (Proc.devRef .tc main_v5) :=
  (W4_of_ne m ρ c main_v5 (by decide)).trans ((W3_keep m ρ c main_v5 (by decide)).trans (W2_of_ne m ρ c main_v5 (by decide)))
theorem U4_v12 (c : Dev nD) : Bd4 m ρ c main_v12 = StableHlo.after hostOps0 (W0 m ρ c) (Proc.devRef .tc main_v12) :=
  (W4_of_ne m ρ c main_v12 (by decide)).trans ((W3_keep m ρ c main_v12 (by decide)).trans (W2_of_ne m ρ c main_v12 (by decide)))

/-- Slice 2 of the stacked weights is the third weight matrix. -/
theorem wsl_2 (c : Dev nD) : wsl (Bd4 m ρ) c 2 = m ((c.tc : Thread nD τ).loc main_arg6) := by
  funext i
  obtain ⟨p, q, rfl⟩ : ∃ (p : Fin 128) (q : Fin 128), i = ix2 p q := ⟨i 0, i 1, eq_ix2 i⟩
  rw [wsl_apply]
  exact (congrFun (U4_v5 m ρ c) _).trans (host_v5_2 (W0 m ρ c) p q)
/-- Slice 3 of the stacked weights is the fourth weight matrix. -/
theorem wsl_3 (c : Dev nD) : wsl (Bd4 m ρ) c 3 = m ((c.tc : Thread nD τ).loc main_arg8) := by
  funext i
  obtain ⟨p, q, rfl⟩ : ∃ (p : Fin 128) (q : Fin 128), i = ix2 p q := ⟨i 0, i 1, eq_ix2 i⟩
  rw [wsl_apply]
  exact (congrFun (U4_v5 m ρ c) _).trans (host_v5_3 (W0 m ρ c) p q)
/-- Slice 4 of the stacked weights is the fifth weight matrix. -/
theorem wsl_4 (c : Dev nD) : wsl (Bd4 m ρ) c 4 = m ((c.tc : Thread nD τ).loc main_arg10) := by
  funext i
  obtain ⟨p, q, rfl⟩ : ∃ (p : Fin 128) (q : Fin 128), i = ix2 p q := ⟨i 0, i 1, eq_ix2 i⟩
  rw [wsl_apply]
  exact (congrFun (U4_v5 m ρ c) _).trans (host_v5_4 (W0 m ρ c) p q)

/-- Slice 1 of the stacked biases is the second bias vector laid as a row. -/
theorem bsl_1 (c : Dev nD) : bsl (Bd4 m ρ) c 1 = asRow (m ((c.tc : Thread nD τ).loc main_arg5)) := by
  funext i
  obtain ⟨p, q, rfl⟩ : ∃ (p : Fin 1) (q : Fin 128), i = ix2 p q := ⟨i 0, i 1, eq_ix2 i⟩
  obtain rfl : p = 0 := Subsingleton.elim _ _
  rw [bsl_apply]
  exact (congrFun (U4_v12 m ρ c) _).trans (host_v12_1 (W0 m ρ c) q)
/-- Slice 2 of the stacked biases is the third bias vector laid as a row. -/
theorem bsl_2 (c : Dev nD) : bsl (Bd4 m ρ) c 2 = asRow (m ((c.tc : Thread nD τ).loc main_arg7)) := by
  funext i
  obtain ⟨p, q, rfl⟩ : ∃ (p : Fin 1) (q : Fin 128), i = ix2 p q := ⟨i 0, i 1, eq_ix2 i⟩
  obtain rfl : p = 0 := Subsingleton.elim _ _
  rw [bsl_apply]
  exact (congrFun (U4_v12 m ρ c) _).trans (host_v12_2 (W0 m ρ c) q)
/-- Slice 3 of the stacked biases is the fourth bias vector laid as a row. -/
theorem bsl_3 (c : Dev nD) : bsl (Bd4 m ρ) c 3 = asRow (m ((c.tc : Thread nD τ).loc main_arg9)) := by
  funext i
  obtain ⟨p, q, rfl⟩ : ∃ (p : Fin 1) (q : Fin 128), i = ix2 p q := ⟨i 0, i 1, eq_ix2 i⟩
  obtain rfl : p = 0 := Subsingleton.elim _ _
  rw [bsl_apply]
  exact (congrFun (U4_v12 m ρ c) _).trans (host_v12_3 (W0 m ρ c) q)
/-- Slice 4 of the stacked biases is the fifth bias vector laid as a row. -/
theorem bsl_4 (c : Dev nD) : bsl (Bd4 m ρ) c 4 = asRow (m ((c.tc : Thread nD τ).loc main_arg11)) := by
  funext i
  obtain ⟨p, q, rfl⟩ : ∃ (p : Fin 1) (q : Fin 128), i = ix2 p q := ⟨i 0, i 1, eq_ix2 i⟩
  obtain rfl : p = 0 := Subsingleton.elim _ _
  rw [bsl_apply]
  exact (congrFun (U4_v12 m ρ c) _).trans (host_v12_4 (W0 m ρ c) q)

/-! ## The result -/

/-- Whatever region 2's write-backs may leave in the output array is the network's result of the twelve launch arrays. -/
theorem value (c : Dev nD) (F5) (h : (rdat2 (F := Ideal) (Bd4 m ρ) c).ArrAt 5 cfg2.N F5) :
    F5 = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [final2_5 (Bd4 m ρ) c F5 h, U4_v15_1, U4_v15_2, U4_v15_0, wsl_2, wsl_3, wsl_4, bsl_1, bsl_2, bsl_3, bsl_4]
  rfl

end Cert.KernelIdeal.Hand

end
-- ==== Proof.RefRun.Ops.lean ====
/-
  The reference program's @main as one straight line of its eighty-eight host operations, each outlined function's
  operations listed at its call over that call's buffers, and the run of that line: every weakly fair execution
  terminates with each buffer at the fold of the operations' results over the launch contents.
-/
import proofs.«128402_g50225347559984_cont_8to1_c_967_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: max(·, 0) is three (the zero, its broadcast, the maximum); an affine
    layer is five (the two products, the bias vector laid as a row, the row repeated down the rows, the sum); the
    exponential unit is fifteen (two comparisons with a broadcast zero, the selection of min(·, 0), its exponential
    minus one, the product with a broadcast one, the final selection). -/
abbrev ops : List (HloOp τ sig (Elt F)) :=
  [
    nullary main_call0_cst (constant S_ .f32 0x00000000#32 : (⟨S_, .f32⟩ : BufTy).Contents (Elt F)),
    unary main_call0_cst main_call0_v0 (broadcastInDim S10000x128 ![] bcast_S_S10000x128 : (⟨S_, .f32⟩ : BufTy).Contents (Elt F) → (⟨S10000x128, .f32⟩ : BufTy).Contents (Elt F)),
    binary main_arg0 main_call0_v0 main_v0 (maximumf : (⟨S10000x128, .f32⟩ : BufTy).Contents (Elt F) → (⟨S10000x128, .f32⟩ : BufTy).Contents (Elt F) → (⟨S10000x128, .f32⟩ : BufTy).Contents (Elt F)),
    binary main_v0 main_arg2 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v1 main_v2 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S10000x128 ![0, 1] bcast_S1x128_S10000x128_0_1 : (⟨S1x128, .f32⟩ : BufTy).Contents (Elt F) → (⟨S10000x128, .f32⟩ : BufTy).Contents (Elt F)),
    binary main_v2 main_v4 main_v5 (addf : (⟨S10000x128, .f32⟩ : BufTy).Contents (Elt F) → (⟨S10000x128, .f32⟩ : BufTy).Contents (Elt F) → (⟨S10000x128, .f32⟩ : BufTy).Contents (Elt F)),
    nullary main_call1_cst (constant S_ .f32 0x00000000#32 : (⟨S_, .f32⟩ : BufTy).Contents (Elt F)),
    unary main_call1_cst main_call1_v0 (broadcastInDim S10000x128 ![] bcast_S_S10000x128 : (⟨S_, .f32⟩ : BufTy).Contents (Elt F) → (⟨S10000x128, .f32⟩ : BufTy).Contents (Elt F)),
    binary main_v5 main_call1_v0 main_v6 (maximumf : (⟨S10000x128, .f32⟩ : BufTy).Contents (Elt F) → (⟨S10000x128, .f32⟩ : BufTy).Contents (Elt F) → (⟨S10000x128, .f32⟩ : BufTy).Contents (Elt F)),
    nullary main_call2_cst (constant S_ .f32 0x00000000#32 : (⟨S_, .f32⟩ : BufTy).Contents (Elt F)),
    unary main_call2_cst main_call2_v0 (broadcastInDim S10000x128 ![] bcast_S_S10000x128 : (⟨S_, .f32⟩ : BufTy).Contents (Elt F) → (⟨S10000x128, .f32⟩ : BufTy).Contents (Elt F)),
    binary main_v6 main_call2_v0 main_v7 (maximumf : (⟨S10000x128, .f32⟩ : BufTy).Contents (Elt F) → (⟨S10000x128, .f32⟩ : BufTy).Contents (Elt F) → (⟨S10000x128, .f32⟩ : BufTy).Contents (Elt F)),
    binary main_v7 main_arg4 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v8 main_v9 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S10000x128 ![0, 1] bcast_S1x128_S10000x128_0_1 : (⟨S1x128, .f32⟩ : BufTy).Contents (Elt F) → (⟨S10000x128, .f32⟩ : BufTy).Contents (Elt F)),
    binary main_v9 main_v11 main_v12 (addf : (⟨S10000x128, .f32⟩ : BufTy).Contents (Elt F) → (⟨S10000x128, .f32⟩ : BufTy).Contents (Elt F) → (⟨S10000x128, .f32⟩ : BufTy).Contents (Elt F)),
    nullary main_call3_cst (constant S_ .f32 0x00000000#32 : (⟨S_, .f32⟩ : BufTy).Contents (Elt F)),
    unary main_call3_cst main_call3_v0 (broadcastInDim S10000x128 ![] bcast_S_S10000x128 : (⟨S_, .f32⟩ : BufTy).Contents (Elt F) → (⟨S10000x128, .f32⟩ : BufTy).Contents (Elt F)),
    binary main_v12 main_call3_v0 main_call3_v1 (cmpf .ogt : (⟨S10000x128, .f32⟩ : BufTy).Contents (Elt F) → (⟨S10000x128, .f32⟩ : BufTy).Contents (Elt F) → (⟨S10000x128, .i1⟩ : BufTy).Contents (Elt F)),
    nullary main_call3_cst_0 (constant S_ .f32 0x00000000#32 : (⟨S_, .f32⟩ : BufTy).Contents (Elt F)),
    unary main_call3_cst_0 main_call3_v2 (broadcastInDim S10000x128 ![] bcast_S_S10000x128 : (⟨S_, .f32⟩ : BufTy).Contents (Elt F) → (⟨S10000x128, .f32⟩ : BufTy).Contents (Elt F)),
    binary main_v12 main_call3_v2 main_call3_v3 (cmpf .ogt : (⟨S10000x128, .f32⟩ : BufTy).Contents (Elt F) → (⟨S10000x128, .f32⟩ : BufTy).Contents (Elt F) → (⟨S10000x128, .i1⟩ : BufTy).Contents (Elt F)),
    nullary main_call3_cst_1 (constant S_ .f32 0x00000000#32 : (⟨S_, .f32⟩ : BufTy).Contents (Elt F)),
    unary main_call3_cst_1 main_call3_call0_v0 (id : (⟨S_, .f32⟩ : BufTy).Contents (Elt F) → (⟨S_, .f32⟩ : BufTy).Contents (Elt F)),
    unary main_call3_call0_v0 main_call3_call0_v1 (broadcastInDim S10000x128 ![] bcast_S_S10000x128 : (⟨S_, .f32⟩ : BufTy).Contents (Elt F) → (⟨S10000x128, .f32⟩ : BufTy).Contents (Elt F)),
    ternary main_call3_v3 main_call3_call0_v1 main_v12 main_call3_v4 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    unary main_call3_v4 main_call3_v5 (Host.expm1 : (⟨S10000x128, .f32⟩ : BufTy).Contents (Elt F) → (⟨S10000x128, .f32⟩ : BufTy).Contents (Elt F)),
    nullary main_call3_cst_2 (constant S_ .f32 0x3F800000#32 : (⟨S_, .f32⟩ : BufTy).Contents (Elt F)),
    unary main_call3_cst_2 main_call3_v6 (broadcastInDim S10000x128 ![] bcast_S_S10000x128 : (⟨S_, .f32⟩ : BufTy).Contents (Elt F) → (⟨S10000x128, .f32⟩ : BufTy).Contents (Elt F)),
    binary main_call3_v6 main_call3_v5 main_call3_v7 (mulf : (⟨S10000x128, .f32⟩ : BufTy).Contents (Elt F) → (⟨S10000x128, .f32⟩ : BufTy).Contents (Elt F) → (⟨S10000x128, .f32⟩ : BufTy).Contents (Elt F)),
    ternary main_call3_v1 main_v12 main_call3_v7 main_v13 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    binary main_v13 main_v6 main_v14 (addf : (⟨S10000x128, .f32⟩ : BufTy).Contents (Elt F) → (⟨S10000x128, .f32⟩ : BufTy).Contents (Elt F) → (⟨S10000x128, .f32⟩ : BufTy).Contents (Elt F)),
    nullary main_call4_cst (constant S_ .f32 0x00000000#32 : (⟨S_, .f32⟩ : BufTy).Contents (Elt F)),
    unary main_call4_cst main_call4_v0 (broadcastInDim S10000x128 ![] bcast_S_S10000x128 : (⟨S_, .f32⟩ : BufTy).Contents (Elt F) → (⟨S10000x128, .f32⟩ : BufTy).Contents (Elt F)),
    binary main_v14 main_call4_v0 main_v15 (maximumf : (⟨S10000x128, .f32⟩ : BufTy).Contents (Elt F) → (⟨S10000x128, .f32⟩ : BufTy).Contents (Elt F) → (⟨S10000x128, .f32⟩ : BufTy).Contents (Elt F)),
    binary main_v15 main_arg6 main_v16 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v16 main_v17 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg7 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (addf : (⟨S10000x128, .f32⟩ : BufTy).Contents (Elt F) → (⟨S10000x128, .f32⟩ : BufTy).Contents (Elt F) → (⟨S10000x128, .f32⟩ : BufTy).Contents (Elt F)),
    unary main_v20 main_v21 (Host.negf : (⟨S10000x128, .f32⟩ : BufTy).Contents (Elt F) → (⟨S10000x128, .f32⟩ : BufTy).Contents (Elt F)),
    unary main_v21 main_v22 (Host.exp : (⟨S10000x128, .f32⟩ : BufTy).Contents (Elt F) → (⟨S10000x128, .f32⟩ : BufTy).Contents (Elt F)),
    nullary main_cst (constant S_ .f32 0x3F800000#32 : (⟨S_, .f32⟩ : BufTy).Contents (Elt F)),
    unary main_cst main_v23 (broadcastInDim S10000x128 ![] bcast_S_S10000x128 : (⟨S_, .f32⟩ : BufTy).Contents (Elt F) → (⟨S10000x128, .f32⟩ : BufTy).Contents (Elt F)),
    binary main_v23 main_v22 main_v24 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3F800000#32 : (⟨S_, .f32⟩ : BufTy).Contents (Elt F)),
    unary main_cst_0 main_v25 (broadcastInDim S10000x128 ![] bcast_S_S10000x128 : (⟨S_, .f32⟩ : BufTy).Contents (Elt F) → (⟨S10000x128, .f32⟩ : BufTy).Contents (Elt F)),
    binary main_v25 main_v24 main_v26 (Host.divf : (⟨S10000x128, .f32⟩ : BufTy).Contents (Elt F) → (⟨S10000x128, .f32⟩ : BufTy).Contents (Elt F) → (⟨S10000x128, .f32⟩ : BufTy).Contents (Elt F)),
    binary main_v26 main_v13 main_v27 (addf : (⟨S10000x128, .f32⟩ : BufTy).Contents (Elt F) → (⟨S10000x128, .f32⟩ : BufTy).Contents (Elt F) → (⟨S10000x128, .f32⟩ : BufTy).Contents (Elt F)),
    nullary main_call5_cst (constant S_ .f32 0x00000000#32 : (⟨S_, .f32⟩ : BufTy).Contents (Elt F)),
    unary main_call5_cst main_call5_v0 (broadcastInDim S10000x128 ![] bcast_S_S10000x128 : (⟨S_, .f32⟩ : BufTy).Contents (Elt F) → (⟨S10000x128, .f32⟩ : BufTy).Contents (Elt F)),
    binary main_v27 main_call5_v0 main_v28 (maximumf : (⟨S10000x128, .f32⟩ : BufTy).Contents (Elt F) → (⟨S10000x128, .f32⟩ : BufTy).Contents (Elt F) → (⟨S10000x128, .f32⟩ : BufTy).Contents (Elt F)),
    binary main_v28 main_arg8 main_v29 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v29 main_v30 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg9 main_v31 (broadcastInDim S1x128 ![1] bcast_S128_S1x128_1 : (⟨S128, .f32⟩ : BufTy).Contents (Elt F) → (⟨S1x128, .f32⟩ : BufTy).Contents (Elt F)),
    unary main_v31 main_v32 (broadcastInDim S10000x128 ![0, 1] bcast_S1x128_S10000x128_0_1 : (⟨S1x128, .f32⟩ : BufTy).Contents (Elt F) → (⟨S10000x128, .f32⟩ : BufTy).Contents (Elt F)),
    binary main_v30 main_v32 main_v33 (addf : (⟨S10000x128, .f32⟩ : BufTy).Contents (Elt F) → (⟨S10000x128, .f32⟩ : BufTy).Contents (Elt F) → (⟨S10000x128, .f32⟩ : BufTy).Contents (Elt F)),
    nullary main_call6_cst (constant S_ .f32 0x00000000#32 : (⟨S_, .f32⟩ : BufTy).Contents (Elt F)),
    unary main_call6_cst main_call6_v0 (broadcastInDim S10000x128 ![] bcast_S_S10000x128 : (⟨S_, .f32⟩ : BufTy).Contents (Elt F) → (⟨S10000x128, .f32⟩ : BufTy).Contents (Elt F)),
    binary main_v33 main_call6_v0 main_v34 (maximumf : (⟨S10000x128, .f32⟩ : BufTy).Contents (Elt F) → (⟨S10000x128, .f32⟩ : BufTy).Contents (Elt F) → (⟨S10000x128, .f32⟩ : BufTy).Contents (Elt F)),
    binary main_v34 main_v6 main_v35 (addf : (⟨S10000x128, .f32⟩ : BufTy).Contents (Elt F) → (⟨S10000x128, .f32⟩ : BufTy).Contents (Elt F) → (⟨S10000x128, .f32⟩ : BufTy).Contents (Elt F)),
    binary main_v35 main_v26 main_v36 (addf : (⟨S10000x128, .f32⟩ : BufTy).Contents (Elt F) → (⟨S10000x128, .f32⟩ : BufTy).Contents (Elt F) → (⟨S10000x128, .f32⟩ : BufTy).Contents (Elt F)),
    nullary main_call7_cst (constant S_ .f32 0x00000000#32 : (⟨S_, .f32⟩ : BufTy).Contents (Elt F)),
    unary main_call7_cst main_call7_v0 (broadcastInDim S10000x128 ![] bcast_S_S10000x128 : (⟨S_, .f32⟩ : BufTy).Contents (Elt F) → (⟨S10000x128, .f32⟩ : BufTy).Contents (Elt F)),
    binary main_v36 main_call7_v0 main_v37 (maximumf : (⟨S10000x128, .f32⟩ : BufTy).Contents (Elt F) → (⟨S10000x128, .f32⟩ : BufTy).Contents (Elt F) → (⟨S10000x128, .f32⟩ : BufTy).Contents (Elt F)),
    binary main_v37 main_arg10 main_v38 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v38 main_v39 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg11 main_v40 (broadcastInDim S1x128 ![1] bcast_S128_S1x128_1 : (⟨S128, .f32⟩ : BufTy).Contents (Elt F) → (⟨S1x128, .f32⟩ : BufTy).Contents (Elt F)),
    unary main_v40 main_v41 (broadcastInDim S10000x128 ![0, 1] bcast_S1x128_S10000x128_0_1 : (⟨S1x128, .f32⟩ : BufTy).Contents (Elt F) → (⟨S10000x128, .f32⟩ : BufTy).Contents (Elt F)),
    binary main_v39 main_v41 main_v42 (addf : (⟨S10000x128, .f32⟩ : BufTy).Contents (Elt F) → (⟨S10000x128, .f32⟩ : BufTy).Contents (Elt F) → (⟨S10000x128, .f32⟩ : BufTy).Contents (Elt F)),
    nullary main_call8_cst (constant S_ .f32 0x00000000#32 : (⟨S_, .f32⟩ : BufTy).Contents (Elt F)),
    unary main_call8_cst main_call8_v0 (broadcastInDim S10000x128 ![] bcast_S_S10000x128 : (⟨S_, .f32⟩ : BufTy).Contents (Elt F) → (⟨S10000x128, .f32⟩ : BufTy).Contents (Elt F)),
    binary main_v42 main_call8_v0 main_call8_v1 (cmpf .ogt : (⟨S10000x128, .f32⟩ : BufTy).Contents (Elt F) → (⟨S10000x128, .f32⟩ : BufTy).Contents (Elt F) → (⟨S10000x128, .i1⟩ : BufTy).Contents (Elt F)),
    nullary main_call8_cst_0 (constant S_ .f32 0x00000000#32 : (⟨S_, .f32⟩ : BufTy).Contents (Elt F)),
    unary main_call8_cst_0 main_call8_v2 (broadcastInDim S10000x128 ![] bcast_S_S10000x128 : (⟨S_, .f32⟩ : BufTy).Contents (Elt F) → (⟨S10000x128, .f32⟩ : BufTy).Contents (Elt F)),
    binary main_v42 main_call8_v2 main_call8_v3 (cmpf .ogt : (⟨S10000x128, .f32⟩ : BufTy).Contents (Elt F) → (⟨S10000x128, .f32⟩ : BufTy).Contents (Elt F) → (⟨S10000x128, .i1⟩ : BufTy).Contents (Elt F)),
    nullary main_call8_cst_1 (constant S_ .f32 0x00000000#32 : (⟨S_, .f32⟩ : BufTy).Contents (Elt F)),
    unary main_call8_cst_1 main_call8_call0_v0 (id : (⟨S_, .f32⟩ : BufTy).Contents (Elt F) → (⟨S_, .f32⟩ : BufTy).Contents (Elt F)),
    unary main_call8_call0_v0 main_call8_call0_v1 (broadcastInDim S10000x128 ![] bcast_S_S10000x128 : (⟨S_, .f32⟩ : BufTy).Contents (Elt F) → (⟨S10000x128, .f32⟩ : BufTy).Contents (Elt F)),
    ternary main_call8_v3 main_call8_call0_v1 main_v42 main_call8_v4 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)),
    unary main_call8_v4 main_call8_v5 (Host.expm1 : (⟨S10000x128, .f32⟩ : BufTy).Contents (Elt F) → (⟨S10000x128, .f32⟩ : BufTy).Contents (Elt F)),
    nullary main_call8_cst_2 (constant S_ .f32 0x3F800000#32 : (⟨S_, .f32⟩ : BufTy).Contents (Elt F)),
    unary main_call8_cst_2 main_call8_v6 (broadcastInDim S10000x128 ![] bcast_S_S10000x128 : (⟨S_, .f32⟩ : BufTy).Contents (Elt F) → (⟨S10000x128, .f32⟩ : BufTy).Contents (Elt F)),
    binary main_call8_v6 main_call8_v5 main_call8_v7 (mulf : (⟨S10000x128, .f32⟩ : BufTy).Contents (Elt F) → (⟨S10000x128, .f32⟩ : BufTy).Contents (Elt F) → (⟨S10000x128, .f32⟩ : BufTy).Contents (Elt F)),
    ternary main_call8_v1 main_v42 main_call8_v7 main_v43 (select : (⟨S10000x128, .i1⟩ : BufTy).Contents (Elt F) → (⟨S10000x128, .f32⟩ : BufTy).Contents (Elt F) → (⟨S10000x128, .f32⟩ : BufTy).Contents (Elt F) → (⟨S10000x128, .f32⟩ : BufTy).Contents (Elt F)) ]

/-- The buffers the operations write, in order: each operation writes one, no buffer twice. -/
abbrev written : List (Ref sig .tc) :=
  [main_call0_cst, main_call0_v0, main_v0, main_v1, main_v2, main_v3, main_v4, main_v5, main_call1_cst, main_call1_v0, main_v6, main_call2_cst, main_call2_v0, main_v7, main_v8, main_v9, main_v10, main_v11, main_v12, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v13, main_v14, main_call4_cst, main_call4_v0, main_v15, main_v16, main_v17, main_v18, main_v19, main_v20, main_v21, main_v22, main_cst, main_v23, main_v24, main_cst_0, main_v25, main_v26, main_v27, main_call5_cst, main_call5_v0, main_v28, main_v29, main_v30, main_v31, main_v32, main_v33, main_call6_cst, main_call6_v0, main_v34, main_v35, main_v36, main_call7_cst, main_call7_v0, main_v37, main_v38, main_v39, main_v40, main_v41, main_v42, main_call8_cst, main_call8_v0, main_call8_v1, main_call8_cst_0, main_call8_v2, main_call8_v3, main_call8_cst_1, main_call8_call0_v0, main_call8_call0_v1, main_call8_v4, main_call8_v5, main_call8_cst_2, main_call8_v6, main_call8_v7, main_v43]

-- with each call replaced by its callee's body, the two sides are the same chain of eighty-eight steps
set_option maxHeartbeats 1000000 in
set_option maxRecDepth 8192 in
/-- @main is that straight line: with the functions' definitions unfolded at their calls, sequencing reassociates by
    computation and both sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every weakly fair execution of @main terminates, and every final state has each
    buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.Reads.lean ====
/-
  The straight line read back one operation at a time: once the eighty-eight operations have run, every buffer holds its
  own operation's function of what its operands hold, and the twelve argument buffers hold what they held at the start —
  each buffer is written once, and no operation reads a buffer that a later one writes.
-/
import proofs.«128402_g50225347559984_cont_8to1_c_967_17_alg».proof.Proof.RefRun.Ops
import Idealize.ShloMosaic.PureOps.Ideal.Laws
import Idealize.ShloMosaic.Lib.ValueIdx
import proofs.«128402_g50225347559984_cont_8to1_c_967_17_alg».proof.Proof.LibSingleAssignment

noncomputable section

namespace Cert.ReferenceIdeal.RefRun

open Cert.ReferenceIdeal Cert.ReferenceIdeal.Gen Idealize.ShloMosaic Idealize.ShloMosaic.TcCoe Idealize.SL.Sem Idealize.ShloMosaic.StableHlo Cert.Lib.SingleAssignment

section Read

variable {τ : Topo} {sig : RefSig} {Val : EltTy → Type} {l : List (HloOp τ sig Val)} {Wl : List (Ref sig .tc)}

/-- At the end of a single-assignment line, a constant's buffer holds the constant. -/
theorem read0_nullary (hl : Writes l Wl) (n : Nat) {y : Ref sig .tc} {v : y.ty.Contents Val} {hy}
    (hop : l[n]? = some (nullary (τ := τ) y v hy)) (ny : y ∉ Wl.drop (n + 1)) (U : Valuation τ sig Val) :
    after l U (Proc.devRef .tc y) = v :=
  read_nullary hl (List.Forall₂.nil : Writes [] []) n hop (by rwa [List.append_nil]) U

/-- At the end of a single-assignment line, a one-operand operation's buffer holds its function of what the operand
    holds. -/
theorem read0_unary (hl : Writes l Wl) (n : Nat) {x y : Ref sig .tc} {f : x.ty.Contents Val → y.ty.Contents Val} {hx hy}
    (hop : l[n]? = some (unary (τ := τ) x y f hx hy)) (nx : x ∉ Wl.drop n) (ny : y ∉ Wl.drop (n + 1))
    (U : Valuation τ sig Val) :
    after l U (Proc.devRef .tc y) = f (after l U (Proc.devRef .tc x)) :=
  read_unary hl (List.Forall₂.nil : Writes [] []) n hop (by rwa [List.append_nil]) (by rwa [List.append_nil]) U

/-- The same for two operands. -/
theorem read0_binary (hl : Writes l Wl) (n : Nat) {a b y : Ref sig .tc}
    {f : a.ty.Contents Val → b.ty.Contents Val → y.ty.Contents Val} {ha hb hy}
    (hop : l[n]? = some (binary (τ := τ) a b y f ha hb hy)) (na : a ∉ Wl.drop n) (nb : b ∉ Wl.drop n)
    (ny : y ∉ Wl.drop (n + 1)) (U : Valuation τ sig Val) :
    after l U (Proc.devRef .tc y) = f (after l U (Proc.devRef .tc a)) (after l U (Proc.devRef .tc b)) :=
  read_binary hl (List.Forall₂.nil : Writes [] []) n hop (by rwa [List.append_nil]) (by rwa [List.append_nil])
    (by rwa [List.append_nil]) U

/-- The same for three operands. -/
theorem read0_ternary (hl : Writes l Wl) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n) (na : a ∉ Wl.drop n)
    (nb : b ∉ Wl.drop n) (ny : y ∉ Wl.drop (n + 1)) (U : Valuation τ sig Val) :
    after l U (Proc.devRef .tc y)
      = f (after l U (Proc.devRef .tc c)) (after l U (Proc.devRef .tc a)) (after l U (Proc.devRef .tc b)) :=
  read_ternary hl (List.Forall₂.nil : Writes [] []) n hop (by rwa [List.append_nil]) (by rwa [List.append_nil])
    (by rwa [List.append_nil]) (by rwa [List.append_nil]) U

end Read

/-- The k-th operation writes the k-th buffer of the list. -/
theorem ops_writes {F : FTy → Type} [FloatOps F] : Writes (τ := τ) (ops (F := F)) written := by
  repeat (first | exact List.Forall₂.nil | refine List.Forall₂.cons rfl ?_)

/-- What buffer x holds once the operations have run from contents V. -/
abbrev val (V : Valuation τ sig (Elt Ideal)) (x : Ref sig .tc) : (Proc.devRef (τ := τ) .tc x).ty.Contents (Elt Ideal) :=
  after (ops (F := Ideal)) V (Proc.devRef .tc x)

variable (V : Valuation τ sig (Elt Ideal))

/-! ## The arguments: written by no operation -/
theorem s_arg0 : val V main_arg0 = V (Proc.devRef .tc main_arg0) :=
  after_of_not_mem ops_writes (by decide) V
theorem s_arg1 : val V main_arg1 = V (Proc.devRef .tc main_arg1) :=
  after_of_not_mem ops_writes (by decide) V
theorem s_arg2 : val V main_arg2 = V (Proc.devRef .tc main_arg2) :=
  after_of_not_mem ops_writes (by decide) V
theorem s_arg3 : val V main_arg3 = V (Proc.devRef .tc main_arg3) :=
  after_of_not_mem ops_writes (by decide) V
theorem s_arg4 : val V main_arg4 = V (Proc.devRef .tc main_arg4) :=
  after_of_not_mem ops_writes (by decide) V
theorem s_arg5 : val V main_arg5 = V (Proc.devRef .tc main_arg5) :=
  after_of_not_mem ops_writes (by decide) V
theorem s_arg6 : val V main_arg6 = V (Proc.devRef .tc main_arg6) :=
  after_of_not_mem ops_writes (by decide) V
theorem s_arg7 : val V main_arg7 = V (Proc.devRef .tc main_arg7) :=
  after_of_not_mem ops_writes (by decide) V
theorem s_arg8 : val V main_arg8 = V (Proc.devRef .tc main_arg8) :=
  after_of_not_mem ops_writes (by decide) V
theorem s_arg9 : val V main_arg9 = V (Proc.devRef .tc main_arg9) :=
  after_of_not_mem ops_writes (by decide) V
theorem s_arg10 : val V main_arg10 = V (Proc.devRef .tc main_arg10) :=
  after_of_not_mem ops_writes (by decide) V
theorem s_arg11 : val V main_arg11 = V (Proc.devRef .tc main_arg11) :=
  after_of_not_mem ops_writes (by decide) V

/-! ## The operations, in order -/

theorem rd_0 : val V main_call0_cst = (constant (F := Ideal) S_ .f32 0x00000000#32) :=
  read0_nullary ops_writes 0 rfl (by decide) V
theorem rd_1 : val V main_call0_v0 = (broadcastInDim S10000x128 ![] bcast_S_S10000x128 : (⟨S_, .f32⟩ : BufTy).Contents (Elt Ideal) → (⟨S10000x128, .f32⟩ : BufTy).Contents (Elt Ideal)) (val V main_call0_cst) :=
  read0_unary ops_writes 1 rfl (by decide) (by decide) V
theorem rd_2 : val V main_v0 = @maximumf Ideal _ S10000x128 .f32 (val V main_arg0) (val V main_call0_v0) :=
  read0_binary ops_writes 2 rfl (by decide) (by decide) (by decide) V
theorem rd_3 : val V main_v1 = @Host.dotGeneral Ideal _ S10000x128 S128x128 S10000x128 .f32 .f32 dot_S10000x128_S128x128_S10000x128_1_0_0_1_n_n none (val V main_v0) (val V main_arg2) :=
  read0_binary ops_writes 3 rfl (by decide) (by decide) (by decide) V
theorem rd_4 : val V main_v2 = @Host.dotGeneral Ideal _ S10000x10000 S10000x128 S10000x128 .f32 .f32 dot_S10000x10000_S10000x128_S10000x128_1_0_0_1_n_n none (val V main_arg1) (val V main_v1) :=
  read0_binary ops_writes 4 rfl (by decide) (by decide) (by decide) V
theorem rd_5 : val V main_v3 = (broadcastInDim S1x128 ![1] bcast_S128_S1x128_1 : (⟨S128, .f32⟩ : BufTy).Contents (Elt Ideal) → (⟨S1x128, .f32⟩ : BufTy).Contents (Elt Ideal)) (val V main_arg3) :=
  read0_unary ops_writes 5 rfl (by decide) (by decide) V
theorem rd_6 : val V main_v4 = (broadcastInDim S10000x128 ![0, 1] bcast_S1x128_S10000x128_0_1 : (⟨S1x128, .f32⟩ : BufTy).Contents (Elt Ideal) → (⟨S10000x128, .f32⟩ : BufTy).Contents (Elt Ideal)) (val V main_v3) :=
  read0_unary ops_writes 6 rfl (by decide) (by decide) V
theorem rd_7 : val V main_v5 = @addf Ideal _ S10000x128 .f32 (val V main_v2) (val V main_v4) :=
  read0_binary ops_writes 7 rfl (by decide) (by decide) (by decide) V
theorem rd_8 : val V main_call1_cst = (constant (F := Ideal) S_ .f32 0x00000000#32) :=
  read0_nullary ops_writes 8 rfl (by decide) V
theorem rd_9 : val V main_call1_v0 = (broadcastInDim S10000x128 ![] bcast_S_S10000x128 : (⟨S_, .f32⟩ : BufTy).Contents (Elt Ideal) → (⟨S10000x128, .f32⟩ : BufTy).Contents (Elt Ideal)) (val V main_call1_cst) :=
  read0_unary ops_writes 9 rfl (by decide) (by decide) V
theorem rd_10 : val V main_v6 = @maximumf Ideal _ S10000x128 .f32 (val V main_v5) (val V main_call1_v0) :=
  read0_binary ops_writes 10 rfl (by decide) (by decide) (by decide) V
theorem rd_11 : val V main_call2_cst = (constant (F := Ideal) S_ .f32 0x00000000#32) :=
  read0_nullary ops_writes 11 rfl (by decide) V
theorem rd_12 : val V main_call2_v0 = (broadcastInDim S10000x128 ![] bcast_S_S10000x128 : (⟨S_, .f32⟩ : BufTy).Contents (Elt Ideal) → (⟨S10000x128, .f32⟩ : BufTy).Contents (Elt Ideal)) (val V main_call2_cst) :=
  read0_unary ops_writes 12 rfl (by decide) (by decide) V
theorem rd_13 : val V main_v7 = @maximumf Ideal _ S10000x128 .f32 (val V main_v6) (val V main_call2_v0) :=
  read0_binary ops_writes 13 rfl (by decide) (by decide) (by decide) V
theorem rd_14 : val V main_v8 = @Host.dotGeneral Ideal _ S10000x128 S128x128 S10000x128 .f32 .f32 dot_S10000x128_S128x128_S10000x128_1_0_0_1_n_n none (val V main_v7) (val V main_arg4) :=
  read0_binary ops_writes 14 rfl (by decide) (by decide) (by decide) V
theorem rd_15 : val V main_v9 = @Host.dotGeneral Ideal _ S10000x10000 S10000x128 S10000x128 .f32 .f32 dot_S10000x10000_S10000x128_S10000x128_1_0_0_1_n_n none (val V main_arg1) (val V main_v8) :=
  read0_binary ops_writes 15 rfl (by decide) (by decide) (by decide) V
theorem rd_16 : val V main_v10 = (broadcastInDim S1x128 ![1] bcast_S128_S1x128_1 : (⟨S128, .f32⟩ : BufTy).Contents (Elt Ideal) → (⟨S1x128, .f32⟩ : BufTy).Contents (Elt Ideal)) (val V main_arg5) :=
  read0_unary ops_writes 16 rfl (by decide) (by decide) V
theorem rd_17 : val V main_v11 = (broadcastInDim S10000x128 ![0, 1] bcast_S1x128_S10000x128_0_1 : (⟨S1x128, .f32⟩ : BufTy).Contents (Elt Ideal) → (⟨S10000x128, .f32⟩ : BufTy).Contents (Elt Ideal)) (val V main_v10) :=
  read0_unary ops_writes 17 rfl (by decide) (by decide) V
theorem rd_18 : val V main_v12 = @addf Ideal _ S10000x128 .f32 (val V main_v9) (val V main_v11) :=
  read0_binary ops_writes 18 rfl (by decide) (by decide) (by decide) V
theorem rd_19 : val V main_call3_cst = (constant (F := Ideal) S_ .f32 0x00000000#32) :=
  read0_nullary ops_writes 19 rfl (by decide) V
theorem rd_20 : val V main_call3_v0 = (broadcastInDim S10000x128 ![] bcast_S_S10000x128 : (⟨S_, .f32⟩ : BufTy).Contents (Elt Ideal) → (⟨S10000x128, .f32⟩ : BufTy).Contents (Elt Ideal)) (val V main_call3_cst) :=
  read0_unary ops_writes 20 rfl (by decide) (by decide) V
theorem rd_21 : val V main_call3_v1 = @cmpf Ideal _ S10000x128 .f32 .ogt (val V main_v12) (val V main_call3_v0) :=
  read0_binary ops_writes 21 rfl (by decide) (by decide) (by decide) V
theorem rd_22 : val V main_call3_cst_0 = (constant (F := Ideal) S_ .f32 0x00000000#32) :=
  read0_nullary ops_writes 22 rfl (by decide) V
theorem rd_23 : val V main_call3_v2 = (broadcastInDim S10000x128 ![] bcast_S_S10000x128 : (⟨S_, .f32⟩ : BufTy).Contents (Elt Ideal) → (⟨S10000x128, .f32⟩ : BufTy).Contents (Elt Ideal)) (val V main_call3_cst_0) :=
  read0_unary ops_writes 23 rfl (by decide) (by decide) V
theorem rd_24 : val V main_call3_v3 = @cmpf Ideal _ S10000x128 .f32 .ogt (val V main_v12) (val V main_call3_v2) :=
  read0_binary ops_writes 24 rfl (by decide) (by decide) (by decide) V
theorem rd_25 : val V main_call3_cst_1 = (constant (F := Ideal) S_ .f32 0x00000000#32) :=
  read0_nullary ops_writes 25 rfl (by decide) V
theorem rd_26 : val V main_call3_call0_v0 = (id : (⟨S_, .f32⟩ : BufTy).Contents (Elt Ideal) → (⟨S_, .f32⟩ : BufTy).Contents (Elt Ideal)) (val V main_call3_cst_1) :=
  read0_unary ops_writes 26 rfl (by decide) (by decide) V
theorem rd_27 : val V main_call3_call0_v1 = (broadcastInDim S10000x128 ![] bcast_S_S10000x128 : (⟨S_, .f32⟩ : BufTy).Contents (Elt Ideal) → (⟨S10000x128, .f32⟩ : BufTy).Contents (Elt Ideal)) (val V main_call3_call0_v0) :=
  read0_unary ops_writes 27 rfl (by decide) (by decide) V
theorem rd_28 : val V main_call3_v4 = (select : (⟨S10000x128, .i1⟩ : BufTy).Contents (Elt Ideal) → (⟨S10000x128, .f32⟩ : BufTy).Contents (Elt Ideal) → (⟨S10000x128, .f32⟩ : BufTy).Contents (Elt Ideal) → (⟨S10000x128, .f32⟩ : BufTy).Contents (Elt Ideal)) (val V main_call3_v3) (val V main_call3_call0_v1) (val V main_v12) :=
  read0_ternary ops_writes 28 rfl (by decide) (by decide) (by decide) (by decide) V
theorem rd_29 : val V main_call3_v5 = @Host.expm1 Ideal _ S10000x128 .f32 (val V main_call3_v4) :=
  read0_unary ops_writes 29 rfl (by decide) (by decide) V
theorem rd_30 : val V main_call3_cst_2 = (constant (F := Ideal) S_ .f32 0x3F800000#32) :=
  read0_nullary ops_writes 30 rfl (by decide) V
theorem rd_31 : val V main_call3_v6 = (broadcastInDim S10000x128 ![] bcast_S_S10000x128 : (⟨S_, .f32⟩ : BufTy).Contents (Elt Ideal) → (⟨S10000x128, .f32⟩ : BufTy).Contents (Elt Ideal)) (val V main_call3_cst_2) :=
  read0_unary ops_writes 31 rfl (by decide) (by decide) V
theorem rd_32 : val V main_call3_v7 = @mulf Ideal _ S10000x128 .f32 (val V main_call3_v6) (val V main_call3_v5) :=
  read0_binary ops_writes 32 rfl (by decide) (by decide) (by decide) V
theorem rd_33 : val V main_v13 = (select : (⟨S10000x128, .i1⟩ : BufTy).Contents (Elt Ideal) → (⟨S10000x128, .f32⟩ : BufTy).Contents (Elt Ideal) → (⟨S10000x128, .f32⟩ : BufTy).Contents (Elt Ideal) → (⟨S10000x128, .f32⟩ : BufTy).Contents (Elt Ideal)) (val V main_call3_v1) (val V main_v12) (val V main_call3_v7) :=
  read0_ternary ops_writes 33 rfl (by decide) (by decide) (by decide) (by decide) V
theorem rd_34 : val V main_v14 = @addf Ideal _ S10000x128 .f32 (val V main_v13) (val V main_v6) :=
  read0_binary ops_writes 34 rfl (by decide) (by decide) (by decide) V
theorem rd_35 : val V main_call4_cst = (constant (F := Ideal) S_ .f32 0x00000000#32) :=
  read0_nullary ops_writes 35 rfl (by decide) V
theorem rd_36 : val V main_call4_v0 = (broadcastInDim S10000x128 ![] bcast_S_S10000x128 : (⟨S_, .f32⟩ : BufTy).Contents (Elt Ideal) → (⟨S10000x128, .f32⟩ : BufTy).Contents (Elt Ideal)) (val V main_call4_cst) :=
  read0_unary ops_writes 36 rfl (by decide) (by decide) V
theorem rd_37 : val V main_v15 = @maximumf Ideal _ S10000x128 .f32 (val V main_v14) (val V main_call4_v0) :=
  read0_binary ops_writes 37 rfl (by decide) (by decide) (by decide) V
theorem rd_38 : val V main_v16 = @Host.dotGeneral Ideal _ S10000x128 S128x128 S10000x128 .f32 .f32 dot_S10000x128_S128x128_S10000x128_1_0_0_1_n_n none (val V main_v15) (val V main_arg6) :=
  read0_binary ops_writes 38 rfl (by decide) (by decide) (by decide) V
theorem rd_39 : val V main_v17 = @Host.dotGeneral Ideal _ S10000x10000 S10000x128 S10000x128 .f32 .f32 dot_S10000x10000_S10000x128_S10000x128_1_0_0_1_n_n none (val V main_arg1) (val V main_v16) :=
  read0_binary ops_writes 39 rfl (by decide) (by decide) (by decide) V
theorem rd_40 : val V main_v18 = (broadcastInDim S1x128 ![1] bcast_S128_S1x128_1 : (⟨S128, .f32⟩ : BufTy).Contents (Elt Ideal) → (⟨S1x128, .f32⟩ : BufTy).Contents (Elt Ideal)) (val V main_arg7) :=
  read0_unary ops_writes 40 rfl (by decide) (by decide) V
theorem rd_41 : val V main_v19 = (broadcastInDim S10000x128 ![0, 1] bcast_S1x128_S10000x128_0_1 : (⟨S1x128, .f32⟩ : BufTy).Contents (Elt Ideal) → (⟨S10000x128, .f32⟩ : BufTy).Contents (Elt Ideal)) (val V main_v18) :=
  read0_unary ops_writes 41 rfl (by decide) (by decide) V
theorem rd_42 : val V main_v20 = @addf Ideal _ S10000x128 .f32 (val V main_v17) (val V main_v19) :=
  read0_binary ops_writes 42 rfl (by decide) (by decide) (by decide) V
theorem rd_43 : val V main_v21 = @Host.negf Ideal _ S10000x128 .f32 (val V main_v20) :=
  read0_unary ops_writes 43 rfl (by decide) (by decide) V
theorem rd_44 : val V main_v22 = @Host.exp Ideal _ S10000x128 .f32 (val V main_v21) :=
  read0_unary ops_writes 44 rfl (by decide) (by decide) V
theorem rd_45 : val V main_cst = (constant (F := Ideal) S_ .f32 0x3F800000#32) :=
  read0_nullary ops_writes 45 rfl (by decide) V
theorem rd_46 : val V main_v23 = (broadcastInDim S10000x128 ![] bcast_S_S10000x128 : (⟨S_, .f32⟩ : BufTy).Contents (Elt Ideal) → (⟨S10000x128, .f32⟩ : BufTy).Contents (Elt Ideal)) (val V main_cst) :=
  read0_unary ops_writes 46 rfl (by decide) (by decide) V
theorem rd_47 : val V main_v24 = @addf Ideal _ S10000x128 .f32 (val V main_v23) (val V main_v22) :=
  read0_binary ops_writes 47 rfl (by decide) (by decide) (by decide) V
theorem rd_48 : val V main_cst_0 = (constant (F := Ideal) S_ .f32 0x3F800000#32) :=
  read0_nullary ops_writes 48 rfl (by decide) V
theorem rd_49 : val V main_v25 = (broadcastInDim S10000x128 ![] bcast_S_S10000x128 : (⟨S_, .f32⟩ : BufTy).Contents (Elt Ideal) → (⟨S10000x128, .f32⟩ : BufTy).Contents (Elt Ideal)) (val V main_cst_0) :=
  read0_unary ops_writes 49 rfl (by decide) (by decide) V
theorem rd_50 : val V main_v26 = @Host.divf Ideal _ S10000x128 .f32 (val V main_v25) (val V main_v24) :=
  read0_binary ops_writes 50 rfl (by decide) (by decide) (by decide) V
theorem rd_51 : val V main_v27 = @addf Ideal _ S10000x128 .f32 (val V main_v26) (val V main_v13) :=
  read0_binary ops_writes 51 rfl (by decide) (by decide) (by decide) V
theorem rd_52 : val V main_call5_cst = (constant (F := Ideal) S_ .f32 0x00000000#32) :=
  read0_nullary ops_writes 52 rfl (by decide) V
theorem rd_53 : val V main_call5_v0 = (broadcastInDim S10000x128 ![] bcast_S_S10000x128 : (⟨S_, .f32⟩ : BufTy).Contents (Elt Ideal) → (⟨S10000x128, .f32⟩ : BufTy).Contents (Elt Ideal)) (val V main_call5_cst) :=
  read0_unary ops_writes 53 rfl (by decide) (by decide) V
theorem rd_54 : val V main_v28 = @maximumf Ideal _ S10000x128 .f32 (val V main_v27) (val V main_call5_v0) :=
  read0_binary ops_writes 54 rfl (by decide) (by decide) (by decide) V
theorem rd_55 : val V main_v29 = @Host.dotGeneral Ideal _ S10000x128 S128x128 S10000x128 .f32 .f32 dot_S10000x128_S128x128_S10000x128_1_0_0_1_n_n none (val V main_v28) (val V main_arg8) :=
  read0_binary ops_writes 55 rfl (by decide) (by decide) (by decide) V
theorem rd_56 : val V main_v30 = @Host.dotGeneral Ideal _ S10000x10000 S10000x128 S10000x128 .f32 .f32 dot_S10000x10000_S10000x128_S10000x128_1_0_0_1_n_n none (val V main_arg1) (val V main_v29) :=
  read0_binary ops_writes 56 rfl (by decide) (by decide) (by decide) V
theorem rd_57 : val V main_v31 = (broadcastInDim S1x128 ![1] bcast_S128_S1x128_1 : (⟨S128, .f32⟩ : BufTy).Contents (Elt Ideal) → (⟨S1x128, .f32⟩ : BufTy).Contents (Elt Ideal)) (val V main_arg9) :=
  read0_unary ops_writes 57 rfl (by decide) (by decide) V
theorem rd_58 : val V main_v32 = (broadcastInDim S10000x128 ![0, 1] bcast_S1x128_S10000x128_0_1 : (⟨S1x128, .f32⟩ : BufTy).Contents (Elt Ideal) → (⟨S10000x128, .f32⟩ : BufTy).Contents (Elt Ideal)) (val V main_v31) :=
  read0_unary ops_writes 58 rfl (by decide) (by decide) V
theorem rd_59 : val V main_v33 = @addf Ideal _ S10000x128 .f32 (val V main_v30) (val V main_v32) :=
  read0_binary ops_writes 59 rfl (by decide) (by decide) (by decide) V
theorem rd_60 : val V main_call6_cst = (constant (F := Ideal) S_ .f32 0x00000000#32) :=
  read0_nullary ops_writes 60 rfl (by decide) V
theorem rd_61 : val V main_call6_v0 = (broadcastInDim S10000x128 ![] bcast_S_S10000x128 : (⟨S_, .f32⟩ : BufTy).Contents (Elt Ideal) → (⟨S10000x128, .f32⟩ : BufTy).Contents (Elt Ideal)) (val V main_call6_cst) :=
  read0_unary ops_writes 61 rfl (by decide) (by decide) V
theorem rd_62 : val V main_v34 = @maximumf Ideal _ S10000x128 .f32 (val V main_v33) (val V main_call6_v0) :=
  read0_binary ops_writes 62 rfl (by decide) (by decide) (by decide) V
theorem rd_63 : val V main_v35 = @addf Ideal _ S10000x128 .f32 (val V main_v34) (val V main_v6) :=
  read0_binary ops_writes 63 rfl (by decide) (by decide) (by decide) V
theorem rd_64 : val V main_v36 = @addf Ideal _ S10000x128 .f32 (val V main_v35) (val V main_v26) :=
  read0_binary ops_writes 64 rfl (by decide) (by decide) (by decide) V
theorem rd_65 : val V main_call7_cst = (constant (F := Ideal) S_ .f32 0x00000000#32) :=
  read0_nullary ops_writes 65 rfl (by decide) V
theorem rd_66 : val V main_call7_v0 = (broadcastInDim S10000x128 ![] bcast_S_S10000x128 : (⟨S_, .f32⟩ : BufTy).Contents (Elt Ideal) → (⟨S10000x128, .f32⟩ : BufTy).Contents (Elt Ideal)) (val V main_call7_cst) :=
  read0_unary ops_writes 66 rfl (by decide) (by decide) V
theorem rd_67 : val V main_v37 = @maximumf Ideal _ S10000x128 .f32 (val V main_v36) (val V main_call7_v0) :=
  read0_binary ops_writes 67 rfl (by decide) (by decide) (by decide) V
theorem rd_68 : val V main_v38 = @Host.dotGeneral Ideal _ S10000x128 S128x128 S10000x128 .f32 .f32 dot_S10000x128_S128x128_S10000x128_1_0_0_1_n_n none (val V main_v37) (val V main_arg10) :=
  read0_binary ops_writes 68 rfl (by decide) (by decide) (by decide) V
theorem rd_69 : val V main_v39 = @Host.dotGeneral Ideal _ S10000x10000 S10000x128 S10000x128 .f32 .f32 dot_S10000x10000_S10000x128_S10000x128_1_0_0_1_n_n none (val V main_arg1) (val V main_v38) :=
  read0_binary ops_writes 69 rfl (by decide) (by decide) (by decide) V
theorem rd_70 : val V main_v40 = (broadcastInDim S1x128 ![1] bcast_S128_S1x128_1 : (⟨S128, .f32⟩ : BufTy).Contents (Elt Ideal) → (⟨S1x128, .f32⟩ : BufTy).Contents (Elt Ideal)) (val V main_arg11) :=
  read0_unary ops_writes 70 rfl (by decide) (by decide) V
theorem rd_71 : val V main_v41 = (broadcastInDim S10000x128 ![0, 1] bcast_S1x128_S10000x128_0_1 : (⟨S1x128, .f32⟩ : BufTy).Contents (Elt Ideal) → (⟨S10000x128, .f32⟩ : BufTy).Contents (Elt Ideal)) (val V main_v40) :=
  read0_unary ops_writes 71 rfl (by decide) (by decide) V
theorem rd_72 : val V main_v42 = @addf Ideal _ S10000x128 .f32 (val V main_v39) (val V main_v41) :=
  read0_binary ops_writes 72 rfl (by decide) (by decide) (by decide) V
theorem rd_73 : val V main_call8_cst = (constant (F := Ideal) S_ .f32 0x00000000#32) :=
  read0_nullary ops_writes 73 rfl (by decide) V
theorem rd_74 : val V main_call8_v0 = (broadcastInDim S10000x128 ![] bcast_S_S10000x128 : (⟨S_, .f32⟩ : BufTy).Contents (Elt Ideal) → (⟨S10000x128, .f32⟩ : BufTy).Contents (Elt Ideal)) (val V main_call8_cst) :=
  read0_unary ops_writes 74 rfl (by decide) (by decide) V
theorem rd_75 : val V main_call8_v1 = @cmpf Ideal _ S10000x128 .f32 .ogt (val V main_v42) (val V main_call8_v0) :=
  read0_binary ops_writes 75 rfl (by decide) (by decide) (by decide) V
theorem rd_76 : val V main_call8_cst_0 = (constant (F := Ideal) S_ .f32 0x00000000#32) :=
  read0_nullary ops_writes 76 rfl (by decide) V
theorem rd_77 : val V main_call8_v2 = (broadcastInDim S10000x128 ![] bcast_S_S10000x128 : (⟨S_, .f32⟩ : BufTy).Contents (Elt Ideal) → (⟨S10000x128, .f32⟩ : BufTy).Contents (Elt Ideal)) (val V main_call8_cst_0) :=
  read0_unary ops_writes 77 rfl (by decide) (by decide) V
theorem rd_78 : val V main_call8_v3 = @cmpf Ideal _ S10000x128 .f32 .ogt (val V main_v42) (val V main_call8_v2) :=
  read0_binary ops_writes 78 rfl (by decide) (by decide) (by decide) V
theorem rd_79 : val V main_call8_cst_1 = (constant (F := Ideal) S_ .f32 0x00000000#32) :=
  read0_nullary ops_writes 79 rfl (by decide) V
theorem rd_80 : val V main_call8_call0_v0 = (id : (⟨S_, .f32⟩ : BufTy).Contents (Elt Ideal) → (⟨S_, .f32⟩ : BufTy).Contents (Elt Ideal)) (val V main_call8_cst_1) :=
  read0_unary ops_writes 80 rfl (by decide) (by decide) V
theorem rd_81 : val V main_call8_call0_v1 = (broadcastInDim S10000x128 ![] bcast_S_S10000x128 : (⟨S_, .f32⟩ : BufTy).Contents (Elt Ideal) → (⟨S10000x128, .f32⟩ : BufTy).Contents (Elt Ideal)) (val V main_call8_call0_v0) :=
  read0_unary ops_writes 81 rfl (by decide) (by decide) V
theorem rd_82 : val V main_call8_v4 = (select : (⟨S10000x128, .i1⟩ : BufTy).Contents (Elt Ideal) → (⟨S10000x128, .f32⟩ : BufTy).Contents (Elt Ideal) → (⟨S10000x128, .f32⟩ : BufTy).Contents (Elt Ideal) → (⟨S10000x128, .f32⟩ : BufTy).Contents (Elt Ideal)) (val V main_call8_v3) (val V main_call8_call0_v1) (val V main_v42) :=
  read0_ternary ops_writes 82 rfl (by decide) (by decide) (by decide) (by decide) V
theorem rd_83 : val V main_call8_v5 = @Host.expm1 Ideal _ S10000x128 .f32 (val V main_call8_v4) :=
  read0_unary ops_writes 83 rfl (by decide) (by decide) V
theorem rd_84 : val V main_call8_cst_2 = (constant (F := Ideal) S_ .f32 0x3F800000#32) :=
  read0_nullary ops_writes 84 rfl (by decide) V
theorem rd_85 : val V main_call8_v6 = (broadcastInDim S10000x128 ![] bcast_S_S10000x128 : (⟨S_, .f32⟩ : BufTy).Contents (Elt Ideal) → (⟨S10000x128, .f32⟩ : BufTy).Contents (Elt Ideal)) (val V main_call8_cst_2) :=
  read0_unary ops_writes 85 rfl (by decide) (by decide) V
theorem rd_86 : val V main_call8_v7 = @mulf Ideal _ S10000x128 .f32 (val V main_call8_v6) (val V main_call8_v5) :=
  read0_binary ops_writes 86 rfl (by decide) (by decide) (by decide) V
theorem rd_87 : val V main_v43 = (select : (⟨S10000x128, .i1⟩ : BufTy).Contents (Elt Ideal) → (⟨S10000x128, .f32⟩ : BufTy).Contents (Elt Ideal) → (⟨S10000x128, .f32⟩ : BufTy).Contents (Elt Ideal) → (⟨S10000x128, .f32⟩ : BufTy).Contents (Elt Ideal)) (val V main_call8_v1) (val V main_v42) (val V main_call8_v7) :=
  read0_ternary ops_writes 87 rfl (by decide) (by decide) (by decide) (by decide) V

end Cert.ReferenceIdeal.RefRun

end
-- ==== Proof.RefRun.HostOps.lean ====
/-
  The reference's spellings of the network's stages, as functions of whole arrays over the extended reals: the maximum
  with a broadcast zero is relu; the host's product plus the bias vector laid as a row and repeated down the rows is the
  affine map; one over one plus the exponential of the negation is the logistic function; and the exponential unit,
  spelled with two comparisons against zero, a selection of min(h, 0), its exponential minus one times one, and a final
  selection, is h for h > 0 and exp(min h 0) − 1 otherwise. No law used asks for finiteness.
-/
import Idealize.ShloMosaic.PureOps.Ideal.Laws
import Idealize.ShloMosaic.Lib.ValueIdx
import Idealize.ShloMosaic.Lib.IdealHost
import Idealize.ShloMosaic.Lib.Pipeline.Value
import proofs.«128402_g50225347559984_cont_8to1_c_967_17_alg».proof.Proof.LibMatProd
import proofs.«128402_g50225347559984_cont_8to1_c_967_17_alg».proof.Proof.LibRowVector
import proofs.«128402_g50225347559984_cont_8to1_c_967_17_alg».proof.Proof.Net

open scoped BigOperators

noncomputable section

namespace Cert.ReferenceIdeal.RefRun

open Idealize.ShloMosaic Idealize.ShloMosaic.ValueIdx Cert.Lib.MatProd Cert.Lib.RowVector

variable {r k n : Nat}

/-- A broadcast of the zero word reads the extended real zero everywhere. -/
theorem bcast_zero_apply {s : Shape} (h3 : (⟨0, ![]⟩ : Shape).BroadcastsInDim s ![]) (i : s.Idx) :
    broadcastInDim s ![] h3 (constant (F := Ideal) ⟨0, ![]⟩ .f32 0x00000000#32) i = (0 : EReal) := by
  rw [bcastInDim_scalar_apply, constant_apply, Ideal.ofBits_zero_f32]

/-- A broadcast of the word of 1.0 reads the extended real one everywhere. -/
theorem bcast_one_apply {s : Shape} (h3 : (⟨0, ![]⟩ : Shape).BroadcastsInDim s ![]) (i : s.Idx) :
    broadcastInDim s ![] h3 (constant (F := Ideal) ⟨0, ![]⟩ .f32 0x3F800000#32) i = (1 : EReal) := by
  rw [bcastInDim_scalar_apply, constant_apply, Ideal.ofBits_one_f32]

/-- The maximum with a broadcast zero is relu. -/
theorem host_relu (X : FVec Ideal ⟨2, ![r, n]⟩ .f32) (h3 : (⟨0, ![]⟩ : Shape).BroadcastsInDim ⟨2, ![r, n]⟩ ![]) :
    maximumf X (broadcastInDim ⟨2, ![r, n]⟩ ![] h3 (constant (F := Ideal) ⟨0, ![]⟩ .f32 0x00000000#32)) = Cert.Net.relu X := by
  funext i
  rw [maximumf_apply, bcast_zero_apply]
  rfl

/-- The host's plain product is the matrix product. -/
theorem host_matProd (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) :
    Host.dotGeneral d none X W = matProd X W :=
  dotGeneral_eq_matProd d hlc hrc hln hrn hlb hrb none _ X W

/-- A matrix plus the bias vector laid as a row and repeated down the rows. -/
theorem host_bias (M : FVec Ideal ⟨2, ![r, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) (p : Fin r) (q : Fin n) :
    addf M (broadcastInDim ⟨2, ![r, n]⟩ ![0, 1] h2 (broadcastInDim ⟨2, ![1, n]⟩ ![1] h1 bv)) (ix2 p q)
      = M (ix2 p q) + asRow bv (ix2 0 q) := by
  rw [addf_apply, bcastInDim_rows_apply, bcastInDim_eq_asRow]

/-- The host's affine layer: A·Y plus the bias row. -/
theorem host_aff (A : FVec Ideal ⟨2, ![r, k]⟩ .f32) (Y : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (matProd A Y) (broadcastInDim ⟨2, ![r, n]⟩ ![0, 1] h2 (broadcastInDim ⟨2, ![1, n]⟩ ![1] h1 bv))
      = Cert.Net.aff A Y (asRow bv) := by
  funext i
  obtain ⟨p, q, rfl⟩ : ∃ (p : Fin r) (q : Fin n), i = ix2 p q := ⟨i 0, i 1, eq_ix2 i⟩
  rw [host_bias, Cert.Net.aff_apply]

/-- The entrywise sum. -/
theorem host_plus (X Y : FVec Ideal ⟨2, ![r, n]⟩ .f32) : addf X Y = Cert.Net.plus X Y := rfl

/-- One over one plus the exponential of the negation is the logistic function. -/
theorem host_sig (X : FVec Ideal ⟨2, ![r, n]⟩ .f32) (h3 : (⟨0, ![]⟩ : Shape).BroadcastsInDim ⟨2, ![r, n]⟩ ![]) :
    Host.divf (broadcastInDim ⟨2, ![r, n]⟩ ![] h3 (constant (F := Ideal) ⟨0, ![]⟩ .f32 0x3F800000#32))
      (addf (broadcastInDim ⟨2, ![r, n]⟩ ![] h3 (constant (F := Ideal) ⟨0, ![]⟩ .f32 0x3F800000#32))
        (Host.exp (Host.negf X))) = Cert.Net.sig X := by
  funext i
  show Ideal.div (broadcastInDim ⟨2, ![r, n]⟩ ![] h3 (constant (F := Ideal) ⟨0, ![]⟩ .f32 0x3F800000#32) i)
      (broadcastInDim ⟨2, ![r, n]⟩ ![] h3 (constant (F := Ideal) ⟨0, ![]⟩ .f32 0x3F800000#32) i + Ideal.exp (-(X i))) = _
  rw [bcast_one_apply]
  rfl

/-- The exponential unit on one extended real, as the reference selects it. -/
theorem eluS_eq (x : EReal) :
    Scalar.select (Ideal.cmp .ogt x 0) x (1 * (Ideal.exp (Scalar.select (Ideal.cmp .ogt x 0) 0 x) - 1)) = Cert.Net.eluS x := by
  unfold Cert.Net.eluS Scalar.select Ideal.cmp
  by_cases h : (0 : EReal) < x
  · simp [h]
  · have hx : x ≤ 0 := not_lt.mp h
    simp [h, min_eq_left hx]

/-- The reference's exponential unit is elu. -/
theorem host_elu (X : FVec Ideal ⟨2, ![r, n]⟩ .f32) (h3 : (⟨0, ![]⟩ : Shape).BroadcastsInDim ⟨2, ![r, n]⟩ ![]) :
    select (cmpf .ogt X (broadcastInDim ⟨2, ![r, n]⟩ ![] h3 (constant (F := Ideal) ⟨0, ![]⟩ .f32 0x00000000#32))) X
      (mulf (broadcastInDim ⟨2, ![r, n]⟩ ![] h3 (constant (F := Ideal) ⟨0, ![]⟩ .f32 0x3F800000#32))
        (Host.expm1 (select (cmpf .ogt X (broadcastInDim ⟨2, ![r, n]⟩ ![] h3 (constant (F := Ideal) ⟨0, ![]⟩ .f32 0x00000000#32)))
          (broadcastInDim ⟨2, ![r, n]⟩ ![] h3 (constant (F := Ideal) ⟨0, ![]⟩ .f32 0x00000000#32)) X)))
      = Cert.Net.elu X := by
  funext i
  show Scalar.select (Ideal.cmp .ogt (X i) (broadcastInDim ⟨2, ![r, n]⟩ ![] h3 (constant (F := Ideal) ⟨0, ![]⟩ .f32 0x00000000#32) i)) (X i)
      (broadcastInDim ⟨2, ![r, n]⟩ ![] h3 (constant (F := Ideal) ⟨0, ![]⟩ .f32 0x3F800000#32) i
        * (Ideal.exp (Scalar.select (Ideal.cmp .ogt (X i) (broadcastInDim ⟨2, ![r, n]⟩ ![] h3 (constant (F := Ideal) ⟨0, ![]⟩ .f32 0x00000000#32) i))
            (broadcastInDim ⟨2, ![r, n]⟩ ![] h3 (constant (F := Ideal) ⟨0, ![]⟩ .f32 0x00000000#32) i) (X i)) - 1)) = _
  rw [bcast_zero_apply, bcast_one_apply]
  exact eluS_eq (X i)

end Cert.ReferenceIdeal.RefRun

end
-- ==== Proof.RefRun.Value.lean ====
/-
  The straight line's value: stage by stage, what each buffer of the reference holds at the end is the network's stage of
  what the twelve argument buffers held at the start, and so the result buffer holds the network's result.
    y₀ = relu(x)·W₁          o₀ = relu(A·y₀ + b₁)
    y₁ = relu(o₀)·W₂ = o₀·W₂  o₁ = elu (A·y₁ + b₂)
    y₂ = relu(o₁ + o₀)·W₃     o₂ = σ   (A·y₂ + b₃)
    y₃ = relu(o₂ + o₁)·W₄     o₃ = relu(A·y₃ + b₄)
    y₄ = relu((o₃ + o₀) + o₂)·W₅   o₄ = elu (A·y₄ + b₅)
-/
import proofs.«128402_g50225347559984_cont_8to1_c_967_17_alg».proof.Proof.RefRun.Reads
import proofs.«128402_g50225347559984_cont_8to1_c_967_17_alg».proof.Proof.RefRun.HostOps

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.MatProd Cert.Lib.RowVector

/-! ## The reference's spellings at the program's shapes -/

theorem relu_eq (X : FVec Ideal S10000x128 .f32) : maximumf X (broadcastInDim S10000x128 ![] bcast_S_S10000x128 (constant (F := Ideal) S_ .f32 0x00000000#32)) = Cert.Net.relu X :=
  host_relu X _

theorem dotA_eq (X : FVec Ideal S10000x128 .f32) (W : FVec Ideal S128x128 .f32) :
    Host.dotGeneral dot_S10000x128_S128x128_S10000x128_1_0_0_1_n_n none X W = matProd X W :=
  host_matProd dot_S10000x128_S128x128_S10000x128_1_0_0_1_n_n rfl rfl rfl rfl rfl rfl X W

theorem layer_eq (A : FVec Ideal S10000x10000 .f32) (Y : FVec Ideal S10000x128 .f32) (bv : FVec Ideal S128 .f32) :
    addf (Host.dotGeneral dot_S10000x10000_S10000x128_S10000x128_1_0_0_1_n_n none A Y)
        (broadcastInDim S10000x128 ![0, 1] bcast_S1x128_S10000x128_0_1 (broadcastInDim S1x128 ![1] bcast_S128_S1x128_1 bv))
      = Cert.Net.aff A Y (asRow bv) := by
  rw [host_matProd dot_S10000x10000_S10000x128_S10000x128_1_0_0_1_n_n rfl rfl rfl rfl rfl rfl A Y]
  exact host_aff A Y bv _ _

theorem sig_eq (X : FVec Ideal S10000x128 .f32) :
    Host.divf (broadcastInDim S10000x128 ![] bcast_S_S10000x128 (constant (F := Ideal) S_ .f32 0x3F800000#32)) (addf (broadcastInDim S10000x128 ![] bcast_S_S10000x128 (constant (F := Ideal) S_ .f32 0x3F800000#32)) (Host.exp (Host.negf X))) = Cert.Net.sig X :=
  host_sig X _

theorem elu_eq (X : FVec Ideal S10000x128 .f32) :
    select (cmpf .ogt X (broadcastInDim S10000x128 ![] bcast_S_S10000x128 (constant (F := Ideal) S_ .f32 0x00000000#32))) X (mulf (broadcastInDim S10000x128 ![] bcast_S_S10000x128 (constant (F := Ideal) S_ .f32 0x3F800000#32)) (Host.expm1 (select (cmpf .ogt X (broadcastInDim S10000x128 ![] bcast_S_S10000x128 (constant (F := Ideal) S_ .f32 0x00000000#32))) (broadcastInDim S10000x128 ![] bcast_S_S10000x128 (constant (F := Ideal) S_ .f32 0x00000000#32)) X))) = Cert.Net.elu X :=
  host_elu X _

/-! ## The stages -/

/-- The network's inputs read from contents V at the twelve argument buffers. -/
abbrev inp (V : Valuation τ sig (Elt Ideal)) : Cert.Net.Inp :=
  Cert.Net.Inp.ofArgs (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))

variable (V : Valuation τ sig (Elt Ideal))

/-- relu(x). -/
theorem s_v0 : val V main_v0 = Cert.Net.relu (inp V).x := by
  rw [rd_2 V, rd_1 V, rd_0 V, s_arg0 V]
  exact relu_eq _

/-- y₀ = relu(x)·W₁. -/
theorem s_v1 : val V main_v1 = Cert.Net.y0 (inp V) := by
  rw [rd_3 V, s_v0 V, s_arg2 V]
  exact dotA_eq _ _

/-- A·y₀ + b₁. -/
theorem s_v5 : val V main_v5 = Cert.Net.aff (inp V).A (Cert.Net.y0 (inp V)) (inp V).b1 := by
  rw [rd_7 V, rd_6 V, rd_5 V, rd_4 V, s_arg1 V, s_v1 V, s_arg3 V]
  exact layer_eq _ _ _

/-- o₀. -/
theorem s_v6 : val V main_v6 = Cert.Net.o0 (inp V) := by
  rw [rd_10 V, rd_9 V, rd_8 V, s_v5 V]
  exact relu_eq _

/-- relu(o₀), which the reference takes again. -/
theorem s_v7 : val V main_v7 = Cert.Net.relu (Cert.Net.o0 (inp V)) := by
  rw [rd_13 V, rd_12 V, rd_11 V, s_v6 V]
  exact relu_eq _

/-- y₁ = o₀·W₂: the maximum taken twice is taken once. -/
theorem s_v8 : val V main_v8 = Cert.Net.y1 (inp V) := by
  rw [rd_14 V, s_v7 V, s_arg4 V]
  exact (dotA_eq _ _).trans (Cert.Net.y1_relu (inp V))

/-- A·y₁ + b₂. -/
theorem s_v12 : val V main_v12 = Cert.Net.aff (inp V).A (Cert.Net.y1 (inp V)) (inp V).b2 := by
  rw [rd_18 V, rd_17 V, rd_16 V, rd_15 V, s_arg1 V, s_v8 V, s_arg5 V]
  exact layer_eq _ _ _

/-- o₁. -/
theorem s_v13 : val V main_v13 = Cert.Net.o1 (inp V) := by
  rw [rd_33 V, rd_32 V, rd_31 V, rd_30 V, rd_29 V, rd_28 V, rd_27 V, rd_26 V, rd_25 V, rd_24 V, rd_23 V,
    rd_22 V, rd_21 V, rd_20 V, rd_19 V, s_v12 V]
  exact elu_eq _

/-- o₁ + o₀. -/
theorem s_v14 : val V main_v14 = Cert.Net.plus (Cert.Net.o1 (inp V)) (Cert.Net.o0 (inp V)) := by
  rw [rd_34 V, s_v13 V, s_v6 V]
  exact host_plus _ _

/-- relu(o₁ + o₀). -/
theorem s_v15 : val V main_v15 = Cert.Net.relu (Cert.Net.plus (Cert.Net.o1 (inp V)) (Cert.Net.o0 (inp V))) := by
  rw [rd_37 V, rd_36 V, rd_35 V, s_v14 V]
  exact relu_eq _

/-- y₂. -/
theorem s_v16 : val V main_v16 = Cert.Net.y2 (inp V) := by
  rw [rd_38 V, s_v15 V, s_arg6 V]
  exact dotA_eq _ _

/-- A·y₂ + b₃. -/
theorem s_v20 : val V main_v20 = Cert.Net.aff (inp V).A (Cert.Net.y2 (inp V)) (inp V).b3 := by
  rw [rd_42 V, rd_41 V, rd_40 V, rd_39 V, s_arg1 V, s_v16 V, s_arg7 V]
  exact layer_eq _ _ _

/-- o₂. -/
theorem s_v26 : val V main_v26 = Cert.Net.o2 (inp V) := by
  rw [rd_50 V, rd_49 V, rd_48 V, rd_47 V, rd_46 V, rd_45 V, rd_44 V, rd_43 V, s_v20 V]
  exact sig_eq _

/-- o₂ + o₁. -/
theorem s_v27 : val V main_v27 = Cert.Net.plus (Cert.Net.o2 (inp V)) (Cert.Net.o1 (inp V)) := by
  rw [rd_51 V, s_v26 V, s_v13 V]
  exact host_plus _ _

/-- relu(o₂ + o₁). -/
theorem s_v28 : val V main_v28 = Cert.Net.relu (Cert.Net.plus (Cert.Net.o2 (inp V)) (Cert.Net.o1 (inp V))) := by
  rw [rd_54 V, rd_53 V, rd_52 V, s_v27 V]
  exact relu_eq _

/-- y₃. -/
theorem s_v29 : val V main_v29 = Cert.Net.y3 (inp V) := by
  rw [rd_55 V, s_v28 V, s_arg8 V]
  exact dotA_eq _ _

/-- A·y₃ + b₄. -/
theorem s_v33 : val V main_v33 = Cert.Net.aff (inp V).A (Cert.Net.y3 (inp V)) (inp V).b4 := by
  rw [rd_59 V, rd_58 V, rd_57 V, rd_56 V, s_arg1 V, s_v29 V, s_arg9 V]
  exact layer_eq _ _ _

/-- o₃. -/
theorem s_v34 : val V main_v34 = Cert.Net.o3 (inp V) := by
  rw [rd_62 V, rd_61 V, rd_60 V, s_v33 V]
  exact relu_eq _

/-- o₃ + o₀. -/
theorem s_v35 : val V main_v35 = Cert.Net.plus (Cert.Net.o3 (inp V)) (Cert.Net.o0 (inp V)) := by
  rw [rd_63 V, s_v34 V, s_v6 V]
  exact host_plus _ _

/-- (o₃ + o₀) + o₂. -/
theorem s_v36 : val V main_v36 = Cert.Net.plus (Cert.Net.plus (Cert.Net.o3 (inp V)) (Cert.Net.o0 (inp V))) (Cert.Net.o2 (inp V)) := by
  rw [rd_64 V, s_v35 V, s_v26 V]
  exact host_plus _ _

/-- relu((o₃ + o₀) + o₂). -/
theorem s_v37 : val V main_v37 = Cert.Net.relu (Cert.Net.plus (Cert.Net.plus (Cert.Net.o3 (inp V)) (Cert.Net.o0 (inp V))) (Cert.Net.o2 (inp V))) := by
  rw [rd_67 V, rd_66 V, rd_65 V, s_v36 V]
  exact relu_eq _

/-- y₄. -/
theorem s_v38 : val V main_v38 = Cert.Net.y4 (inp V) := by
  rw [rd_68 V, s_v37 V, s_arg10 V]
  exact dotA_eq _ _

/-- A·y₄ + b₅. -/
theorem s_v42 : val V main_v42 = Cert.Net.aff (inp V).A (Cert.Net.y4 (inp V)) (inp V).b5 := by
  rw [rd_72 V, rd_71 V, rd_70 V, rd_69 V, s_arg1 V, s_v38 V, s_arg11 V]
  exact layer_eq _ _ _

/-- o₄, the result. -/
theorem s_v43 : val V main_v43 = Cert.Net.o4 (inp V) := by
  rw [rd_87 V, rd_86 V, rd_85 V, rd_84 V, rd_83 V, rd_82 V, rd_81 V, rd_80 V, rd_79 V, rd_78 V, rd_77 V,
    rd_76 V, rd_75 V, rd_74 V, rd_73 V, s_v42 V]
  exact elu_eq _

/-- Once the operations have run from contents V, the result buffer holds the network's result on what the twelve argument
    buffers held. -/
theorem value : after (ops (F := Ideal)) V (Proc.devRef .tc main_v43)
    = Cert.Net.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  s_v43 V

end Cert.ReferenceIdeal.RefRun

end
-- ==== Proof.RefRun.lean ====
/-
  The reference's run and its value. From any memory with zero counters every weakly fair execution of @main terminates;
  at the end the result buffer holds the five-layer network's result on what the twelve argument buffers held at launch,
  and the twelve argument buffers hold what they held.
-/
import proofs.«128402_g50225347559984_cont_8to1_c_967_17_alg».proof.Proof.RefRun.Ops
import proofs.«128402_g50225347559984_cont_8to1_c_967_17_alg».proof.Proof.RefRun.Reads
import proofs.«128402_g50225347559984_cont_8to1_c_967_17_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

/-- On every device, from any memory with zero counters: every weakly fair execution of @main terminates with the result
    buffer at the network's result on the launch contents of the twelve arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
          = Cert.Net.out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v43).trans (value (launchContents m c)),
      (h c main_arg0).trans (s_arg0 _), (h c main_arg1).trans (s_arg1 _), (h c main_arg2).trans (s_arg2 _), (h c main_arg3).trans (s_arg3 _),
      (h c main_arg4).trans (s_arg4 _), (h c main_arg5).trans (s_arg5 _), (h c main_arg6).trans (s_arg6 _), (h c main_arg7).trans (s_arg7 _),
      (h c main_arg8).trans (s_arg8 _), (h c main_arg9).trans (s_arg9 _), (h c main_arg10).trans (s_arg10 _), (h c main_arg11).trans (s_arg11 _)⟩)
    (run_main m ρ)

/-- The same run with only the arguments' part of the conclusion: @main terminates and the twelve argument arrays end
    unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.ReferenceIdeal.RefRun

end
-- ==== Proof.lean ====
/-
  The certificate's proof: the kernel program and the reference compute one function on the extended reals.

  The network has five layers over an n × n adjacency A (n = 10000) and n × d features (d = 128):
    y₀ = relu(x)·W₁, o₀ = relu(A·y₀ + b₁);  y₁ = o₀·W₂, o₁ = elu(A·y₁ + b₂);  y₂ = relu(o₁ + o₀)·W₃, o₂ = σ(A·y₂ + b₃);
    y₃ = relu(o₂ + o₁)·W₄, o₃ = relu(A·y₃ + b₄);  y₄ = relu((o₃ + o₀) + o₂)·W₅, o₄ = elu(A·y₄ + b₅)
  (Net.lean). The reference computes it layer by layer on whole arrays (RefRun). The kernel program computes y₀ in blocks
  of 2000 rows, then o₀, a copy of A and y₁ in blocks of 400 rows, then layers 1–4 in one launch over a 4 × 25 grid that
  keeps y and the intermediate results in four buffers across grid points (KI/Region0, Region1, Region2; their values in
  KI/Value01, Value2; the run in KI/Run; the composition in KI/Value). The laws that join the two sides hold on every
  extended real: max(max(h, 0), 0) = max(h, 0) (the second layer's input), 1·h = h and exp(h) − 1 for the reference's
  elu, 1/(1 + exp(−h)) for both spellings of σ, and a row of a product depends on one row of its left factor. No
  finiteness is used, so the precondition is never opened. The word-level program's frame is the same run read at the
  word-level instance (K/Run); the idealization rewrote nothing, so there is nothing to preserve.
-/
import proofs.«128402_g50225347559984_cont_8to1_c_967_17_alg».proof.Defs
import proofs.«128402_g50225347559984_cont_8to1_c_967_17_alg».proof.Proof.Gen.Kernel
import proofs.«128402_g50225347559984_cont_8to1_c_967_17_alg».proof.Proof.Gen.KernelIdeal
import proofs.«128402_g50225347559984_cont_8to1_c_967_17_alg».proof.Proof.Gen.ReferenceIdeal
import proofs.«128402_g50225347559984_cont_8to1_c_967_17_alg».proof.Proof.Gen.Pre_finite_inputs
import proofs.«128402_g50225347559984_cont_8to1_c_967_17_alg».proof.Proof.K.Run
import proofs.«128402_g50225347559984_cont_8to1_c_967_17_alg».proof.Proof.KI.Run
import proofs.«128402_g50225347559984_cont_8to1_c_967_17_alg».proof.Proof.KI.Value
import proofs.«128402_g50225347559984_cont_8to1_c_967_17_alg».proof.Proof.RefRun
import Idealize.ShloMosaic.Adequacy
import Idealize.ShloMosaic.Init

noncomputable section

namespace Cert.Proof

open Idealize.ShloMosaic Idealize.SL.Sem

/-- The word-level program runs and leaves its arguments as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- So does its reading on the extended reals. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- So does the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame m ρ

/-- On the extended reals both programs end with the network's result of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run (Cert.KernelIdeal.defs (F := Ideal)) _ _).mono (fun r h c => ?_) (Cert.KernelIdeal.Hand.run_out (F := Ideal) m ρ)
    obtain ⟨⟨F5, h5, e⟩, hargs⟩ := h c
    exact ⟨e.trans (Cert.KernelIdeal.Hand.value m ρ c F5 h5), hargs⟩
  · refine (θ_run (Cert.ReferenceIdeal.defs (F := Ideal)) _ _).mono (fun r h c => ⟨?_, (h c).2⟩) (Cert.ReferenceIdeal.RefRun.run m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
